-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x128 : Shape := ⟨3, ![4096, 8, 128]⟩
abbrev S128x256 : Shape := ⟨2, ![128, 256]⟩
abbrev S64x256 : Shape := ⟨2, ![64, 256]⟩
abbrev S256 : Shape := ⟨1, ![256]⟩
abbrev S64x3 : Shape := ⟨2, ![64, 3]⟩
abbrev S3 : Shape := ⟨1, ![3]⟩
abbrev S_ : Shape := ⟨0, ![]⟩

class Facts : Prop where
  bcast_S_S4096x8x128 : S_.BroadcastsInDim S4096x8x128 (![] : Fin 0 → Fin S4096x8x128.rank)
  reducesTo_S4096x8x128_S_d0_1_2 : S4096x8x128.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S256 .f32) (main_arg5 : FVec F S64x3 .f32) (main_arg6 : FVec F S3 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S64x3 .f32 := Host.absf main_arg5
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S4096x8x128 .f32) (main_arg1 : FVec F S128x256 .f32) (main_arg2 : FVec F S64x256 .f32) (main_arg3 : FVec F S256 .f32) (main_arg4 : FVec F S256 .f32) (main_arg5 : FVec F S64x3 .f32) (main_arg6 : FVec F S3 .f32) : IVec S_ 1 :=
  let main_v0 : FVec F S4096x8x128 .f32 := Host.absf main_arg0
  let main_cst : FVec F S_ .f32 := constant S_ .f32 0x7F800000#32
  let main_v1 : FVec F S4096x8x128 .f32 := broadcastInDim S4096x8x128 ![] bcast_S_S4096x8x128 main_cst
  let main_v2 : IVec S4096x8x128 1 := cmpf .olt main_v0 main_v1
  let main_c : IVec S_ 1 := constantI S_ 1 1#1
  let main_v3 : IVec S_ 1 := (fun x v => Host.reduce IntOp.andi x v reducesTo_S4096x8x128_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S4096x8x128 : Shape := ⟨3, ![4096, 8, 128]⟩
abbrev S128x256 : Shape := ⟨2, ![128, 256]⟩
abbrev S64x256 : Shape := ⟨2, ![64, 256]⟩
abbrev S256 : Shape := ⟨1, ![256]⟩
abbrev S64x3 : Shape := ⟨2, ![64, 3]⟩
abbrev S3 : Shape := ⟨1, ![3]⟩
abbrev S1x256 : Shape := ⟨2, ![1, 256]⟩
abbrev S1x3 : Shape := ⟨2, ![1, 3]⟩
abbrev S4096x3 : Shape := ⟨2, ![4096, 3]⟩
abbrev S1024x8x128 : Shape := ⟨3, ![1024, 8, 128]⟩
abbrev S1024x3 : Shape := ⟨2, ![1024, 3]⟩
abbrev S8x256 : Shape := ⟨2, ![8, 256]⟩
abbrev S200x256 : Shape := ⟨2, ![200, 256]⟩
abbrev S1024x1x128 : Shape := ⟨3, ![1024, 1, 128]⟩
abbrev S1024x128 : Shape := ⟨2, ![1024, 128]⟩
abbrev S1024x8 : Shape := ⟨2, ![1024, 8]⟩
abbrev S1024x64 : Shape := ⟨2, ![1024, 64]⟩
abbrev S1024x200 : Shape := ⟨2, ![1024, 200]⟩
abbrev S1024x256 : Shape := ⟨2, ![1024, 256]⟩

abbrev nBuf : Space → Nat
  | .hbm => 11
  | .vmem => 10
  | .smem => 0
  | _ => 0

abbrev bufTy : (tb : Table) → Fin (tcTables nBuf tb) → BufTy
  | .hbm, ⟨0, _⟩ => ⟨S4096x8x128, .f32⟩
  | .hbm, ⟨1, _⟩ => ⟨S128x256, .f32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S64x3, .f32⟩
  | .hbm, ⟨6, _⟩ => ⟨S3, .f32⟩
  | .hbm, ⟨7, _⟩ => ⟨S1x256, .f32⟩
  | .hbm, ⟨8, _⟩ => ⟨S1x256, .f32⟩
  | .hbm, ⟨9, _⟩ => ⟨S1x3, .f32⟩
  | .hbm, ⟨10, _⟩ => ⟨S4096x3, .f32⟩
  | .local _ .vmem, ⟨0, _⟩ => ⟨S1024x8x128, .f32⟩
  | .local _ .vmem, ⟨1, _⟩ => ⟨S1024x8x128, .f32⟩
  | .local _ .vmem, ⟨2, _⟩ => ⟨S128x256, .f32⟩
  | .local _ .vmem, ⟨3, _⟩ => ⟨S64x256, .f32⟩
  | .local _ .vmem, ⟨4, _⟩ => ⟨S1x256, .f32⟩
  | .local _ .vmem, ⟨5, _⟩ => ⟨S1x256, .f32⟩
  | .local _ .vmem, ⟨6, _⟩ => ⟨S64x3, .f32⟩
  | .local _ .vmem, ⟨7, _⟩ => ⟨S1x3, .f32⟩
  | .local _ .vmem, ⟨8, _⟩ => ⟨S1024x3, .f32⟩
  | .local _ .vmem, ⟨9, _⟩ => ⟨S1024x3, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S256_S1x256_1 : S256.BroadcastsInDim S1x256 (![1] : Fin 1 → Fin S1x256.rank)
  bcast_S3_S1x3_1 : S3.BroadcastsInDim S1x3 (![1] : Fin 1 → Fin S1x3.rank)
  iota_S1x256_d1_w32 : S1x256.Iotas .tc 32 [1]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  broadcasts_S1x256_S128x256 : S1x256.Broadcasts S128x256
  inb_S64x256_S64x256_0_0 : ∀ a, (![0, 0] : Fin 2 → Nat) a + S64x256.size a ≤ S64x256.size a
  h_S64x256 : 0 < S64x256.numel
  broadcasts_S1x256_S64x256 : S1x256.Broadcasts S64x256
  broadcasts_S1x256_S8x256 : S1x256.Broadcasts S8x256
  concatenates_S128x256_S64x256_S8x256_S200x256_d0 : Shape.Concatenates [S128x256, S64x256, S8x256] S200x256 0
  inb_S1024x8x128_S1024x8x128_0_0_0 : ∀ a, (![0, 0, 0] : Fin 3 → Nat) a + S1024x8x128.size a ≤ S1024x8x128.size a
  h_S1024x8x128 : 0 < S1024x8x128.numel
  slices_S1024x8x128_o0_0_0_S1024x1x128 : S1024x8x128.Slices ![0, 0, 0] S1024x1x128
  shapeCasts_S1024x1x128_S1024x128 : S1024x1x128.ShapeCasts S1024x128
  slices_S1024x8x128_o0_1_0_S1024x1x128 : S1024x8x128.Slices ![0, 1, 0] S1024x1x128
  slices_S1024x8x128_o0_2_0_S1024x1x128 : S1024x8x128.Slices ![0, 2, 0] S1024x1x128
  slices_S1024x8x128_o0_3_0_S1024x1x128 : S1024x8x128.Slices ![0, 3, 0] S1024x1x128
  slices_S1024x8x128_o0_4_0_S1024x1x128 : S1024x8x128.Slices ![0, 4, 0] S1024x1x128
  slices_S1024x8x128_o0_5_0_S1024x1x128 : S1024x8x128.Slices ![0, 5, 0] S1024x1x128
  slices_S1024x8x128_o0_6_0_S1024x1x128 : S1024x8x128.Slices ![0, 6, 0] S1024x1x128
  slices_S1024x8x128_o0_7_0_S1024x1x128 : S1024x8x128.Slices ![0, 7, 0] S1024x1x128
  concatenates_S1024x128_S1024x64_S1024x8_S1024x200_d1 : Shape.Concatenates [S1024x128, S1024x64, S1024x8] S1024x200 1
  slices_S1024x256_o0_0_S1024x64 : S1024x256.Slices ![0, 0] S1024x64
  slices_S1024x256_o0_64_S1024x64 : S1024x256.Slices ![0, 64] S1024x64
  slices_S1024x256_o0_128_S1024x64 : S1024x256.Slices ![0, 128] S1024x64
  slices_S1024x256_o0_192_S1024x64 : S1024x256.Slices ![0, 192] S1024x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S1024x3 : S1x3.Broadcasts S1024x3
  inb_S1024x3_S1024x3_0_0 : ∀ a, (![0, 0] : Fin 2 → Nat) a + S1024x3.size a ≤ S1024x3.size a
  h_S1024x3 : 0 < S1024x3.numel
  dot_S1024x200_S200x256_S1024x256_1_0_0_1_n_n_wf : DotDims.WF S1024x200 S200x256 S1024x256 [1] [0] [0] [1] [] []
  dot_S1024x64_S64x3_S1024x3_1_0_0_1_n_n_wf : DotDims.WF S1024x64 S64x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x128.size a ≤ S4096x8x128.size a
  hwx0_0 : ∀ i : grid0.Coords, EltTy.bits .f32 = 32 ∨ (Rect.block (s := S4096x8x128) S1024x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x3.size a ≤ S64x3.size a
  hwx0_5 : ∀ i : grid0.Coords, EltTy.bits .f32 = 32 ∨ (Rect.block (s := S64x3) S64x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3.size a ≤ S1x3.size a
  hwx0_6 : ∀ i : grid0.Coords, EltTy.bits .f32 = 32 ∨ (Rect.block (s := S1x3) S1x3.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x3.size a ≤ S4096x3.size a
  hwx0_7 : ∀ i : grid0.Coords, EltTy.bits .f32 = 32 ∨ (Rect.block (s := S4096x3) S1024x3.size (cc0_transform_7 i) (hinb0_7 i)).WholeWords (EltTy.packing .f32)

variable [Facts₀]

def dot_S1024x200_S200x256_S1024x256_1_0_0_1_n_n : DotDims S1024x200 S200x256 S1024x256 where
  lhsContracting := [1]
  rhsContracting := [0]
  lhsNonContracting := [0]
  rhsNonContracting := [1]
  lhsBatch := []
  rhsBatch := []
  wf := dot_S1024x200_S200x256_S1024x256_1_0_0_1_n_n_wf
def dot_S1024x64_S64x3_S1024x3_1_0_0_1_n_n : DotDims S1024x64 S64x3 S1024x3 where
  lhsContracting := [1]
  rhsContracting := [0]
  lhsNonContracting := [0]
  rhsNonContracting := [1]
  lhsBatch := []
  rhsBatch := []
  wf := dot_S1024x64_S64x3_S1024x3_1_0_0_1_n_n_wf

abbrev win0_0 : Pipeline.Window sig grid0 :=
  Pipeline.Window.ofSpec (Memref.whole main_arg0) S1024x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x3.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x8x128 : Shape := ⟨3, ![4096, 8, 128]⟩
abbrev S128x256 : Shape := ⟨2, ![128, 256]⟩
abbrev S64x256 : Shape := ⟨2, ![64, 256]⟩
abbrev S256 : Shape := ⟨1, ![256]⟩
abbrev S64x3 : Shape := ⟨2, ![64, 3]⟩
abbrev S3 : Shape := ⟨1, ![3]⟩
abbrev S8x4096x128 : Shape := ⟨3, ![8, 4096, 128]⟩
abbrev S32768x128 : Shape := ⟨2, ![32768, 128]⟩
abbrev S_ : Shape := ⟨0, ![]⟩
abbrev S1x256 : Shape := ⟨2, ![1, 256]⟩
abbrev S200x256 : Shape := ⟨2, ![200, 256]⟩
abbrev S1 : Shape := ⟨1, ![1]⟩
abbrev S72x3 : Shape := ⟨2, ![72, 3]⟩
abbrev S4096x3 : Shape := ⟨2, ![4096, 3]⟩
abbrev S32768x256 : Shape := ⟨2, ![32768, 256]⟩
abbrev S4096x256 : Shape := ⟨2, ![4096, 256]⟩
abbrev S4096x64 : Shape := ⟨2, ![4096, 64]⟩
abbrev S1x3 : Shape := ⟨2, ![1, 3]⟩

abbrev nBuf : Space → Nat
  | .hbm => 51
  | .vmem => 5
  | .smem => 0
  | _ => 0

abbrev bufTy : (tb : Table) → Fin (tcTables nBuf tb) → BufTy
  | .hbm, ⟨0, _⟩ => ⟨S4096x8x128, .f32⟩
  | .hbm, ⟨1, _⟩ => ⟨S128x256, .f32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S64x3, .f32⟩
  | .hbm, ⟨6, _⟩ => ⟨S3, .f32⟩
  | .hbm, ⟨7, _⟩ => ⟨S8x4096x128, .f32⟩
  | .hbm, ⟨8, _⟩ => ⟨S32768x128, .f32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i1⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S128x256, .f32⟩
  | .hbm, ⟨25, _⟩ => ⟨S128x256, .f32⟩
  | .hbm, ⟨26, _⟩ => ⟨S1x256, .f32⟩
  | .hbm, ⟨27, _⟩ => ⟨S64x256, .f32⟩
  | .hbm, ⟨28, _⟩ => ⟨S64x256, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S200x256, .f32⟩
  | .hbm, ⟨33, _⟩ => ⟨S_, .i32⟩
  | .hbm, ⟨34, _⟩ => ⟨S1, .i32⟩
  | .hbm, ⟨35, _⟩ => ⟨S200x256, .f32⟩
  | .hbm, ⟨36, _⟩ => ⟨S_, .i32⟩
  | .hbm, ⟨37, _⟩ => ⟨S1, .i32⟩
  | .hbm, ⟨38, _⟩ => ⟨S200x256, .f32⟩
  | .hbm, ⟨39, _⟩ => ⟨S_, .i32⟩
  | .hbm, ⟨40, _⟩ => ⟨S1, .i32⟩
  | .hbm, ⟨41, _⟩ => ⟨S200x256, .f32⟩
  | .hbm, ⟨42, _⟩ => ⟨S_, .f32⟩
  | .hbm, ⟨43, _⟩ => ⟨S72x3, .f32⟩
  | .hbm, ⟨44, _⟩ => ⟨S_, .i32⟩
  | .hbm, ⟨45, _⟩ => ⟨S1, .i32⟩
  | .hbm, ⟨46, _⟩ => ⟨S72x3, .f32⟩
  | .hbm, ⟨47, _⟩ => ⟨S_, .i32⟩
  | .hbm, ⟨48, _⟩ => ⟨S1, .i32⟩
  | .hbm, ⟨49, _⟩ => ⟨S72x3, .f32⟩
  | .hbm, ⟨50, _⟩ => ⟨S4096x3, .f32⟩
  | .local _ .vmem, ⟨0, _⟩ => ⟨S32768x128, .f32⟩
  | .local _ .vmem, ⟨1, _⟩ => ⟨S200x256, .f32⟩
  | .local _ .vmem, ⟨2, _⟩ => ⟨S72x3, .f32⟩
  | .local _ .vmem, ⟨3, _⟩ => ⟨S4096x3, .f32⟩
  | .local _ .vmem, ⟨4, _⟩ => ⟨S32768x256, .f32⟩
  | _, _ => ⟨S4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def k0_mult1 : BitVec 32 :=
  let c0_i32 : BitVec 32 := 0#32
  let c4096_i32 : BitVec 32 := 4096#32
  let v28 : BitVec 32 := Scalar.muli c0_i32 c4096_i32
  v28
def k0_off1 (c0_i32 : BitVec 32) : Fin 2 → Nat :=
  let c4096_i32 : BitVec 32 := 4096#32
  let v28 : BitVec 32 := Scalar.muli c0_i32 c4096_i32
  let v29 : BitVec 32 := v28
  let v30 : Index := Scalar.indexCast v29
  let c0_13 : Index := 0#32
  ![v30.toNat, 0]
def k0_mult2 : BitVec 32 :=
  let c1_i32 : BitVec 32 := 1#32
  let c4096_i32_15 : BitVec 32 := 4096#32
  let v46 : BitVec 32 := Scalar.muli c1_i32 c4096_i32_15
  v46
def k0_mult3 : BitVec 32 :=
  let c2_i32 : BitVec 32 := 2#32
  let c4096_i32_18 : BitVec 32 := 4096#32
  let v64 : BitVec 32 := Scalar.muli c2_i32 c4096_i32_18
  v64
def k0_mult4 : BitVec 32 :=
  let c3_i32 : BitVec 32 := 3#32
  let c4096_i32_21 : BitVec 32 := 4096#32
  let v82 : BitVec 32 := Scalar.muli c3_i32 c4096_i32_21
  v82
def k0_mult5 : BitVec 32 :=
  let c4_i32 : BitVec 32 := 4#32
  let c4096_i32_24 : BitVec 32 := 4096#32
  let v100 : BitVec 32 := Scalar.muli c4_i32 c4096_i32_24
  v100
def k0_mult6 : BitVec 32 :=
  let c5_i32 : BitVec 32 := 5#32
  let c4096_i32_27 : BitVec 32 := 4096#32
  let v118 : BitVec 32 := Scalar.muli c5_i32 c4096_i32_27
  v118
def k0_mult7 : BitVec 32 :=
  let c6_i32 : BitVec 32 := 6#32
  let c4096_i32_30 : BitVec 32 := 4096#32
  let v136 : BitVec 32 := Scalar.muli c6_i32 c4096_i32_30
  v136
def k0_mult8 : BitVec 32 :=
  let c7_i32 : BitVec 32 := 7#32
  let c4096_i32_33 : BitVec 32 := 4096#32
  let v154 : BitVec 32 := Scalar.muli c7_i32 c4096_i32_33
  v154
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32768x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S200x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  transposes_S4096x8x128_S8x4096x128_1_0_2 : S4096x8x128.Transposes [1, 0, 2] S8x4096x128
  shapeCasts_S8x4096x128_S32768x128 : S8x4096x128.ShapeCasts S32768x128
  bcast_S_S256 : S_.BroadcastsInDim S256 (![] : Fin 0 → Fin S256.rank)
  bcast_S256_S1x256_1 : S256.BroadcastsInDim S1x256 (![1] : Fin 1 → Fin S1x256.rank)
  bcast_S1x256_S128x256_0_1 : S1x256.BroadcastsInDim S128x256 (![0, 1] : Fin 2 → Fin S128x256.rank)
  bcast_S1x256_S64x256_0_1 : S1x256.BroadcastsInDim S64x256 (![0, 1] : Fin 2 → Fin S64x256.rank)
  bcast_S_S200x256 : S_.BroadcastsInDim S200x256 (![] : Fin 0 → Fin S200x256.rank)
  bcast_S_S1 : S_.BroadcastsInDim S1 (![] : Fin 0 → Fin S1.rank)
  bcast_S_S72x3 : S_.BroadcastsInDim S72x3 (![] : Fin 0 → Fin S72x3.rank)
  inb_S32768x128_S32768x128_0_0 : ∀ a, (![0, 0] : Fin 2 → Nat) a + S32768x128.size a ≤ S32768x128.size a
  h_S32768x128 : 0 < S32768x128.numel
  shapeCasts_S32768x128_S32768x128 : S32768x128.ShapeCasts S32768x128
  inb_S200x256_S128x256_0_0 : ∀ a, (![0, 0] : Fin 2 → Nat) a + S128x256.size a ≤ S200x256.size a
  h_S128x256 : 0 < S128x256.numel
  shapeCasts_S128x256_S128x256 : S128x256.ShapeCasts S128x256
  inb_S200x256_S1x256_192_0 : ∀ a, (![192, 0] : Fin 2 → Nat) a + S1x256.size a ≤ S200x256.size a
  h_S1x256 : 0 < S1x256.numel
  shapeCasts_S1x256_S1x256 : S1x256.ShapeCasts S1x256
  broadcasts_S1x256_S32768x256 : S1x256.Broadcasts S32768x256
  inb_S32768x256_S32768x256_0_0 : ∀ a, (![0, 0] : Fin 2 → Nat) a + S32768x256.size a ≤ S32768x256.size a
  h_S32768x256 : 0 < S32768x256.numel
  shapeCasts_S32768x256_S32768x256 : S32768x256.ShapeCasts S32768x256
  inb_S200x256_S64x256_128_0 : ∀ a, (![128, 0] : Fin 2 → Nat) a + S64x256.size a ≤ S200x256.size a
  h_S64x256 : 0 < S64x256.numel
  shapeCasts_S64x256_S64x256 : S64x256.ShapeCasts S64x256
  iota_S4096x256_d1_w32 : S4096x256.Iotas .tc 32 [1]
  h_S4096x256 : 0 < S4096x256.numel
  slices_S4096x256_o0_0_S4096x64 : S4096x256.Slices ![0, 0] S4096x64
  slices_S4096x256_o0_64_S4096x64 : S4096x256.Slices ![0, 64] S4096x64
  slices_S4096x256_o0_128_S4096x64 : S4096x256.Slices ![0, 128] S4096x64
  slices_S4096x256_o0_192_S4096x64 : S4096x256.Slices ![0, 192] S4096x64
  inb_S72x3_S64x3_0_0 : ∀ a, (![0, 0] : Fin 2 → Nat) a + S64x3.size a ≤ S72x3.size a
  h_S64x3 : 0 < S64x3.numel
  shapeCasts_S64x3_S64x3 : S64x3.ShapeCasts S64x3
  inb_S72x3_S1x3_64_0 : ∀ a, (![64, 0] : Fin 2 → Nat) a + S1x3.size a ≤ S72x3.size a
  h_S1x3 : 0 < S1x3.numel
  shapeCasts_S1x3_S1x3 : S1x3.ShapeCasts S1x3
  broadcasts_S1x3_S4096x3 : S1x3.Broadcasts S4096x3
  inb_S4096x3_S4096x3_0_0 : ∀ a, (![0, 0] : Fin 2 → Nat) a + S4096x3.size a ≤ S4096x3.size a
  h_S4096x3 : 0 < S4096x3.numel
  scatter_S200x256_S1_S128x256_01_n_0_0_wf : ScatterDims.WF S200x256 S1 S128x256 [0, 1] [] [0] 0
  scatter_S200x256_S1_S64x256_01_n_0_0_wf : ScatterDims.WF S200x256 S1 S64x256 [0, 1] [] [0] 0
  scatter_S200x256_S1_S256_0_0_0_0_wf : ScatterDims.WF S200x256 S1 S256 [0] [0] [0] 0
  scatter_S72x3_S1_S64x3_01_n_0_0_wf : ScatterDims.WF S72x3 S1 S64x3 [0, 1] [] [0] 0
  scatter_S72x3_S1_S3_0_0_0_0_wf : ScatterDims.WF S72x3 S1 S3 [0] [0] [0] 0
  dot_S32768x128_S128x256_S32768x256_1_0_0_1_n_n_wf : DotDims.WF S32768x128 S128x256 S32768x256 [1] [0] [0] [1] [] []
  dot_S4096x64_S64x256_S4096x256_1_0_0_1_n_n_wf : DotDims.WF S4096x64 S64x256 S4096x256 [1] [0] [0] [1] [] []
  dot_S4096x64_S64x3_S4096x3_1_0_0_1_n_n_wf : DotDims.WF S4096x64 S64x3 S4096x3 [1] [0] [0] [1] [] []
  hrank0 : 0 < grid0.rank
  k0_mult1_dvd : 4096 ∣ k0_mult1.toNat
  k0_off1_inb : ∀ (r : Fin 8), ∀ a, (k0_off1 (BitVec.ofNat 32 r.val)) a + S4096x256.size a ≤ S32768x256.size a
  k0_mult2_dvd : 4096 ∣ k0_mult2.toNat
  k0_mult3_dvd : 4096 ∣ k0_mult3.toNat
  k0_mult4_dvd : 4096 ∣ k0_mult4.toNat
  k0_mult5_dvd : 4096 ∣ k0_mult5.toNat
  k0_mult6_dvd : 4096 ∣ k0_mult6.toNat
  k0_mult7_dvd : 4096 ∣ k0_mult7.toNat
  k0_mult8_dvd : 4096 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32768x128.size a ≤ S32768x128.size a
  hwx0_0 : ∀ i : grid0.Coords, EltTy.bits .f32 = 32 ∨ (Rect.block (s := S32768x128) S32768x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S200x256.size a ≤ S200x256.size a
  hwx0_1 : ∀ i : grid0.Coords, EltTy.bits .f32 = 32 ∨ (Rect.block (s := S200x256) S200x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S72x3.size a ≤ S72x3.size a
  hwx0_2 : ∀ i : grid0.Coords, EltTy.bits .f32 = 32 ∨ (Rect.block (s := S72x3) S72x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x3.size a ≤ S4096x3.size a
  hwx0_3 : ∀ i : grid0.Coords, EltTy.bits .f32 = 32 ∨ (Rect.block (s := S4096x3) S4096x3.size (cc0_transform_3 i) (hinb0_3 i)).WholeWords (EltTy.packing .f32)

variable [Facts₀]

def scatter_S200x256_S1_S128x256_01_n_0_0 : ScatterDims S200x256 S1 S128x256 where
  updateWindowDims := [0, 1]
  insertedWindowDims := []
  scatterDimsToOperandDims := [0]
  indexVectorDim := 0
  wf := scatter_S200x256_S1_S128x256_01_n_0_0_wf
def scatter_S200x256_S1_S64x256_01_n_0_0 : ScatterDims S200x256 S1 S64x256 where
  updateWindowDims := [0, 1]
  insertedWindowDims := []
  scatterDimsToOperandDims := [0]
  indexVectorDim := 0
  wf := scatter_S200x256_S1_S64x256_01_n_0_0_wf
def scatter_S200x256_S1_S256_0_0_0_0 : ScatterDims S200x256 S1 S256 where
  updateWindowDims := [0]
  insertedWindowDims := [0]
  scatterDimsToOperandDims := [0]
  indexVectorDim := 0
  wf := scatter_S200x256_S1_S256_0_0_0_0_wf
def scatter_S72x3_S1_S64x3_01_n_0_0 : ScatterDims S72x3 S1 S64x3 where
  updateWindowDims := [0, 1]
  insertedWindowDims := []
  scatterDimsToOperandDims := [0]
  indexVectorDim := 0
  wf := scatter_S72x3_S1_S64x3_01_n_0_0_wf
def scatter_S72x3_S1_S3_0_0_0_0 : ScatterDims S72x3 S1 S3 where
  updateWindowDims := [0]
  insertedWindowDims := [0]
  scatterDimsToOperandDims := [0]
  indexVectorDim := 0
  wf := scatter_S72x3_S1_S3_0_0_0_0_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_v1) S32768x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v24) S200x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S72x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S4096x3.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.LstmSpec.lean ====
/-
  The long short-term memory recurrence that both programs compute, as ONE function of the argument arrays on the
  extended reals, row by row of the batch.

  Gate columns are ordered input | forget | cell | output, 64 columns each.  The sigmoid of the three sigmoid gates is
  computed as `tanh (z / 2) / 2 + 1 / 2`: the weights' and the bias' columns of those gates carry the factor 1/2
  (`colScale`), the cell gate's columns the factor 1, so ONE `tanh` over all 256 pre-activations serves the four gates.
  One step from the state `(h, c)` at the input row `x`:
      a   = tanh (x · (W_ih ∘ colScale) + (b_ih + b_hh) ∘ colScale + h · (W_hh ∘ colScale))
      c'  = (a_f / 2 + 1 / 2) · c + (a_i / 2 + 1 / 2) · a_g
      h'  = (a_o / 2 + 1 / 2) · tanh c'
  Eight steps from the zero state, then the output layer `h₈ · W_out + b_out`.

  Also here: the two laws about finite sums of extended reals by which a pre-activation written as ONE contraction over the
  200 rows of the stacked matrix [W_ih ; W_hh ; the bias eight times] against the row [x | h | 1/8 eight times] is the
  three-term form above.  Neither needs finiteness: a sum over a disjoint union is the sum of the sums in any commutative
  monoid, and eight times an eighth of `b` is `b` also at the two infinities.
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-! ## The constants the programs spell -/

/-- The f32 pattern of 0.5. -/
abbrev half : EReal := Ideal.ofBits .f32 0x3F000000#32
/-- The f32 pattern of 1.0. -/
abbrev one : EReal := Ideal.ofBits .f32 0x3F800000#32
/-- The bf16 pattern of 0.125. -/
abbrev eighth : EReal := Ideal.ofBits .bf16 0x3E00#16

theorem one_eq : one = 1 := by
  simp [Ideal.ofBits, Ideal.ieee, -EReal.coe_mul]; norm_num

theorem eighth_eq : eighth = ((1 / 8 : ℝ) : EReal) := by
  simp [Ideal.ofBits, Ideal.ieee, -EReal.coe_mul]; norm_num

/-! ## The recurrence -/

/-- The factor a gate column carries: 1 on the cell gate's columns 128 … 191, 1/2 on the others. -/
def colScale (n : Fin 256) : EReal := if 128 ≤ n.val ∧ n.val < 192 then one else half

/-- The parameters, read off the argument arrays. -/
structure Params where
  wih : Fin 128 → Fin 256 → EReal
  whh : Fin 64 → Fin 256 → EReal
  bih : Fin 256 → EReal
  bhh : Fin 256 → EReal
  wout : Fin 64 → Fin 3 → EReal
  bout : Fin 3 → EReal

variable (P : Params)

/-- The scaled input weights. -/
def wihS (d : Fin 128) (n : Fin 256) : EReal := P.wih d n * colScale n
/-- The scaled recurrent weights. -/
def whhS (j : Fin 64) (n : Fin 256) : EReal := P.whh j n * colScale n
/-- The scaled sum of the two biases. -/
def biasS (n : Fin 256) : EReal := (P.bih n + P.bhh n) * colScale n

/-- Column `j` of gate `g` among the 256. -/
def col (g : Fin 4) (j : Fin 64) : Fin 256 := ⟨64 * g.val + j.val, by omega⟩

/-- A step's 256 pre-activations: the input's projection plus the bias, plus the state's projection. -/
def pre (x : Fin 128 → EReal) (h : Fin 64 → EReal) (n : Fin 256) : EReal :=
  (∑ d, x d * wihS P d n + biasS P n) + ∑ j, h j * whhS P j n

/-- The one `tanh` over the pre-activations. -/
def act (x : Fin 128 → EReal) (h : Fin 64 → EReal) (n : Fin 256) : EReal := Ideal.tanh (pre P x h n)

/-- The input gate: a sigmoid, from the `tanh` of the halved pre-activation. -/
def gateI (a : Fin 256 → EReal) (j : Fin 64) : EReal := a (col 0 j) * half + half
/-- The forget gate. -/
def gateF (a : Fin 256 → EReal) (j : Fin 64) : EReal := a (col 1 j) * half + half
/-- The cell gate: the `tanh` itself. -/
def gateG (a : Fin 256 → EReal) (j : Fin 64) : EReal := a (col 2 j)
/-- The output gate. -/
def gateO (a : Fin 256 → EReal) (j : Fin 64) : EReal := a (col 3 j) * half + half

/-- The next cell state. -/
def nextC (a : Fin 256 → EReal) (c : Fin 64 → EReal) (j : Fin 64) : EReal := gateF a j * c j + gateI a j * gateG a j
/-- The next hidden state. -/
def nextH (a : Fin 256 → EReal) (c' : Fin 64 → EReal) (j : Fin 64) : EReal := gateO a j * Ideal.tanh (c' j)

/-- The state: hidden and cell. -/
abbrev State := (Fin 64 → EReal) × (Fin 64 → EReal)

/-- One step. -/
def step (x : Fin 128 → EReal) (s : State) : State :=
  (nextH (act P x s.1) (nextC (act P x s.1) s.2), nextC (act P x s.1) s.2)

/-- The zero state. -/
def zeroState : State := (fun _ => 0, fun _ => 0)

/-- The state after the eight steps of a row `x` (time by feature). -/
def final (x : Fin 8 → Fin 128 → EReal) : State :=
  step P (x 7) (step P (x 6) (step P (x 5) (step P (x 4) (step P (x 3) (step P (x 2) (step P (x 1) (step P (x 0) zeroState)))))))

/-- The output layer on the last hidden state. -/
def out (x : Fin 8 → Fin 128 → EReal) (a : Fin 3) : EReal := ∑ j, (final P x).1 j * P.wout j a + P.bout a

/-! ## The result as one function of the argument arrays -/

/-- The parameters as the arrays hold them. -/
def paramsOf (wih : (⟨2, ![128, 256]⟩ : Shape).Idx → EReal) (whh : (⟨2, ![64, 256]⟩ : Shape).Idx → EReal)
    (bih bhh : (⟨1, ![256]⟩ : Shape).Idx → EReal) (wout : (⟨2, ![64, 3]⟩ : Shape).Idx → EReal)
    (bout : (⟨1, ![3]⟩ : Shape).Idx → EReal) : Params where
  wih d n := wih (ix2 d n)
  whh j n := whh (ix2 j n)
  bih n := bih (ix1 n)
  bhh n := bhh (ix1 n)
  wout j a := wout (ix2 j a)
  bout a := bout (ix1 a)

/-- Row `r` of the batch, time by feature. -/
def rowOf (x : (⟨3, ![4096, 8, 128]⟩ : Shape).Idx → EReal) (r : Fin 4096) (t : Fin 8) (d : Fin 128) : EReal := x (ix3 r t d)

/-- THE RESULT: entry (r, a) is output `a` of the network run on row `r`. -/
def result (x : (⟨3, ![4096, 8, 128]⟩ : Shape).Idx → EReal) (wih : (⟨2, ![128, 256]⟩ : Shape).Idx → EReal)
    (whh : (⟨2, ![64, 256]⟩ : Shape).Idx → EReal) (bih bhh : (⟨1, ![256]⟩ : Shape).Idx → EReal)
    (wout : (⟨2, ![64, 3]⟩ : Shape).Idx → EReal) (bout : (⟨1, ![3]⟩ : Shape).Idx → EReal) :
    (⟨2, ![4096, 3]⟩ : Shape).Idx → EReal :=
  fun i => out (paramsOf wih whh bih bhh wout bout) (rowOf x (i 0)) (i 1)

/-! ## Sums of extended reals -/

/-- A sum over 200 = 128 + 64 + 8 consecutive indices is the sum of the three stretches' sums. -/
theorem sum_three_stretches {M : Type*} [AddCommMonoid M] (f : Fin 200 → M) :
    ∑ k, f k = (∑ d : Fin 128, f ⟨d.val, by omega⟩ + ∑ j : Fin 64, f ⟨128 + j.val, by omega⟩)
      + ∑ i : Fin 8, f ⟨192 + i.val, by omega⟩ := by
  have e : ∑ k, f k = ∑ k : Fin (128 + 64 + 8), f ⟨k.val, by omega⟩ := rfl
  rw [e, Fin.sum_univ_add, Fin.sum_univ_add]
  rfl

/-- Eight eighths of an extended real are that extended real, the infinities included. -/
theorem eight_eighths (b : EReal) : ∑ _i : Fin 8, eighth * b = b := by
  rw [eighth_eq]
  simp only [Finset.sum_const, Finset.card_univ, Fintype.card_fin]
  induction b using EReal.rec with
  | bot =>
    rw [EReal.coe_mul_bot_of_pos (by norm_num)]
    have e : (8 : ℕ) • (⊥ : EReal) = (8 : EReal) * ⊥ := by simp [nsmul_eq_mul]
    rw [e]; exact EReal.mul_bot_of_pos (by norm_num)
  | top =>
    rw [EReal.coe_mul_top_of_pos (by norm_num)]
    have e : (8 : ℕ) • (⊤ : EReal) = (8 : EReal) * ⊤ := by simp [nsmul_eq_mul]
    rw [e]; exact EReal.mul_top_of_pos (by norm_num)
  | coe r =>
    rw [← EReal.coe_mul, ← EReal.coe_nsmul]
    congr 1
    simp only [nsmul_eq_mul]; ring

/-- The pre-activation as ONE contraction over the 200 stacked rows: against a left row that is `x` on the first 128
    places, `h` on the next 64 and an eighth on the last 8, and a right column that is the scaled input weights, the scaled
    recurrent weights and the scaled bias eight times, the sum of products is `pre`. -/
theorem pre_eq_contraction (x : Fin 128 → EReal) (h : Fin 64 → EReal) (n : Fin 256) (L R : Fin 200 → EReal)
    (hL1 : ∀ d : Fin 128, L ⟨d.val, by omega⟩ = x d) (hL2 : ∀ j : Fin 64, L ⟨128 + j.val, by omega⟩ = h j)
    (hL3 : ∀ i : Fin 8, L ⟨192 + i.val, by omega⟩ = eighth)
    (hR1 : ∀ d : Fin 128, R ⟨d.val, by omega⟩ = wihS P d n) (hR2 : ∀ j : Fin 64, R ⟨128 + j.val, by omega⟩ = whhS P j n)
    (hR3 : ∀ i : Fin 8, R ⟨192 + i.val, by omega⟩ = biasS P n) :
    ∑ k, L k * R k = pre P x h n := by
  rw [sum_three_stretches]
  simp only [hL1, hL2, hL3, hR1, hR2, hR3]
  rw [eight_eighths, pre]
  exact add_right_comm _ _ _

end Cert.Lstm

end
-- ==== Proof.KernelRows.lean ====
import proofs.«137923_g2000504385433502_pallaspilot1_15_32_alg».proof.Proof.Gen.KernelIdeal.Skeleton
import proofs.«137923_g2000504385433502_pallaspilot1_15_32_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LstmValue

open Cert.KernelIdeal Cert.KernelIdeal.Gen Idealize.ShloMosaic Idealize.ShloMosaic.ValueIdx

/-! # Reading the kernel's vector operations one row at a time

Every vector the kernel body computes has 1024 rows, one per batch row of the block, and no operation mixes rows: the
contraction runs along a row, the gates are column stretches of a row. So the body's value is determined row by row. -/

/-- Row `b` of a 1024-row matrix is the function `f` of the column. -/
def RowIs {n : Nat} (v : (⟨2, ![1024, n]⟩ : Shape).Idx → EReal) (b : Fin 1024) (f : Fin n → EReal) : Prop :=
  ∀ j, v (ix2 b j) = f j

/-! ## The two contractions as sums over the contracted coordinate -/

theorem matmul200_apply (A : FVec Ideal S1024x200 .bf16) (B : FVec Ideal S200x256 .bf16) (b : Fin 1024) (n : Fin 256) :
    matmul dot_S1024x200_S200x256_S1024x256_1_0_0_1_n_n none A B (constant (F := Ideal) S1024x256 .f32 0x00000000#32) (ix2 b n)
      = ∑ k : Fin 200, A (ix2 b k) * B (ix2 k n) := by
  show FloatOps.matmul _ none A B _ (ix2 b n) = _
  rw [Ideal.matmul_constant_zero_apply,
    ← Equiv.sum_comp (contrEquiv1 dot_S1024x200_S200x256_S1024x256_1_0_0_1_n_n 200 rfl rfl).symm]
  refine Finset.sum_congr rfl fun c _ => ?_
  have c2 := contrEquiv1_symm_val dot_S1024x200_S200x256_S1024x256_1_0_0_1_n_n 200 rfl rfl c
  have l2 : dot_S1024x200_S200x256_S1024x256_1_0_0_1_n_n.lhsIdx (ix2 b n) ((contrEquiv1 _ 200 rfl rfl).symm c) = ix2 b c := by
    funext ax; apply Fin.ext
    match ax with
    | ⟨0, _⟩ => simp [DotDims.lhsIdx, dot_S1024x200_S200x256_S1024x256_1_0_0_1_n_n]; rfl
    | ⟨1, _⟩ => simp [DotDims.lhsIdx, dot_S1024x200_S200x256_S1024x256_1_0_0_1_n_n]; exact c2
  have r2 : dot_S1024x200_S200x256_S1024x256_1_0_0_1_n_n.rhsIdx (ix2 b n) ((contrEquiv1 _ 200 rfl rfl).symm c) = ix2 c n := by
    funext ax; apply Fin.ext
    match ax with
    | ⟨0, _⟩ => simp [DotDims.rhsIdx, dot_S1024x200_S200x256_S1024x256_1_0_0_1_n_n]; exact c2
    | ⟨1, _⟩ => simp [DotDims.rhsIdx, dot_S1024x200_S200x256_S1024x256_1_0_0_1_n_n]; rfl
  rw [l2, r2]

theorem matmul64_apply (A : FVec Ideal S1024x64 .f32) (B : FVec Ideal S64x3 .f32) (b : Fin 1024) (n : Fin 3) :
    matmul dot_S1024x64_S64x3_S1024x3_1_0_0_1_n_n none A B (constant (F := Ideal) S1024x3 .f32 0x00000000#32) (ix2 b n)
      = ∑ k : Fin 64, A (ix2 b k) * B (ix2 k n) := by
  show FloatOps.matmul _ none A B _ (ix2 b n) = _
  rw [Ideal.matmul_constant_zero_apply,
    ← Equiv.sum_comp (contrEquiv1 dot_S1024x64_S64x3_S1024x3_1_0_0_1_n_n 64 rfl rfl).symm]
  refine Finset.sum_congr rfl fun c _ => ?_
  have c2 := contrEquiv1_symm_val dot_S1024x64_S64x3_S1024x3_1_0_0_1_n_n 64 rfl rfl c
  have l2 : dot_S1024x64_S64x3_S1024x3_1_0_0_1_n_n.lhsIdx (ix2 b n) ((contrEquiv1 _ 64 rfl rfl).symm c) = ix2 b c := by
    funext ax; apply Fin.ext
    match ax with
    | ⟨0, _⟩ => simp [DotDims.lhsIdx, dot_S1024x64_S64x3_S1024x3_1_0_0_1_n_n]; rfl
    | ⟨1, _⟩ => simp [DotDims.lhsIdx, dot_S1024x64_S64x3_S1024x3_1_0_0_1_n_n]; exact c2
  have r2 : dot_S1024x64_S64x3_S1024x3_1_0_0_1_n_n.rhsIdx (ix2 b n) ((contrEquiv1 _ 64 rfl rfl).symm c) = ix2 c n := by
    funext ax; apply Fin.ext
    match ax with
    | ⟨0, _⟩ => simp [DotDims.rhsIdx, dot_S1024x64_S64x3_S1024x3_1_0_0_1_n_n]; exact c2
    | ⟨1, _⟩ => simp [DotDims.rhsIdx, dot_S1024x64_S64x3_S1024x3_1_0_0_1_n_n]; rfl
  rw [l2, r2]

/-! ## The two three-piece concatenations -/

/-- The left operand [x | h | eighths] on its first 128 columns is x. -/
theorem lhsCat_x {α : Type} (A : S1024x128.Idx → α) (B : S1024x64.Idx → α) (C : S1024x8.Idx → α)
    (pf : Shape.Concatenates [S1024x128, S1024x64, S1024x8] S1024x200 1) (b : Fin 1024) (j : Fin 128) :
    concatenate S1024x200 1 [⟨S1024x128, A⟩, ⟨S1024x64, B⟩, ⟨S1024x8, C⟩] pf (ix2 b ⟨j.val, by omega⟩) = A (ix2 b j) := by
  refine concatenate_apply_piece (t := S1024x200) (1 : Fin 2) [⟨S1024x128, A⟩, ⟨S1024x64, B⟩, ⟨S1024x8, C⟩] pf _ 0 (by show 0 < 3; omega) S1024x128 A rfl rfl 0 rfl (ix2 b j) (fun a ha => ?_) ?_
  · match a with
    | ⟨0, _⟩ => rfl
    | ⟨1, _⟩ => exact absurd rfl ha
  · exact Nat.zero_add _

/-- On its next 64 columns it is h. -/
theorem lhsCat_h {α : Type} (A : S1024x128.Idx → α) (B : S1024x64.Idx → α) (C : S1024x8.Idx → α)
    (pf : Shape.Concatenates [S1024x128, S1024x64, S1024x8] S1024x200 1) (b : Fin 1024) (j : Fin 64) :
    concatenate S1024x200 1 [⟨S1024x128, A⟩, ⟨S1024x64, B⟩, ⟨S1024x8, C⟩] pf (ix2 b ⟨128 + j.val, by omega⟩) = B (ix2 b j) := by
  refine concatenate_apply_piece (t := S1024x200) (1 : Fin 2) [⟨S1024x128, A⟩, ⟨S1024x64, B⟩, ⟨S1024x8, C⟩] pf _ 1 (by show 1 < 3; omega) S1024x64 B rfl rfl 128 rfl (ix2 b j) (fun a ha => ?_) ?_
  · match a with
    | ⟨0, _⟩ => rfl
    | ⟨1, _⟩ => exact absurd rfl ha
  · rfl

/-- On its last 8 columns it is the eighths. -/
theorem lhsCat_e {α : Type} (A : S1024x128.Idx → α) (B : S1024x64.Idx → α) (C : S1024x8.Idx → α)
    (pf : Shape.Concatenates [S1024x128, S1024x64, S1024x8] S1024x200 1) (b : Fin 1024) (j : Fin 8) :
    concatenate S1024x200 1 [⟨S1024x128, A⟩, ⟨S1024x64, B⟩, ⟨S1024x8, C⟩] pf (ix2 b ⟨192 + j.val, by omega⟩) = C (ix2 b j) := by
  refine concatenate_apply_piece (t := S1024x200) (1 : Fin 2) [⟨S1024x128, A⟩, ⟨S1024x64, B⟩, ⟨S1024x8, C⟩] pf _ 2 (by show 2 < 3; omega) S1024x8 C rfl rfl 192 rfl (ix2 b j) (fun a ha => ?_) ?_
  · match a with
    | ⟨0, _⟩ => rfl
    | ⟨1, _⟩ => exact absurd rfl ha
  · rfl

/-- The stacked matrix on its first 128 rows is its first piece. -/
theorem stackCat_1 {α : Type} (A : S128x256.Idx → α) (B : S64x256.Idx → α) (C : S8x256.Idx → α)
    (pf : Shape.Concatenates [S128x256, S64x256, S8x256] S200x256 0) (j : Fin 128) (n : Fin 256) :
    concatenate S200x256 0 [⟨S128x256, A⟩, ⟨S64x256, B⟩, ⟨S8x256, C⟩] pf (ix2 ⟨j.val, by omega⟩ n) = A (ix2 j n) := by
  refine concatenate_apply_piece (t := S200x256) (0 : Fin 2) [⟨S128x256, A⟩, ⟨S64x256, B⟩, ⟨S8x256, C⟩] pf _ 0 (by show 0 < 3; omega) S128x256 A rfl rfl 0 rfl (ix2 j n) (fun a ha => ?_) ?_
  · match a with
    | ⟨0, _⟩ => exact absurd rfl ha
    | ⟨1, _⟩ => rfl
  · exact Nat.zero_add _

/-- On its next 64 rows it is its second piece. -/
theorem stackCat_2 {α : Type} (A : S128x256.Idx → α) (B : S64x256.Idx → α) (C : S8x256.Idx → α)
    (pf : Shape.Concatenates [S128x256, S64x256, S8x256] S200x256 0) (j : Fin 64) (n : Fin 256) :
    concatenate S200x256 0 [⟨S128x256, A⟩, ⟨S64x256, B⟩, ⟨S8x256, C⟩] pf (ix2 ⟨128 + j.val, by omega⟩ n) = B (ix2 j n) := by
  refine concatenate_apply_piece (t := S200x256) (0 : Fin 2) [⟨S128x256, A⟩, ⟨S64x256, B⟩, ⟨S8x256, C⟩] pf _ 1 (by show 1 < 3; omega) S64x256 B rfl rfl 128 rfl (ix2 j n) (fun a ha => ?_) ?_
  · match a with
    | ⟨0, _⟩ => exact absurd rfl ha
    | ⟨1, _⟩ => rfl
  · rfl

/-- On its last 8 rows it is its third piece. -/
theorem stackCat_3 {α : Type} (A : S128x256.Idx → α) (B : S64x256.Idx → α) (C : S8x256.Idx → α)
    (pf : Shape.Concatenates [S128x256, S64x256, S8x256] S200x256 0) (j : Fin 8) (n : Fin 256) :
    concatenate S200x256 0 [⟨S128x256, A⟩, ⟨S64x256, B⟩, ⟨S8x256, C⟩] pf (ix2 ⟨192 + j.val, by omega⟩ n) = C (ix2 j n) := by
  refine concatenate_apply_piece (t := S200x256) (0 : Fin 2) [⟨S128x256, A⟩, ⟨S64x256, B⟩, ⟨S8x256, C⟩] pf _ 2 (by show 2 < 3; omega) S8x256 C rfl rfl 192 rfl (ix2 j n) (fun a ha => ?_) ?_
  · match a with
    | ⟨0, _⟩ => exact absurd rfl ha
    | ⟨1, _⟩ => rfl
  · rfl

/-! ## The column scale, the stacked matrix, the input rows -/

theorem scale_bits : ∀ n : Fin 256,
    IntOp.andi (IntOp.cmpi .sge (BitVec.ofNat 32 n.val) 128#32) (IntOp.cmpi .slt (BitVec.ofNat 32 n.val) 192#32)
      = if 128 ≤ n.val ∧ n.val < 192 then 1#1 else 0#1 := by decide +kernel

/-- The selected scale row (1 where the column index is in 128 … 191, 1/2 elsewhere) is `colScale`. -/
theorem scale_apply (hi : S1x256.Iotas .tc 32 [1]) (n : Fin 256) :
    select (andi (cmpi .sge (iota .tc S1x256 32 [1] hi) (broadcast S1x256 128#32)) (cmpi .slt (iota .tc S1x256 32 [1] hi) (broadcast S1x256 192#32)))
      (broadcast S1x256 (Scalar.ofBits (F := Ideal) .f32 0x3F800000#32)) (broadcast S1x256 (Scalar.ofBits (F := Ideal) .f32 0x3F000000#32)) (ix2 (0 : Fin 1) n)
      = Cert.Lstm.colScale n := by
  show Scalar.select (IntOp.andi (IntOp.cmpi .sge (iota .tc S1x256 32 [1] hi (ix2 0 n)) 128#32) (IntOp.cmpi .slt (iota .tc S1x256 32 [1] hi (ix2 0 n)) 192#32)) _ _ = _
  rw [iota_single_apply]
  show Scalar.select (IntOp.andi (IntOp.cmpi .sge (BitVec.ofNat 32 n.val) 128#32) (IntOp.cmpi .slt (BitVec.ofNat 32 n.val) 192#32)) _ _ = _
  rw [scale_bits n]
  unfold Cert.Lstm.colScale
  split
  · exact select_one _ _
  · exact select_zero _ _

/-- The parameters as the kernel's blocks hold them (the two biases as one-row matrices). -/
def blockParams (x1 : Vec Ideal S128x256 .f32) (x2 : Vec Ideal S64x256 .f32) (x3 x4 : Vec Ideal S1x256 .f32)
    (x5 : Vec Ideal S64x3 .f32) (x6 : Vec Ideal S1x3 .f32) : Cert.Lstm.Params where
  wih d n := x1 (ix2 d n)
  whh j n := x2 (ix2 j n)
  bih n := x3 (ix2 (0 : Fin 1) n)
  bhh n := x4 (ix2 (0 : Fin 1) n)
  wout j a := x5 (ix2 j a)
  bout a := x6 (ix2 (0 : Fin 1) a)

/-- The 200-row matrix is the scaled input weights, the scaled recurrent weights, and the scaled bias eight times. -/
def StackIs (W : FVec Ideal S200x256 .bf16) (P : Cert.Lstm.Params) : Prop :=
  (∀ (d : Fin 128) (n : Fin 256), W (ix2 ⟨d.val, by omega⟩ n) = Cert.Lstm.wihS P d n)
  ∧ (∀ (j : Fin 64) (n : Fin 256), W (ix2 ⟨128 + j.val, by omega⟩ n) = Cert.Lstm.whhS P j n)
  ∧ (∀ (i : Fin 8) (n : Fin 256), W (ix2 ⟨192 + i.val, by omega⟩ n) = Cert.Lstm.biasS P n)

theorem stack_row (x3 x4 : Vec Ideal S1x256 .f32) (x1 : Vec Ideal S128x256 .f32) (x2 : Vec Ideal S64x256 .f32)
    (x5 : Vec Ideal S64x3 .f32) (x6 : Vec Ideal S1x3 .f32) :
    StackIs (k0_pay2 x3 x4 x1 x2) (blockParams x1 x2 x3 x4 x5 x6) := by
  refine ⟨fun d n => ?_, fun j n => ?_, fun i n => ?_⟩
  · unfold k0_pay2; dsimp only
    refine (stackCat_1 _ _ _ _ d n).trans ?_
    show x1 (ix2 d n) * broadcastTo S128x256 _ _ (ix2 d n) = _
    rw [broadcastTo_1b_ab_apply, scale_apply]; rfl
  · unfold k0_pay2; dsimp only
    refine (stackCat_2 _ _ _ _ j n).trans ?_
    show x2 (ix2 j n) * broadcastTo S64x256 _ _ (ix2 j n) = _
    rw [broadcastTo_1b_ab_apply, scale_apply]; rfl
  · unfold k0_pay2; dsimp only
    refine (stackCat_3 _ _ _ _ i n).trans ?_
    rw [broadcastTo_1b_ab_apply, shapeCast_self]
    show (shapeCast S1x256 x3 _ (ix2 0 n) + shapeCast S1x256 x4 _ (ix2 0 n)) * _ = _
    rw [shapeCast_self, shapeCast_self, scale_apply]; rfl

/-- Time step `o` of the block, as a matrix: row `b` is the input row at that step. -/
theorem xrow_apply (o : Nat) (x : FVec Ideal S1024x8x128 .bf16) (hs : S1024x8x128.Slices ![0, o, 0] S1024x1x128)
    (hc : S1024x1x128.ShapeCasts S1024x128) (b : Fin 1024) (d : Fin 128) (t : Fin 8) (ht : t.val = o) :
    shapeCast S1024x128 (extractStridedSlice S1024x1x128 ![0, o, 0] x hs) hc (ix2 b d) = x (ix3 b t d) := by
  rw [shapeCast_apply _ hc (ix2 b d) (ix3 b (0 : Fin 1) d) (by
    rw [Shape.rowMajor_val_three, Shape.rowMajor_val_two]
    show (b.val * 1 + 0) * 128 + d.val = b.val * 128 + d.val
    omega)]
  exact slice3_axis1_apply o x hs b 0 d t (by simp [ht])

/-- Row `b` of the block, time by feature. -/
def blockRow (x0 : Vec Ideal S1024x8x128 .f32) (b : Fin 1024) (t : Fin 8) (d : Fin 128) : EReal := x0 (ix3 b t d)

theorem pay4_row (x0 : Vec Ideal S1024x8x128 .f32) (b : Fin 1024) : RowIs (k0_pay4 x0) b (blockRow x0 b 0) := fun d => by
  unfold k0_pay4 k0_pay3; exact xrow_apply 0 _ _ _ b d 0 rfl
theorem pay5_row (x0 : Vec Ideal S1024x8x128 .f32) (b : Fin 1024) : RowIs (k0_pay5 x0) b (blockRow x0 b 1) := fun d => by
  unfold k0_pay5 k0_pay3; exact xrow_apply 1 _ _ _ b d 1 rfl
theorem pay6_row (x0 : Vec Ideal S1024x8x128 .f32) (b : Fin 1024) : RowIs (k0_pay6 x0) b (blockRow x0 b 2) := fun d => by
  unfold k0_pay6 k0_pay3; exact xrow_apply 2 _ _ _ b d 2 rfl
theorem pay7_row (x0 : Vec Ideal S1024x8x128 .f32) (b : Fin 1024) : RowIs (k0_pay7 x0) b (blockRow x0 b 3) := fun d => by
  unfold k0_pay7 k0_pay3; exact xrow_apply 3 _ _ _ b d 3 rfl
theorem pay8_row (x0 : Vec Ideal S1024x8x128 .f32) (b : Fin 1024) : RowIs (k0_pay8 x0) b (blockRow x0 b 4) := fun d => by
  unfold k0_pay8 k0_pay3; exact xrow_apply 4 _ _ _ b d 4 rfl
theorem pay9_row (x0 : Vec Ideal S1024x8x128 .f32) (b : Fin 1024) : RowIs (k0_pay9 x0) b (blockRow x0 b 5) := fun d => by
  unfold k0_pay9 k0_pay3; exact xrow_apply 5 _ _ _ b d 5 rfl
theorem pay10_row (x0 : Vec Ideal S1024x8x128 .f32) (b : Fin 1024) : RowIs (k0_pay10 x0) b (blockRow x0 b 6) := fun d => by
  unfold k0_pay10 k0_pay3; exact xrow_apply 6 _ _ _ b d 6 rfl
theorem pay12_row (x0 : Vec Ideal S1024x8x128 .f32) (b : Fin 1024) : RowIs (k0_pay12 (k0_pay11 x0)) b (blockRow x0 b 7) := fun d => by
  unfold k0_pay12 k0_pay11 k0_pay3; exact xrow_apply 7 _ _ _ b d 7 rfl

theorem pay13_row (b : Fin 1024) : RowIs (k0_pay13 (F := Ideal)) b (fun _ => Cert.Lstm.eighth) := fun _ => rfl

/-! ## One activation row: the contraction is the pre-activation -/

theorem act_row (P : Cert.Lstm.Params) (W : FVec Ideal S200x256 .bf16) (xs : FVec Ideal S1024x128 .bf16)
    (hb : FVec Ideal S1024x64 .bf16) (E : FVec Ideal S1024x8 .bf16)
    (pf : Shape.Concatenates [S1024x128, S1024x64, S1024x8] S1024x200 1) (b : Fin 1024)
    (x : Fin 128 → EReal) (h : Fin 64 → EReal)
    (hW : StackIs W P) (hx : RowIs xs b x) (hh : RowIs hb b h) (hE : RowIs E b (fun _ => Cert.Lstm.eighth)) :
    RowIs (tanh (matmul dot_S1024x200_S200x256_S1024x256_1_0_0_1_n_n none
        (concatenate S1024x200 1 [⟨S1024x128, xs⟩, ⟨S1024x64, hb⟩, ⟨S1024x8, E⟩] pf) W
        (constant (F := Ideal) S1024x256 .f32 0x00000000#32))) b (Cert.Lstm.act P x h) := fun n => by
  show Ideal.tanh (matmul _ none _ W _ (ix2 b n)) = Ideal.tanh (Cert.Lstm.pre P x h n)
  rw [matmul200_apply]
  exact congrArg Ideal.tanh (Cert.Lstm.pre_eq_contraction P x h n _ (fun k => W (ix2 k n))
    (fun d => (lhsCat_x _ _ _ pf b d).trans (hx d)) (fun j => (lhsCat_h _ _ _ pf b j).trans (hh j))
    (fun i => (lhsCat_e _ _ _ pf b i).trans (hE i))
    (fun d => hW.1 d n) (fun j => hW.2.1 j n) (fun i => hW.2.2 i n))

end Cert.KernelIdeal.LstmValue

end
-- ==== Proof.KernelSteps.lean ====
import proofs.«137923_g2000504385433502_pallaspilot1_15_32_alg».proof.Proof.KernelRows

noncomputable section

namespace Cert.KernelIdeal.LstmValue

open Cert.KernelIdeal Cert.KernelIdeal.Gen Idealize.ShloMosaic Idealize.ShloMosaic.ValueIdx

/-! # The eight steps, one intermediate value at a time

The body's value is spelt as the definitions `k0_pay14` … `k0_pay37` and `k0_pay1`, each a stretch of the eight unrolled
steps: an activation matrix, a cell state, or a gate (whole, or before its final `+ 1/2` or `* 1/2`). Each lemma states
row `b` of one of them as a function of row `b` of its operands. `a` is always a step's 256 activations, `c` a cell
state. -/

theorem tanh_apply {s : Shape} {φ : FTy} (x : FVec Ideal s φ) (i : s.Idx) : tanh x i = Ideal.tanh (x i) := rfl

/-- Gate `g`'s 64 columns of a 256-column matrix. -/
theorem slice_col (o : Nat) (g : Fin 4) (ho : o = 64 * g.val) (A : FVec Ideal S1024x256 .f32)
    (hs : S1024x256.Slices ![0, o] S1024x64) (b : Fin 1024) (j : Fin 64) :
    extractStridedSlice S1024x64 ![0, o] A hs (ix2 b j) = A (ix2 b (Cert.Lstm.col g j)) :=
  slice2_axis1_apply o A hs b j (Cert.Lstm.col g j) (by subst ho; rfl)

theorem sliceI (A : FVec Ideal S1024x256 .f32) (hs : S1024x256.Slices ![0, 0] S1024x64) (b : Fin 1024) (j : Fin 64) :
    extractStridedSlice S1024x64 ![0, 0] A hs (ix2 b j) = A (ix2 b (Cert.Lstm.col 0 j)) := slice_col 0 0 (by decide) A hs b j
theorem sliceF (A : FVec Ideal S1024x256 .f32) (hs : S1024x256.Slices ![0, 64] S1024x64) (b : Fin 1024) (j : Fin 64) :
    extractStridedSlice S1024x64 ![0, 64] A hs (ix2 b j) = A (ix2 b (Cert.Lstm.col 1 j)) := slice_col 64 1 (by decide) A hs b j
theorem sliceG (A : FVec Ideal S1024x256 .f32) (hs : S1024x256.Slices ![0, 128] S1024x64) (b : Fin 1024) (j : Fin 64) :
    extractStridedSlice S1024x64 ![0, 128] A hs (ix2 b j) = A (ix2 b (Cert.Lstm.col 2 j)) := slice_col 128 2 (by decide) A hs b j
theorem sliceO (A : FVec Ideal S1024x256 .f32) (hs : S1024x256.Slices ![0, 192] S1024x64) (b : Fin 1024) (j : Fin 64) :
    extractStridedSlice S1024x64 ![0, 192] A hs (ix2 b j) = A (ix2 b (Cert.Lstm.col 3 j)) := slice_col 192 3 (by decide) A hs b j

/-- The hidden state a step hands to the next contraction: the output gate times the `tanh` of the new cell state. -/
theorem hid_row (O C : FVec Ideal S1024x64 .f32) (pfT : FTy.bf16.bits < FTy.f32.bits) (b : Fin 1024) (o c : Fin 64 → EReal)
    (hO : RowIs O b o) (hC : RowIs C b c) :
    RowIs (truncf .bf16 (mulf (addf (mulf O (broadcast S1024x64 (Scalar.ofBits (F := Ideal) .f32 0x3F000000#32))) (broadcast S1024x64 (Scalar.ofBits (F := Ideal) .f32 0x3F000000#32))) (tanh C)) pfT) b
      (fun j => (o j * Cert.Lstm.half + Cert.Lstm.half) * Ideal.tanh (c j)) := fun j => by
  simp only [addf_apply, mulf_apply, broadcast_apply, tanh_apply, truncf_apply, hO _, hC _]
  rfl

theorem sliceO_row (A : FVec Ideal S1024x256 .f32) (hs : S1024x256.Slices ![0, 192] S1024x64) (b : Fin 1024) (a : Fin 256 → EReal)
    (hA : RowIs A b a) : RowIs (extractStridedSlice S1024x64 ![0, 192] A hs) b (fun j => a (Cert.Lstm.col 3 j)) := fun j => by
  rw [sliceO, hA]

/-! ## Step 0 (from the zero state) and step 1 -/

theorem pay14_row (P : Cert.Lstm.Params) (W : FVec Ideal S200x256 .bf16) (v30 : FVec Ideal S1024x128 .bf16) (b : Fin 1024) (x : Fin 128 → EReal)
    (hW : StackIs W P) (hx : RowIs v30 b x) :
    RowIs (k0_pay14 W v30) b (Cert.Lstm.act P x (fun _ => 0)) := by
  unfold k0_pay14; dsimp only
  exact act_row P W v30 _ _ _ b x _ hW hx (fun j => Ideal.ofBits_zero_f32) (pay13_row b)

theorem pay15_row (W : FVec Ideal S200x256 .bf16) (v30 : FVec Ideal S1024x128 .bf16) (b : Fin 1024) (a : Fin 256 → EReal) (hA : RowIs (k0_pay14 W v30) b a) :
    RowIs (k0_pay15 W v30) b (Cert.Lstm.nextC a (fun _ => 0)) := fun j => by
  unfold k0_pay15
  simp only [addf_apply, mulf_apply, broadcast_apply, tanh_apply, truncf_apply, sliceI, sliceF, sliceG, sliceO, hA _]
  rw [show FloatOps.ofBits (F := Ideal) FTy.f32 0x00000000#32 = (0 : EReal) from Ideal.ofBits_zero_f32]
  rfl

theorem pay16_row (P : Cert.Lstm.Params) (W : FVec Ideal S200x256 .bf16) (v30 : FVec Ideal S1024x128 .bf16) (v32 : FVec Ideal S1024x128 .bf16) (b : Fin 1024) (x : Fin 128 → EReal) (a : Fin 256 → EReal) (c : Fin 64 → EReal)
    (hW : StackIs W P) (hx : RowIs v32 b x) (hA : RowIs (k0_pay14 W v30) b a) (hC : RowIs (k0_pay15 W v30) b c) :
    RowIs (k0_pay16 W v30 v32) b (Cert.Lstm.act P x (Cert.Lstm.nextH a c)) := by
  unfold k0_pay16; dsimp only
  exact act_row P W v32 _ _ _ b x (Cert.Lstm.nextH a c) hW hx (hid_row _ _ _ b _ c (sliceO_row _ _ b a hA) hC) (pay13_row b)

theorem pay17_row (W : FVec Ideal S200x256 .bf16) (v30 : FVec Ideal S1024x128 .bf16) (v32 : FVec Ideal S1024x128 .bf16) (a : Fin 256 → EReal) (b : Fin 1024) (hA : RowIs (k0_pay16 W v30 v32) b a) :
    RowIs (k0_pay17 W v30 v32) b (Cert.Lstm.gateI a) := fun j => by
  unfold k0_pay17
  simp only [addf_apply, mulf_apply, broadcast_apply, tanh_apply, truncf_apply, sliceI, sliceF, sliceG, sliceO, hA _]
  rfl

theorem pay18_row (W : FVec Ideal S200x256 .bf16) (v30 : FVec Ideal S1024x128 .bf16) (v32 : FVec Ideal S1024x128 .bf16) (a : Fin 256 → EReal) (b : Fin 1024) (hA : RowIs (k0_pay16 W v30 v32) b a) :
    RowIs (k0_pay18 W v30 v32) b (Cert.Lstm.gateF a) := fun j => by
  unfold k0_pay18
  simp only [addf_apply, mulf_apply, broadcast_apply, tanh_apply, truncf_apply, sliceI, sliceF, sliceG, sliceO, hA _]
  rfl

theorem pay19_row (W : FVec Ideal S200x256 .bf16) (v30 : FVec Ideal S1024x128 .bf16) (v32 : FVec Ideal S1024x128 .bf16) (a : Fin 256 → EReal) (b : Fin 1024) (hA : RowIs (k0_pay16 W v30 v32) b a) :
    RowIs (k0_pay19 W v30 v32) b (Cert.Lstm.gateG a) := fun j => by
  unfold k0_pay19
  simp only [addf_apply, mulf_apply, broadcast_apply, tanh_apply, truncf_apply, sliceI, sliceF, sliceG, sliceO, hA _]
  rfl

theorem pay20_row (W : FVec Ideal S200x256 .bf16) (v30 : FVec Ideal S1024x128 .bf16) (v32 : FVec Ideal S1024x128 .bf16) (a : Fin 256 → EReal) (b : Fin 1024) (hA : RowIs (k0_pay16 W v30 v32) b a) :
    RowIs (k0_pay20 W v30 v32) b (fun j => a (Cert.Lstm.col 3 j)) := fun j => by
  unfold k0_pay20
  simp only [addf_apply, mulf_apply, broadcast_apply, tanh_apply, truncf_apply, sliceI, sliceF, sliceG, sliceO, hA _]

/-! ## Steps 2 and 3 -/

theorem pay21_row (v70 : FVec Ideal S1024x64 .f32) (v81 : FVec Ideal S1024x64 .f32) (v86 : FVec Ideal S1024x64 .f32) (v87 : FVec Ideal S1024x64 .f32) (a : Fin 256 → EReal) (c : Fin 64 → EReal) (b : Fin 1024) (h70 : RowIs v70 b c) (h81 : RowIs v81 b (Cert.Lstm.gateI a)) (h86 : RowIs v86 b (Cert.Lstm.gateF a)) (h87 : RowIs v87 b (Cert.Lstm.gateG a)) :
    RowIs (k0_pay21 v70 v81 v86 v87) b (Cert.Lstm.nextC a c) := fun j => by
  unfold k0_pay21
  simp only [addf_apply, mulf_apply, broadcast_apply, tanh_apply, truncf_apply, sliceI, sliceF, sliceG, sliceO, h70 _, h81 _, h86 _, h87 _]
  rfl

theorem pay22_row (P : Cert.Lstm.Params) (W : FVec Ideal S200x256 .bf16) (v34 : FVec Ideal S1024x128 .bf16) (v45 : FVec Ideal S1024x8 .bf16) (v70 : FVec Ideal S1024x64 .f32) (v81 : FVec Ideal S1024x64 .f32) (v86 : FVec Ideal S1024x64 .f32) (v87 : FVec Ideal S1024x64 .f32) (v88 : FVec Ideal S1024x64 .f32)
    (b : Fin 1024) (x : Fin 128 → EReal) (a : Fin 256 → EReal) (c : Fin 64 → EReal)
    (hW : StackIs W P) (hx : RowIs v34 b x) (hE : RowIs v45 b (fun _ => Cert.Lstm.eighth))
    (h88 : RowIs v88 b (fun j => a (Cert.Lstm.col 3 j))) (hC : RowIs (k0_pay21 v70 v81 v86 v87) b c) :
    RowIs (k0_pay22 W v34 v45 v70 v81 v86 v87 v88) b (Cert.Lstm.act P x (Cert.Lstm.nextH a c)) := by
  unfold k0_pay22; dsimp only
  exact act_row P W v34 _ _ _ b x (Cert.Lstm.nextH a c) hW hx (hid_row _ _ _ b _ c h88 hC) hE

theorem pay23_row (W : FVec Ideal S200x256 .bf16) (v34 : FVec Ideal S1024x128 .bf16) (v45 : FVec Ideal S1024x8 .bf16) (v70 : FVec Ideal S1024x64 .f32) (v81 : FVec Ideal S1024x64 .f32) (v86 : FVec Ideal S1024x64 .f32) (v87 : FVec Ideal S1024x64 .f32) (v88 : FVec Ideal S1024x64 .f32) (a : Fin 256 → EReal) (c : Fin 64 → EReal) (b : Fin 1024) (hA : RowIs (k0_pay22 W v34 v45 v70 v81 v86 v87 v88) b a) (hC : RowIs (k0_pay21 v70 v81 v86 v87) b c) :
    RowIs (k0_pay23 W v34 v45 v70 v81 v86 v87 v88) b (Cert.Lstm.nextC a c) := fun j => by
  unfold k0_pay23
  simp only [addf_apply, mulf_apply, broadcast_apply, tanh_apply, truncf_apply, sliceI, sliceF, sliceG, sliceO, hA _, hC _]
  rfl

theorem pay24_row (P : Cert.Lstm.Params) (W : FVec Ideal S200x256 .bf16) (v34 : FVec Ideal S1024x128 .bf16) (v36 : FVec Ideal S1024x128 .bf16) (v45 : FVec Ideal S1024x8 .bf16) (v70 : FVec Ideal S1024x64 .f32) (v81 : FVec Ideal S1024x64 .f32) (v86 : FVec Ideal S1024x64 .f32) (v87 : FVec Ideal S1024x64 .f32) (v88 : FVec Ideal S1024x64 .f32) (b : Fin 1024) (x : Fin 128 → EReal) (a : Fin 256 → EReal) (c : Fin 64 → EReal)
    (hW : StackIs W P) (hx : RowIs v36 b x) (hE : RowIs v45 b (fun _ => Cert.Lstm.eighth)) (hA : RowIs (k0_pay22 W v34 v45 v70 v81 v86 v87 v88) b a) (hC : RowIs (k0_pay23 W v34 v45 v70 v81 v86 v87 v88) b c) :
    RowIs (k0_pay24 W v34 v36 v45 v70 v81 v86 v87 v88) b (Cert.Lstm.act P x (Cert.Lstm.nextH a c)) := by
  unfold k0_pay24; dsimp only
  exact act_row P W v36 _ _ _ b x (Cert.Lstm.nextH a c) hW hx (hid_row _ _ _ b _ c (sliceO_row _ _ b a hA) hC) hE

theorem pay25_row (W : FVec Ideal S200x256 .bf16) (v34 : FVec Ideal S1024x128 .bf16) (v36 : FVec Ideal S1024x128 .bf16) (v45 : FVec Ideal S1024x8 .bf16) (v70 : FVec Ideal S1024x64 .f32) (v81 : FVec Ideal S1024x64 .f32) (v86 : FVec Ideal S1024x64 .f32) (v87 : FVec Ideal S1024x64 .f32) (v88 : FVec Ideal S1024x64 .f32) (a : Fin 256 → EReal) (b : Fin 1024) (hA : RowIs (k0_pay24 W v34 v36 v45 v70 v81 v86 v87 v88) b a) :
    RowIs (k0_pay25 W v34 v36 v45 v70 v81 v86 v87 v88) b (Cert.Lstm.gateI a) := fun j => by
  unfold k0_pay25
  simp only [addf_apply, mulf_apply, broadcast_apply, tanh_apply, truncf_apply, sliceI, sliceF, sliceG, sliceO, hA _]
  rfl

theorem pay26_row (W : FVec Ideal S200x256 .bf16) (v34 : FVec Ideal S1024x128 .bf16) (v36 : FVec Ideal S1024x128 .bf16) (v45 : FVec Ideal S1024x8 .bf16) (v70 : FVec Ideal S1024x64 .f32) (v81 : FVec Ideal S1024x64 .f32) (v86 : FVec Ideal S1024x64 .f32) (v87 : FVec Ideal S1024x64 .f32) (v88 : FVec Ideal S1024x64 .f32) (a : Fin 256 → EReal) (b : Fin 1024) (hA : RowIs (k0_pay24 W v34 v36 v45 v70 v81 v86 v87 v88) b a) :
    RowIs (k0_pay26 W v34 v36 v45 v70 v81 v86 v87 v88) b (fun j => a (Cert.Lstm.col 1 j) * Cert.Lstm.half) := fun j => by
  unfold k0_pay26
  simp only [addf_apply, mulf_apply, broadcast_apply, tanh_apply, truncf_apply, sliceI, sliceF, sliceG, sliceO, hA _]
  rfl

/-! ## Steps 4 and 5 -/

theorem pay27_row (v120 : FVec Ideal S1024x64 .f32) (v126 : FVec Ideal S1024x256 .f32) (v131 : FVec Ideal S1024x64 .f32) (v134 : FVec Ideal S1024x64 .f32) (a : Fin 256 → EReal) (c : Fin 64 → EReal) (b : Fin 1024) (h120 : RowIs v120 b c) (h126 : RowIs v126 b a) (h131 : RowIs v131 b (Cert.Lstm.gateI a)) (h134 : RowIs v134 b (fun j => a (Cert.Lstm.col 1 j) * Cert.Lstm.half)) :
    RowIs (k0_pay27 v120 v126 v131 v134 (Scalar.ofBits (F := Ideal) .f32 0x3F000000#32)) b (Cert.Lstm.nextC a c) := fun j => by
  unfold k0_pay27
  simp only [addf_apply, mulf_apply, broadcast_apply, tanh_apply, truncf_apply, sliceI, sliceF, sliceG, sliceO, h120 _, h126 _, h131 _, h134 _]
  rfl

theorem pay28_row (P : Cert.Lstm.Params) (W : FVec Ideal S200x256 .bf16) (v38 : FVec Ideal S1024x128 .bf16) (v45 : FVec Ideal S1024x8 .bf16) (v120 : FVec Ideal S1024x64 .f32) (v126 : FVec Ideal S1024x256 .f32) (v131 : FVec Ideal S1024x64 .f32) (v134 : FVec Ideal S1024x64 .f32) (b : Fin 1024) (x : Fin 128 → EReal) (a : Fin 256 → EReal) (c : Fin 64 → EReal)
    (hW : StackIs W P) (hx : RowIs v38 b x) (hE : RowIs v45 b (fun _ => Cert.Lstm.eighth)) (h126 : RowIs v126 b a) (hC : RowIs (k0_pay27 v120 v126 v131 v134 (Scalar.ofBits (F := Ideal) .f32 0x3F000000#32)) b c) :
    RowIs (k0_pay28 W v38 v45 v120 v126 v131 v134 (Scalar.ofBits (F := Ideal) .f32 0x3F000000#32)) b (Cert.Lstm.act P x (Cert.Lstm.nextH a c)) := by
  unfold k0_pay28; dsimp only
  exact act_row P W v38 _ _ _ b x (Cert.Lstm.nextH a c) hW hx (hid_row _ _ _ b _ c (sliceO_row _ _ b a h126) hC) hE

theorem pay29_row (W : FVec Ideal S200x256 .bf16) (v38 : FVec Ideal S1024x128 .bf16) (v45 : FVec Ideal S1024x8 .bf16) (v120 : FVec Ideal S1024x64 .f32) (v126 : FVec Ideal S1024x256 .f32) (v131 : FVec Ideal S1024x64 .f32) (v134 : FVec Ideal S1024x64 .f32) (a : Fin 256 → EReal) (c : Fin 64 → EReal) (b : Fin 1024) (hA : RowIs (k0_pay28 W v38 v45 v120 v126 v131 v134 (Scalar.ofBits (F := Ideal) .f32 0x3F000000#32)) b a) (hC : RowIs (k0_pay27 v120 v126 v131 v134 (Scalar.ofBits (F := Ideal) .f32 0x3F000000#32)) b c) :
    RowIs (k0_pay29 W v38 v45 v120 v126 v131 v134 (Scalar.ofBits (F := Ideal) .f32 0x3F000000#32)) b (Cert.Lstm.nextC a c) := fun j => by
  unfold k0_pay29
  simp only [addf_apply, mulf_apply, broadcast_apply, tanh_apply, truncf_apply, sliceI, sliceF, sliceG, sliceO, hA _, hC _]
  rfl

theorem pay30_row (P : Cert.Lstm.Params) (W : FVec Ideal S200x256 .bf16) (v38 : FVec Ideal S1024x128 .bf16) (v40 : FVec Ideal S1024x128 .bf16) (v45 : FVec Ideal S1024x8 .bf16) (v120 : FVec Ideal S1024x64 .f32) (v126 : FVec Ideal S1024x256 .f32) (v131 : FVec Ideal S1024x64 .f32) (v134 : FVec Ideal S1024x64 .f32) (b : Fin 1024) (x : Fin 128 → EReal) (a : Fin 256 → EReal) (c : Fin 64 → EReal)
    (hW : StackIs W P) (hx : RowIs v40 b x) (hE : RowIs v45 b (fun _ => Cert.Lstm.eighth)) (hA : RowIs (k0_pay28 W v38 v45 v120 v126 v131 v134 (Scalar.ofBits (F := Ideal) .f32 0x3F000000#32)) b a) (hC : RowIs (k0_pay29 W v38 v45 v120 v126 v131 v134 (Scalar.ofBits (F := Ideal) .f32 0x3F000000#32)) b c) :
    RowIs (k0_pay30 W v38 v40 v45 v120 v126 v131 v134 (Scalar.ofBits (F := Ideal) .f32 0x3F000000#32)) b (Cert.Lstm.act P x (Cert.Lstm.nextH a c)) := by
  unfold k0_pay30; dsimp only
  exact act_row P W v40 _ _ _ b x (Cert.Lstm.nextH a c) hW hx (hid_row _ _ _ b _ c (sliceO_row _ _ b a hA) hC) hE

theorem pay31_row (W : FVec Ideal S200x256 .bf16) (v38 : FVec Ideal S1024x128 .bf16) (v40 : FVec Ideal S1024x128 .bf16) (v45 : FVec Ideal S1024x8 .bf16) (v120 : FVec Ideal S1024x64 .f32) (v126 : FVec Ideal S1024x256 .f32) (v131 : FVec Ideal S1024x64 .f32) (v134 : FVec Ideal S1024x64 .f32) (a : Fin 256 → EReal) (b : Fin 1024) (hA : RowIs (k0_pay30 W v38 v40 v45 v120 v126 v131 v134 (Scalar.ofBits (F := Ideal) .f32 0x3F000000#32)) b a) :
    RowIs (k0_pay31 W v38 v40 v45 v120 v126 v131 v134 (Scalar.ofBits (F := Ideal) .f32 0x3F000000#32)) b (Cert.Lstm.gateI a) := fun j => by
  unfold k0_pay31
  simp only [addf_apply, mulf_apply, broadcast_apply, tanh_apply, truncf_apply, sliceI, sliceF, sliceG, sliceO, hA _]
  rfl

theorem pay32_row (W : FVec Ideal S200x256 .bf16) (v38 : FVec Ideal S1024x128 .bf16) (v40 : FVec Ideal S1024x128 .bf16) (v45 : FVec Ideal S1024x8 .bf16) (v120 : FVec Ideal S1024x64 .f32) (v126 : FVec Ideal S1024x256 .f32) (v131 : FVec Ideal S1024x64 .f32) (v134 : FVec Ideal S1024x64 .f32) (a : Fin 256 → EReal) (b : Fin 1024) (hA : RowIs (k0_pay30 W v38 v40 v45 v120 v126 v131 v134 (Scalar.ofBits (F := Ideal) .f32 0x3F000000#32)) b a) :
    RowIs (k0_pay32 W v38 v40 v45 v120 v126 v131 v134 (Scalar.ofBits (F := Ideal) .f32 0x3F000000#32)) b (fun j => a (Cert.Lstm.col 1 j)) := fun j => by
  unfold k0_pay32
  simp only [addf_apply, mulf_apply, broadcast_apply, tanh_apply, truncf_apply, sliceI, sliceF, sliceG, sliceO, hA _]

/-! ## Steps 6 and 7 -/

theorem pay33_row (v170 : FVec Ideal S1024x64 .f32) (v176 : FVec Ideal S1024x256 .f32) (v181 : FVec Ideal S1024x64 .f32) (v182 : FVec Ideal S1024x64 .f32) (a : Fin 256 → EReal) (c : Fin 64 → EReal) (b : Fin 1024) (h170 : RowIs v170 b c) (h176 : RowIs v176 b a) (h181 : RowIs v181 b (Cert.Lstm.gateI a)) (h182 : RowIs v182 b (fun j => a (Cert.Lstm.col 1 j))) :
    RowIs (k0_pay33 v170 v176 v181 v182) b (Cert.Lstm.nextC a c) := fun j => by
  unfold k0_pay33
  simp only [addf_apply, mulf_apply, broadcast_apply, tanh_apply, truncf_apply, sliceI, sliceF, sliceG, sliceO, h170 _, h176 _, h181 _, h182 _]
  rfl

theorem pay34_row (P : Cert.Lstm.Params) (W : FVec Ideal S200x256 .bf16) (v42 : FVec Ideal S1024x128 .bf16) (v45 : FVec Ideal S1024x8 .bf16) (v170 : FVec Ideal S1024x64 .f32) (v176 : FVec Ideal S1024x256 .f32) (v181 : FVec Ideal S1024x64 .f32) (v182 : FVec Ideal S1024x64 .f32) (b : Fin 1024) (x : Fin 128 → EReal) (a : Fin 256 → EReal) (c : Fin 64 → EReal)
    (hW : StackIs W P) (hx : RowIs v42 b x) (hE : RowIs v45 b (fun _ => Cert.Lstm.eighth)) (h176 : RowIs v176 b a) (hC : RowIs (k0_pay33 v170 v176 v181 v182) b c) :
    RowIs (k0_pay34 W v42 v45 v170 v176 v181 v182) b (Cert.Lstm.act P x (Cert.Lstm.nextH a c)) := by
  unfold k0_pay34; dsimp only
  exact act_row P W v42 _ _ _ b x (Cert.Lstm.nextH a c) hW hx (hid_row _ _ _ b _ c (sliceO_row _ _ b a h176) hC) hE

theorem pay35_row (W : FVec Ideal S200x256 .bf16) (v42 : FVec Ideal S1024x128 .bf16) (v45 : FVec Ideal S1024x8 .bf16) (v170 : FVec Ideal S1024x64 .f32) (v176 : FVec Ideal S1024x256 .f32) (v181 : FVec Ideal S1024x64 .f32) (v182 : FVec Ideal S1024x64 .f32) (a : Fin 256 → EReal) (c : Fin 64 → EReal) (b : Fin 1024) (hA : RowIs (k0_pay34 W v42 v45 v170 v176 v181 v182) b a) (hC : RowIs (k0_pay33 v170 v176 v181 v182) b c) :
    RowIs (k0_pay35 W v42 v45 v170 v176 v181 v182) b (Cert.Lstm.nextC a c) := fun j => by
  unfold k0_pay35
  simp only [addf_apply, mulf_apply, broadcast_apply, tanh_apply, truncf_apply, sliceI, sliceF, sliceG, sliceO, hA _, hC _]
  rfl

theorem pay36_row (P : Cert.Lstm.Params) (W : FVec Ideal S200x256 .bf16) (v42 : FVec Ideal S1024x128 .bf16) (v44 : FVec Ideal S1024x128 .bf16) (v45 : FVec Ideal S1024x8 .bf16) (v170 : FVec Ideal S1024x64 .f32) (v176 : FVec Ideal S1024x256 .f32) (v181 : FVec Ideal S1024x64 .f32) (v182 : FVec Ideal S1024x64 .f32) (b : Fin 1024) (x : Fin 128 → EReal) (a : Fin 256 → EReal) (c : Fin 64 → EReal)
    (hW : StackIs W P) (hx : RowIs v44 b x) (hE : RowIs v45 b (fun _ => Cert.Lstm.eighth)) (hA : RowIs (k0_pay34 W v42 v45 v170 v176 v181 v182) b a) (hC : RowIs (k0_pay35 W v42 v45 v170 v176 v181 v182) b c) :
    RowIs (k0_pay36 W v42 v44 v45 v170 v176 v181 v182) b (Cert.Lstm.act P x (Cert.Lstm.nextH a c)) := by
  unfold k0_pay36; dsimp only
  exact act_row P W v44 _ _ _ b x (Cert.Lstm.nextH a c) hW hx (hid_row _ _ _ b _ c (sliceO_row _ _ b a hA) hC) hE

theorem pay37_row (W : FVec Ideal S200x256 .bf16) (v42 : FVec Ideal S1024x128 .bf16) (v44 : FVec Ideal S1024x128 .bf16) (v45 : FVec Ideal S1024x8 .bf16) (v170 : FVec Ideal S1024x64 .f32) (v176 : FVec Ideal S1024x256 .f32) (v181 : FVec Ideal S1024x64 .f32) (v182 : FVec Ideal S1024x64 .f32) (a : Fin 256 → EReal) (b : Fin 1024) (hA : RowIs (k0_pay36 W v42 v44 v45 v170 v176 v181 v182) b a) :
    RowIs (k0_pay37 W v42 v44 v45 v170 v176 v181 v182) b (fun j => a (Cert.Lstm.col 0 j) * Cert.Lstm.half) := fun j => by
  unfold k0_pay37
  simp only [addf_apply, mulf_apply, broadcast_apply, tanh_apply, truncf_apply, sliceI, sliceF, sliceG, sliceO, hA _]
  rfl

/-! ## The last step's state and the output layer -/

theorem pay1_row (v220 : FVec Ideal S1024x64 .f32) (v226 : FVec Ideal S1024x256 .f32) (v229 : FVec Ideal S1024x64 .f32) (v248 : Vec Ideal S64x3 .f32) (v250 : Vec Ideal S1x3 .f32)
    (b : Fin 1024) (a : Fin 256 → EReal) (c : Fin 64 → EReal)
    (h220 : RowIs v220 b c) (h226 : RowIs v226 b a) (h229 : RowIs v229 b (fun j => a (Cert.Lstm.col 0 j) * Cert.Lstm.half)) (n : Fin 3) :
    k0_pay1 v220 v226 v229 v248 v250 (ix2 b n)
      = ∑ j : Fin 64, Cert.Lstm.nextH a (Cert.Lstm.nextC a c) j * v248 (ix2 j n) + v250 (ix2 (0 : Fin 1) n) := by
  unfold k0_pay1
  rw [addf_apply, matmul64_apply, broadcastTo_1b_ab_apply, shapeCast_self]
  refine congrArg (· + v250 (ix2 (0 : Fin 1) n)) (Finset.sum_congr rfl fun j _ => congrArg (· * v248 (ix2 j n)) ?_)
  simp only [addf_apply, mulf_apply, broadcast_apply, tanh_apply, truncf_apply, sliceI, sliceF, sliceG, sliceO, h220 _, h226 _, h229 _]
  rfl

end Cert.KernelIdeal.LstmValue

end
-- ==== Proof.KernelBody.lean ====
import proofs.«137923_g2000504385433502_pallaspilot1_15_32_alg».proof.Proof.KernelSteps
import proofs.«137923_g2000504385433502_pallaspilot1_15_32_alg».proof.Proof.Gen.KernelIdeal.Frame

noncomputable section

namespace Cert.KernelIdeal.LstmValue

open Cert.KernelIdeal Cert.KernelIdeal.Gen Idealize.ShloMosaic Idealize.ShloMosaic.ValueIdx

/-! # The body's result, row by row

Row `b` of what the body stores is the network's output on row `b` of the input block, with the parameters as the blocks
hold them: step by step, the activations are `act` at the state reached so far, the cell state its second component,
and the last hidden state times the output weights plus the output bias is `out`. -/

theorem hz2 : (![0, 0] : Fin 2 → Nat) = fun _ => 0 := funext fun a => by fin_cases a <;> rfl
theorem hz3 : (![0, 0, 0] : Fin 3 → Nat) = fun _ => 0 := funext fun a => by fin_cases a <;> rfl

theorem body_row (x0 : Vec Ideal S1024x8x128 .f32) (x1 : Vec Ideal S128x256 .f32) (x2 : Vec Ideal S64x256 .f32)
    (x3 x4 : Vec Ideal S1x256 .f32) (x5 : Vec Ideal S64x3 .f32) (x6 : Vec Ideal S1x3 .f32) (b : Fin 1024) (n : Fin 3) :
    out0_7 x0 x1 x2 x3 x4 x5 x6 (ix2 b n)
      = Cert.Lstm.out (blockParams x1 x2 x3 x4 x5 x6) (blockRow x0 b) n := by
  unfold out0_7
  rw [View.canon_unit_zero hz2]
  simp only [View.ld_unit_zero (S := S1x256) hz2, View.ld_unit_zero (S := S128x256) hz2, View.ld_unit_zero (S := S64x256) hz2,
    View.ld_unit_zero (S := S1024x8x128) hz3, View.ld_unit_zero (S := S64x3) hz2, View.ld_unit_zero (S := S1x3) hz2]
  have hW := stack_row x3 x4 x1 x2 x5 x6
  have hE := pay13_row b
  have hx0 := pay4_row x0 b
  have hx1 := pay5_row x0 b
  have hx2 := pay6_row x0 b
  have hx3 := pay7_row x0 b
  have hx4 := pay8_row x0 b
  have hx5 := pay9_row x0 b
  have hx6 := pay10_row x0 b
  have hx7 := pay12_row x0 b
  have hA0 := pay14_row (hW := hW) (hx := hx0)
  have hC1 := pay15_row (hA := hA0)
  have hA1 := pay16_row (hW := hW) (hx := hx1) (hA := hA0) (hC := hC1)
  have h17 := pay17_row (hA := hA1)
  have h18 := pay18_row (hA := hA1)
  have h19 := pay19_row (hA := hA1)
  have h20 := pay20_row (hA := hA1)
  have hC2 := pay21_row (h70 := hC1) (h81 := h17) (h86 := h18) (h87 := h19)
  have hA2 := pay22_row (hW := hW) (hx := hx2) (hE := hE) (h88 := h20) (hC := hC2)
  have hC3 := pay23_row (hA := hA2) (hC := hC2)
  have hA3 := pay24_row (hW := hW) (hx := hx3) (hE := hE) (hA := hA2) (hC := hC3)
  have h25 := pay25_row (hA := hA3)
  have h26 := pay26_row (hA := hA3)
  have hC4 := pay27_row (h120 := hC3) (h126 := hA3) (h131 := h25) (h134 := h26)
  have hA4 := pay28_row (hW := hW) (hx := hx4) (hE := hE) (h126 := hA3) (hC := hC4)
  have hC5 := pay29_row (hA := hA4) (hC := hC4)
  have hA5 := pay30_row (hW := hW) (hx := hx5) (hE := hE) (hA := hA4) (hC := hC5)
  have h31 := pay31_row (hA := hA5)
  have h32 := pay32_row (hA := hA5)
  have hC6 := pay33_row (h170 := hC5) (h176 := hA5) (h181 := h31) (h182 := h32)
  have hA6 := pay34_row (hW := hW) (hx := hx6) (hE := hE) (h176 := hA5) (hC := hC6)
  have hC7 := pay35_row (hA := hA6) (hC := hC6)
  have hA7 := pay36_row (hW := hW) (hx := hx7) (hE := hE) (hA := hA6) (hC := hC7)
  have h37 := pay37_row (hA := hA7)
  exact pay1_row (v248 := x5) (v250 := x6) (h220 := hC7) (h226 := hA7) (h229 := h37) (n := n)

/-- The body's result as one function of the block index. -/
theorem body_eq (x0 : Vec Ideal S1024x8x128 .f32) (x1 : Vec Ideal S128x256 .f32) (x2 : Vec Ideal S64x256 .f32)
    (x3 x4 : Vec Ideal S1x256 .f32) (x5 : Vec Ideal S64x3 .f32) (x6 : Vec Ideal S1x3 .f32) :
    out0_7 x0 x1 x2 x3 x4 x5 x6
      = fun j => Cert.Lstm.out (blockParams x1 x2 x3 x4 x5 x6) (blockRow x0 (j 0)) (j 1) := by
  funext j
  obtain ⟨p, q, rfl⟩ : ∃ (p : Fin 1024) (q : Fin 3), j = ix2 p q := ⟨j 0, j 1, eq_ix2 j⟩
  exact body_row x0 x1 x2 x3 x4 x5 x6 p q

end Cert.KernelIdeal.LstmValue

end
-- ==== Proof.KernelBlocks.lean ====
import proofs.«137923_g2000504385433502_pallaspilot1_15_32_alg».proof.Proof.KernelBody
import proofs.«137923_g2000504385433502_pallaspilot1_15_32_alg».proof.Proof.Gen.KernelIdeal.Value
import Idealize.ShloMosaic.Lib.Pipeline.Value

noncomputable section

namespace Cert.KernelIdeal.LstmValue

open Cert.KernelIdeal Cert.KernelIdeal.Gen Idealize.ShloMosaic Idealize.ShloMosaic.ValueIdx Idealize.ShloMosaic.TcCoe Idealize.SL.Sem
open Idealize.ShloMosaic.Tactic
open Idealize.ShloMosaic.Pipeline (Dat)

variable (m : (ℓ : Loc nD τ sig) → Buf (Elt Ideal) ℓ) (ρ : Dev nD → PrngReg)

/-! # From the blocks to the array

Grid point `t` reads rows 1024 t … 1024 t + 1023 of the input and the whole of every parameter array, and writes rows
1024 t … 1024 t + 1023 of the result; the four blocks tile the 4096 rows. So the result array ends holding the
network's output row by row. -/

/-- The windows' block indices at the four grid points: the input's block index along the batch equals the output's, which
    is `t` at point `t`; every other block index is 0. -/
theorem idx_facts : ∀ t : Fin cfg0.N,
    win0_0.index t (0 : Fin 3) = win0_7.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The three host broadcasts: a bias as a one-row matrix -/

theorem v0_eq (c : Dev nD) :
    (V m c main_v0 : S1x256.Idx → EReal) = broadcastInDim S1x256 ![1] Cert.KernelIdeal.Facts₀.bcast_S256_S1x256_1 ((m ((c : Thread nD τ).loc main_arg3)) : S256.Idx → EReal) := by
  dsimp only [Gen.V, Gen.hostOps0]
  after_results
  all_goals rfl

theorem v0_apply (c : Dev nD) (n : Fin 256) :
    (V m c main_v0 : S1x256.Idx → EReal) (ix2 (0 : Fin 1) n) = ((m ((c : Thread nD τ).loc main_arg3)) : S256.Idx → EReal) (ix1 n) := by
  rw [v0_eq m c]
  exact broadcastInDim_apply _ _ _ (ix2 (0 : Fin 1) n) (ix1 n) (fun a => by match a with | ⟨0, _⟩ => rfl)

theorem v1_eq (c : Dev nD) :
    (V m c main_v1 : S1x256.Idx → EReal) = broadcastInDim S1x256 ![1] Cert.KernelIdeal.Facts₀.bcast_S256_S1x256_1 ((m ((c : Thread nD τ).loc main_arg4)) : S256.Idx → EReal) := by
  dsimp only [Gen.V, Gen.hostOps0]
  after_results
  all_goals rfl

theorem v1_apply (c : Dev nD) (n : Fin 256) :
    (V m c main_v1 : S1x256.Idx → EReal) (ix2 (0 : Fin 1) n) = ((m ((c : Thread nD τ).loc main_arg4)) : S256.Idx → EReal) (ix1 n) := by
  rw [v1_eq m c]
  exact broadcastInDim_apply _ _ _ (ix2 (0 : Fin 1) n) (ix1 n) (fun a => by match a with | ⟨0, _⟩ => rfl)

theorem v2_eq (c : Dev nD) :
    (V m c main_v2 : S1x3.Idx → EReal) = broadcastInDim S1x3 ![1] Cert.KernelIdeal.Facts₀.bcast_S3_S1x3_1 ((m ((c : Thread nD τ).loc main_arg6)) : S3.Idx → EReal) := by
  dsimp only [Gen.V, Gen.hostOps0]
  after_results
  all_goals rfl

theorem v2_apply (c : Dev nD) (n : Fin 3) :
    (V m c main_v2 : S1x3.Idx → EReal) (ix2 (0 : Fin 1) n) = ((m ((c : Thread nD τ).loc main_arg6)) : S3.Idx → EReal) (ix1 n) := by
  rw [v2_eq m c]
  exact broadcastInDim_apply _ _ _ (ix2 (0 : Fin 1) n) (ix1 n) (fun a => by match a with | ⟨0, _⟩ => rfl)

/-! ## The parameter windows' blocks are their whole arrays -/

theorem blk1_eq (c : Dev nD) (t : Fin cfg0.N) : iblk m c 1 t = (V m c main_arg1 : S128x256.Idx → EReal) := by
  funext y
  show V m c main_arg1 (((cfg0.win 1).blk t).view.emb y) = V m c main_arg1 y
  obtain ⟨e00, e01, e02, e10, e11, e20, e21, e30, e31, e40, e41, e50, e51, e60, e61, e70, e71⟩ := idx_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

theorem blk2_eq (c : Dev nD) (t : Fin cfg0.N) : iblk m c 2 t = (V m c main_arg2 : S64x256.Idx → EReal) := by
  funext y
  show V m c main_arg2 (((cfg0.win 2).blk t).view.emb y) = V m c main_arg2 y
  obtain ⟨e00, e01, e02, e10, e11, e20, e21, e30, e31, e40, e41, e50, e51, e60, e61, e70, e71⟩ := idx_facts t
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 256 + 1 * (y 1).val = (y 1).val; omega

theorem blk3_eq (c : Dev nD) (t : Fin cfg0.N) : iblk m c 3 t = (V m c main_v0 : S1x256.Idx → EReal) := by
  funext y
  show V m c main_v0 (((cfg0.win 3).blk t).view.emb y) = V m c main_v0 y
  obtain ⟨e00, e01, e02, e10, e11, e20, e21, e30, e31, e40, e41, e50, e51, e60, e61, e70, e71⟩ := idx_facts t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem blk4_eq (c : Dev nD) (t : Fin cfg0.N) : iblk m c 4 t = (V m c main_v1 : S1x256.Idx → EReal) := by
  funext y
  show V m c main_v1 (((cfg0.win 4).blk t).view.emb y) = V m c main_v1 y
  obtain ⟨e00, e01, e02, e10, e11, e20, e21, e30, e31, e40, e41, e50, e51, e60, e61, e70, e71⟩ := idx_facts t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem blk5_eq (c : Dev nD) (t : Fin cfg0.N) : iblk m c 5 t = (V m c main_arg5 : S64x3.Idx → EReal) := by
  funext y
  show V m c main_arg5 (((cfg0.win 5).blk t).view.emb y) = V m c main_arg5 y
  obtain ⟨e00, e01, e02, e10, e11, e20, e21, e30, e31, e40, e41, e50, e51, e60, e61, e70, e71⟩ := idx_facts t
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 3 + 1 * (y 1).val = (y 1).val; omega

theorem blk6_eq (c : Dev nD) (t : Fin cfg0.N) : iblk m c 6 t = (V m c main_v2 : S1x3.Idx → EReal) := by
  funext y
  show V m c main_v2 (((cfg0.win 6).blk t).view.emb y) = V m c main_v2 y
  obtain ⟨e00, e01, e02, e10, e11, e20, e21, e30, e31, e40, e41, e50, e51, e60, e61, e70, e71⟩ := idx_facts t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 3 + 1 * (y 1).val = (y 1).val; omega

/-- The parameters the blocks hold are the parameters the argument arrays hold. -/
theorem params_eq (c : Dev nD) (t : Fin cfg0.N) :
    blockParams (iblk m c 1 t) (iblk m c 2 t) (iblk m c 3 t) (iblk m c 4 t) (iblk m c 5 t) (iblk m c 6 t)
      = Cert.Lstm.paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [blk1_eq, blk2_eq, blk3_eq, blk4_eq, blk5_eq, blk6_eq, V_main_arg1, V_main_arg2, V_main_arg5]
  unfold blockParams Cert.Lstm.paramsOf
  congr 1 <;> funext n <;> first | exact v0_apply m c n | exact v1_apply m c n | exact v2_apply m c n

/-- Row `b` of the input block at point `t` is row 1024 t + b of the input, where the output block's row `b` lands. -/
theorem row_eq (c : Dev nD) (t : Fin cfg0.N) (j : S1024x3.Idx) :
    blockRow (iblk m c 0 t) (j 0) = Cert.Lstm.rowOf (m ((c : Thread nD τ).loc main_arg0)) ((((cfg0.win 7).blk t).view.emb j) 0) := by
  funext s d
  show V m c main_arg0 (((cfg0.win 0).blk t).view.emb (ix3 (j 0) s d)) = (m ((c : Thread nD τ).loc main_arg0)) (ix3 ((((cfg0.win 7).blk t).view.emb j) 0) s d)
  rw [V_main_arg0]
  obtain ⟨e00, e01, e02, e10, e11, e20, e21, e30, e31, e40, e41, e50, e51, e60, e61, e70, e71⟩ := idx_facts t
  refine congrArg _ (funext fun a => Fin.ext ?_)
  match a with
  | ⟨0, _⟩ => show win0_0.index t (0 : Fin 3) * 1024 + 1 * (j 0).val = win0_7.index t (0 : Fin 2) * 1024 + 1 * (j 0).val; omega
  | ⟨1, _⟩ => show win0_0.index t (1 : Fin 3) * 8 + 1 * s.val = s.val; omega
  | ⟨2, _⟩ => show win0_0.index t (2 : Fin 3) * 128 + 1 * d.val = d.val; omega

/-- What grid point `t` writes back to the result array is the specification restricted to that point's block: rows
    1024 t … 1024 t + 1023. -/
theorem flushed_eq (c : Dev nD) (t : Fin cfg0.N) :
    (dats m 0 c).flushed 7 t = ((cfg0.win 7).blk t).view.read (Elt Ideal) (Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Value.flushed7]
  funext j
  show out0_7 (iblk m c 0 t) (iblk m c 1 t) (iblk m c 2 t) (iblk m c 3 t) (iblk m c 4 t) (iblk m c 5 t) (iblk m c 6 t) j
    = (Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (((cfg0.win 7).blk t).view.emb j)
  refine (congrFun (body_eq (iblk m c 0 t) (iblk m c 1 t) (iblk m c 2 t) (iblk m c 3 t) (iblk m c 4 t) (iblk m c 5 t) (iblk m c 6 t)) j).trans ?_
  show Cert.Lstm.out _ (blockRow (iblk m c 0 t) (j 0)) (j 1) = Cert.Lstm.out _ (Cert.Lstm.rowOf _ ((((cfg0.win 7).blk t).view.emb j) 0)) ((((cfg0.win 7).blk t).view.emb j) 1)
  rw [params_eq, row_eq]
  obtain ⟨e00, e01, e02, e10, e11, e20, e21, e30, e31, e40, e41, e50, e51, e60, e61, e70, e71⟩ := idx_facts t
  refine congrArg _ (Fin.ext ?_)
  show (j 1).val = win0_7.index t (1 : Fin 2) * 3 + 1 * (j 1).val
  omega

/-- Point `t`'s block of the 4096 × 3 result array, coordinate by coordinate: on each axis the indices from the block index
    times the block's extent up to one extent further. -/
theorem mem_blk (t : Fin cfg0.N) (i : S4096x3.Idx) :
    i ∈ ((cfg0.win 7).blk t).view.set ↔ ∀ a : Fin 2, win0_7.index t a * S1024x3.size a ≤ (i a).val ∧ (i a).val < win0_7.index t a * S1024x3.size a + S1024x3.size a := by
  show i ∈ ((View.whole main_v3).slice (win0_7.rect t)).set ↔ _
  rw [View.set_slice_whole, Rect.mem_set_unit]
  exact Iff.rfl

/-- Row `r` of the result is in the block of point `r / 1024`. -/
theorem cover (i : S4096x3.Idx) : ∃ t : Fin cfg0.N, (cfg0.win 7).flush t = true ∧ i ∈ ((cfg0.win 7).blk t).view.set := by
  have hN : cfg0.N = 4 := N_0
  have hi0 : (i 0).val < 4096 := (i 0).isLt
  have hi1 : (i 1).val < 3 := (i 1).isLt
  refine ⟨⟨(i 0).val / 1024, by omega⟩, flush0_7 _, ?_⟩
  rw [mem_blk]
  obtain ⟨e00, e01, e02, e10, e11, e20, e21, e30, e31, e40, e41, e50, e51, e60, e61, e70, e71⟩ := idx_facts ⟨(i 0).val / 1024, by omega⟩
  intro a
  match a with
  | ⟨0, _⟩ =>
    show win0_7.index _ (0 : Fin 2) * 1024 ≤ (i 0).val ∧ (i 0).val < win0_7.index _ (0 : Fin 2) * 1024 + 1024
    rw [e70]; show (i 0).val / 1024 * 1024 ≤ (i 0).val ∧ (i 0).val < (i 0).val / 1024 * 1024 + 1024; omega
  | ⟨1, _⟩ =>
    show win0_7.index _ (1 : Fin 2) * 3 ≤ (i 1).val ∧ (i 1).val < win0_7.index _ (1 : Fin 2) * 3 + 3
    rw [e71]; omega

/-- The four blocks tile the array and each holds the specification there, so the whole array does. -/
theorem final (c : Dev nD) : (dats m 0 c).arrAt 7 cfg0.N = (Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (dats m 0 c).arrAt_eq_of_cover 7 (Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- Every weakly fair execution of the kernel program terminates without a fault, the result array holding the network's
    output row by row as one function of the argument arrays, and the argument arrays as they were. -/
theorem run : θ_run defs (onTc (τ := τ) (main (F := Ideal))) ⟨m, fun _ => 0, ρ⟩ fun r => ∀ c : Dev nD,
      r.2.mem ((c : Thread nD τ).loc main_v3) = (Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.LstmValue

end
-- ==== Proof.RefSteps.lean ====
/-
  The arithmetic of the reference's body, named.

  One step of the recurrence on whole vectors (4096 rows at once): the state's projection through the recurrent
  weights into a zero accumulator, the one hyperbolic tangent over the 256 pre-activations, the affine map
  a ↦ a · scale + offset that turns it into the four gates' values, the next cell state and the next hidden state;
  then the output layer.  The body computes exactly these, cut at other places: each of its named intermediate
  values is one of these functions of earlier ones.
-/
import proofs.«137923_g2000504385433502_pallaspilot1_15_32_alg».proof.Proof.Gen.ReferenceIdeal.Skeleton

noncomputable section

namespace Cert.ReferenceIdeal.LstmValue

open Cert.ReferenceIdeal Cert.ReferenceIdeal.Gen Idealize.ShloMosaic

variable {F : FTy → Type} [FloatOps F]

/-! ## The step functions -/

/-- The hidden state's projection through the recurrent weights. -/
def recur (whh : FVec F S64x256 .f32) (h : FVec F S4096x64 .f32) : FVec F S4096x256 .f32 :=
  matmul dot_S4096x64_S64x256_S4096x256_1_0_0_1_n_n none h whh (constant S4096x256 .f32 0x00000000#32)

/-- The one hyperbolic tangent over a step's 256 pre-activations: the input's share plus the state's. -/
def actV (whh : FVec F S64x256 .f32) (xg : FVec F S4096x256 .f32) (h : FVec F S4096x64 .f32) : FVec F S4096x256 .f32 :=
  tanh (addf xg (recur whh h))

/-- The gates' values from the tangent: times the scale, plus the offset, column by column. -/
def scaled (sc off a : FVec F S4096x256 .f32) : FVec F S4096x256 .f32 := addf (mulf a sc) off

/-- The input gate's 64 columns. -/
def gI (g : FVec F S4096x256 .f32) : FVec F S4096x64 .f32 :=
  extractStridedSlice S4096x64 ![0, 0] g slices_S4096x256_o0_0_S4096x64
/-- The forget gate's 64 columns. -/
def gF (g : FVec F S4096x256 .f32) : FVec F S4096x64 .f32 :=
  extractStridedSlice S4096x64 ![0, 64] g slices_S4096x256_o0_64_S4096x64
/-- The cell gate's 64 columns. -/
def gG (g : FVec F S4096x256 .f32) : FVec F S4096x64 .f32 :=
  extractStridedSlice S4096x64 ![0, 128] g slices_S4096x256_o0_128_S4096x64
/-- The output gate's 64 columns. -/
def gO (g : FVec F S4096x256 .f32) : FVec F S4096x64 .f32 :=
  extractStridedSlice S4096x64 ![0, 192] g slices_S4096x256_o0_192_S4096x64

/-- The next cell state: forget · cell + input · candidate. -/
def cellN (g : FVec F S4096x256 .f32) (c : FVec F S4096x64 .f32) : FVec F S4096x64 .f32 :=
  addf (mulf (gF g) c) (mulf (gI g) (gG g))

/-- The next hidden state: output · tanh of the next cell state. -/
def hidN (g : FVec F S4096x256 .f32) (c' : FVec F S4096x64 .f32) : FVec F S4096x64 .f32 :=
  mulf (gO g) (tanh c')

/-- The output layer: the last hidden state through the output weights, plus the output bias on every row. -/
def outL (h : FVec F S4096x64 .f32) (w : FVec F S64x3 .f32) (b : FVec F S1x3 .f32) : FVec F S4096x3 .f32 :=
  addf (matmul dot_S4096x64_S64x3_S4096x3_1_0_0_1_n_n none h (shapeCast S64x3 w shapeCasts_S64x3_S64x3)
      (constant S4096x3 .f32 0x00000000#32))
    (broadcastTo S4096x3 (shapeCast S1x3 b shapeCasts_S1x3_S1x3) broadcasts_S1x3_S4096x3)

/-! ## The body's intermediate values are these -/

section Payloads

variable (whh : FVec F S64x256 .f32) (sc off : FVec F S4096x256 .f32)

theorem pay7_eq (v12 : FVec F S64x256 .f32) (xg : FVec F S4096x256 .f32) :
    k0_pay7 v12 xg = actV (k0_pay2 v12) xg k0_pay6 := rfl

theorem pay8_eq (a : FVec F S4096x256 .f32) : k0_pay8 sc off a = scaled sc off a := rfl

theorem pay9_eq (c : FVec F S4096x64 .f32) (a : FVec F S4096x256 .f32) :
    k0_pay9 sc off c a = cellN (k0_pay8 sc off a) c := rfl

theorem pay10_eq (c : FVec F S4096x64 .f32) (a xg1 : FVec F S4096x256 .f32) :
    k0_pay10 whh sc off c a xg1
      = scaled sc off (actV whh xg1 (hidN (k0_pay8 sc off a) (k0_pay9 sc off c a))) := rfl

theorem pay11_eq (c : FVec F S4096x64 .f32) (a xg1 : FVec F S4096x256 .f32) :
    k0_pay11 whh sc off c a xg1 = cellN (k0_pay10 whh sc off c a xg1) (k0_pay9 sc off c a) := rfl

theorem pay12_eq (c : FVec F S4096x64 .f32) (a xg1 xg2 : FVec F S4096x256 .f32) :
    k0_pay12 whh sc off c a xg1 xg2
      = scaled sc off (actV whh xg2 (hidN (k0_pay10 whh sc off c a xg1) (k0_pay11 whh sc off c a xg1))) := rfl

theorem pay13_eq (c : FVec F S4096x64 .f32) (a xg1 xg2 : FVec F S4096x256 .f32) :
    k0_pay13 whh sc off c a xg1 xg2 = cellN (k0_pay12 whh sc off c a xg1 xg2) (k0_pay11 whh sc off c a xg1) := rfl

theorem pay14_eq (c : FVec F S4096x64 .f32) (a xg1 xg2 : FVec F S4096x256 .f32) :
    k0_pay14 whh sc off c a xg1 xg2 = hidN (k0_pay12 whh sc off c a xg1 xg2) (k0_pay13 whh sc off c a xg1 xg2) := rfl

theorem pay15_eq (h : FVec F S4096x64 .f32) (xg3 : FVec F S4096x256 .f32) :
    k0_pay15 whh sc off h xg3 = scaled sc off (actV whh xg3 h) := rfl

theorem pay16_eq (c h : FVec F S4096x64 .f32) (xg3 : FVec F S4096x256 .f32) :
    k0_pay16 whh sc off c h xg3 = cellN (k0_pay15 whh sc off h xg3) c := rfl

theorem pay17_eq (c h : FVec F S4096x64 .f32) (xg3 xg4 : FVec F S4096x256 .f32) :
    k0_pay17 whh sc off c h xg3 xg4
      = scaled sc off (actV whh xg4 (hidN (k0_pay15 whh sc off h xg3) (k0_pay16 whh sc off c h xg3))) := rfl

theorem pay18_eq (c h : FVec F S4096x64 .f32) (xg3 xg4 : FVec F S4096x256 .f32) :
    k0_pay18 whh sc off c h xg3 xg4 = cellN (k0_pay17 whh sc off c h xg3 xg4) (k0_pay16 whh sc off c h xg3) := rfl

theorem pay19_eq (c h : FVec F S4096x64 .f32) (xg3 xg4 xg5 : FVec F S4096x256 .f32) :
    k0_pay19 whh sc off c h xg3 xg4 xg5
      = scaled sc off (actV whh xg5 (hidN (k0_pay17 whh sc off c h xg3 xg4) (k0_pay18 whh sc off c h xg3 xg4))) := rfl

theorem pay20_eq (c h : FVec F S4096x64 .f32) (xg3 xg4 xg5 : FVec F S4096x256 .f32) :
    k0_pay20 whh sc off c h xg3 xg4 xg5 = gO (k0_pay19 whh sc off c h xg3 xg4 xg5) := rfl

theorem pay21_eq (c h : FVec F S4096x64 .f32) (xg3 xg4 xg5 : FVec F S4096x256 .f32) :
    k0_pay21 whh sc off c h xg3 xg4 xg5
      = cellN (k0_pay19 whh sc off c h xg3 xg4 xg5) (k0_pay18 whh sc off c h xg3 xg4) := rfl

theorem pay22_eq (c h : FVec F S4096x64 .f32) (xg3 xg4 xg5 : FVec F S4096x256 .f32) :
    k0_pay22 whh sc off c h xg3 xg4 xg5 = tanh (k0_pay21 whh sc off c h xg3 xg4 xg5) := rfl

/-- The last intermediate value: from the sixth step's output gate `o`, cell state `c` and its tangent `t`, two more steps and
    the output layer. -/
theorem pay23_eq (o c t : FVec F S4096x64 .f32) (xg6 xg7 : FVec F S4096x256 .f32) (w : FVec F S64x3 .f32)
    (b : FVec F S1x3 .f32) :
    k0_pay23 whh sc off o c t xg6 xg7 w b
      = outL (hidN (scaled sc off (actV whh xg7 (hidN (scaled sc off (actV whh xg6 (mulf o t)))
                (cellN (scaled sc off (actV whh xg6 (mulf o t))) c))))
            (cellN (scaled sc off (actV whh xg7 (hidN (scaled sc off (actV whh xg6 (mulf o t)))
                (cellN (scaled sc off (actV whh xg6 (mulf o t))) c))))
              (cellN (scaled sc off (actV whh xg6 (mulf o t))) c))) w b := rfl

end Payloads

end Cert.ReferenceIdeal.LstmValue

end
-- ==== Proof.RefBody.lean ====
/-
  The reference body's result as ONE term over the values its loads read: the recurrent weights' block of the packed slab,
  the eight 4096-row blocks of the stored pre-activations (one per time step), the output weights and the output bias.
  It is the body's nest of intermediate values, with what its loads read as variables.
-/
import proofs.«137923_g2000504385433502_pallaspilot1_15_32_alg».proof.Proof.RefSteps

noncomputable section

namespace Cert.ReferenceIdeal.LstmValue

open Cert.ReferenceIdeal Cert.ReferenceIdeal.Gen Idealize.ShloMosaic

variable {F : FTy → Type} [FloatOps F]

/-- The cell state after the first three steps. -/
def c3Of (v12 : FVec F S64x256 .f32) (xg0 xg1 xg2 : FVec F S4096x256 .f32) : FVec F S4096x64 .f32 :=
  k0_pay13 (k0_pay2 v12) k0_pay4 k0_pay5 k0_pay6 (k0_pay7 v12 xg0) xg1 xg2

/-- The hidden state after the first three steps. -/
def h3Of (v12 : FVec F S64x256 .f32) (xg0 xg1 xg2 : FVec F S4096x256 .f32) : FVec F S4096x64 .f32 :=
  k0_pay14 (k0_pay2 v12) k0_pay4 k0_pay5 k0_pay6 (k0_pay7 v12 xg0) xg1 xg2

/-- The body's result. -/
def bodyOf (v12 : FVec F S64x256 .f32) (xg : Fin 8 → FVec F S4096x256 .f32) (w : FVec F S64x3 .f32)
    (bo : FVec F S1x3 .f32) : FVec F S4096x3 .f32 :=
  k0_pay23 (k0_pay2 v12) k0_pay4 k0_pay5
    (k0_pay20 (k0_pay2 v12) k0_pay4 k0_pay5 (c3Of v12 (xg 0) (xg 1) (xg 2)) (h3Of v12 (xg 0) (xg 1) (xg 2)) (xg 3) (xg 4) (xg 5))
    (k0_pay21 (k0_pay2 v12) k0_pay4 k0_pay5 (c3Of v12 (xg 0) (xg 1) (xg 2)) (h3Of v12 (xg 0) (xg 1) (xg 2)) (xg 3) (xg 4) (xg 5))
    (k0_pay22 (k0_pay2 v12) k0_pay4 k0_pay5 (c3Of v12 (xg 0) (xg 1) (xg 2)) (h3Of v12 (xg 0) (xg 1) (xg 2)) (xg 3) (xg 4) (xg 5))
    (xg 6) (xg 7) w bo

end Cert.ReferenceIdeal.LstmValue

end
-- ==== Proof.RefLoads.lean ====
/-
  What the reference body's loads read, as functions of the three input blocks: the recurrent weights' rows of the packed
  slab, the stored projection of all input rows (through the slab's input-weight rows, plus its bias row) and its eight
  4096-row blocks, one per time step, and the two parts of the packed output layer.
-/
import proofs.«137923_g2000504385433502_pallaspilot1_15_32_alg».proof.Proof.RefBody
import Idealize.ShloMosaic.Lib.Pipeline.Value

noncomputable section

namespace Cert.ReferenceIdeal.LstmValue

open Cert.ReferenceIdeal Cert.ReferenceIdeal.Gen Idealize.ShloMosaic

variable {F : FTy → Type} [FloatOps F]

theorem hz : (![0, 0] : Fin 2 → Nat) = fun _ => 0 := funext fun a => by fin_cases a <;> rfl

/-- Rows 128 … 191 of the packed slab: the recurrent weights' block. -/
def whhBlock (x1 : Vec F S200x256 .f32) : FVec F S64x256 .f32 :=
  View.ld (Val := Elt F) (e' := .f32) x1 (Rect.unit (s := S200x256) ![128, 0] S64x256.size inb_S200x256_S64x256_128_0)

/-- What the body stores in its scratch: the projection of all 32768 input rows through rows 0 … 127 of the slab, plus
    its row 192. -/
def xgAll (x0 : Vec F S32768x128 .f32) (x1 : Vec F S200x256 .f32) : FVec F S32768x256 .f32 :=
  k0_pay1 x0 (View.ld (Val := Elt F) (e' := .f32) x1 (Rect.unit (s := S200x256) ![0, 0] S128x256.size inb_S200x256_S128x256_0_0))
    (View.ld (Val := Elt F) (e' := .f32) x1 (Rect.unit (s := S200x256) ![192, 0] S1x256.size inb_S200x256_S1x256_192_0))

theorem blk_inb (t : Fin 8) : ∀ a, (![4096 * t.val, 0] : Fin 2 → Nat) a + S4096x256.size a ≤ S32768x256.size a := by
  intro a
  have := t.isLt
  match a with
  | ⟨0, _⟩ => show 4096 * t.val + 4096 ≤ 32768; omega
  | ⟨1, _⟩ => show 0 + 256 ≤ 256; omega

/-- Step `t`'s block of the scratch: its rows 4096·t … 4096·t + 4095. -/
def xgBlock (x0 : Vec F S32768x128 .f32) (x1 : Vec F S200x256 .f32) (t : Fin 8) : FVec F S4096x256 .f32 :=
  View.ld (Val := Elt F) (e' := .f32) (xgAll x0 x1)
    (Rect.unit (s := S32768x256) ![4096 * t.val, 0] S4096x256.size (blk_inb t))

/-- Rows 0 … 63 of the packed output layer. -/
def woutBlock (x2 : Vec F S72x3 .f32) : FVec F S64x3 .f32 :=
  View.ld (Val := Elt F) (e' := .f32) x2 (Rect.unit (s := S72x3) ![0, 0] S64x3.size inb_S72x3_S64x3_0_0)

/-- Row 64 of the packed output layer. -/
def boutRow (x2 : Vec F S72x3 .f32) : FVec F S1x3 .f32 :=
  View.ld (Val := Elt F) (e' := .f32) x2 (Rect.unit (s := S72x3) ![64, 0] S1x3.size inb_S72x3_S1x3_64_0)

end Cert.ReferenceIdeal.LstmValue

end
-- ==== Proof.RefPiece.lean ====
/-
  What the reference's body leaves in the output's staging buffer, as a value: the body's result of what its loads read.

  The body makes one store to the output block, covering it, so the buffer holds that store's value.  Its loads of the three
  input blocks read them through their rectangles; its eight loads of the scratch come after the ONE store that filled the
  scratch whole, so each reads the stored projection through its rectangle of 4096 rows.
-/
import proofs.«137923_g2000504385433502_pallaspilot1_15_32_alg».proof.Proof.Gen.ReferenceIdeal.Frame
import proofs.«137923_g2000504385433502_pallaspilot1_15_32_alg».proof.Proof.RefLoads
import Idealize.ShloMosaic.Lib.Pipeline.Value
import Idealize.ShloMosaic.Lib.Tactic

noncomputable section

open Idealize.ShloMosaic Idealize.ShloMosaic.TcCoe Idealize.SL.Sem

namespace Cert.ReferenceIdeal.LstmValue

open Cert.ReferenceIdeal Cert.ReferenceIdeal.Gen

variable {F : FTy → Type} [FloatOps F]

/-- A load through any rectangle of the scratch, after the ONE store that filled it whole, reads the stored value there. -/
theorem readCov_filled {sig : RefSig} {κ : Kind} {sp : Space} (v : View sig κ sp S32768x256 .f32)
    (w : S32768x256.Idx → Elt F .f32) (inb : ∀ a, (![0, 0] : Fin 2 → Nat) a + S32768x256.size a ≤ S32768x256.size a)
    (r : Rect S32768x256) :
    v.readCov [(⟨Rect.unit ![0, 0] S32768x256.size inb, w⟩ : View.Piece (Elt F) S32768x256 .f32)] r.toLoadRect
      = View.ld w r := by
  rw [View.readCov_eq_canon_ld _ _ _ (fun y => ⟨_, List.mem_singleton_self _, View.mem_set_unit_zero hz inb y⟩),
    View.canon_unit_zero hz]

/-! ## What the body leaves -/

set_option maxHeartbeats 600000 in
/-- WHAT THE BODY LEAVES in the output's staging buffer: its one covering store's value, whose loads read the three input
    blocks through their rectangles and the scratch, block by block, after the one store that filled it. -/
theorem out_eq (c : Dev nD) (i : grid0.Coords) (arg1 : Memref sig .tc .vmem S32768x128 .f32) (harg1 : arg1.IsWhole) (arg2 : Memref sig .tc .vmem S200x256 .f32) (harg2 : arg2.IsWhole) (arg3 : Memref sig .tc .vmem S72x3 .f32) (harg3 : arg3.IsWhole) (arg4 : Memref sig .tc .vmem S4096x3 .f32) (harg4 : arg4.IsWhole) (arg5 : Memref sig .tc .vmem S32768x256 .f32) (harg5 : arg5.IsWhole)
    (x0 : Vec F S32768x128 .f32) (x1 : Vec F S200x256 .f32) (x2 : Vec F S72x3 .f32) :
    out0_A_3 c i arg1 harg1 arg2 harg2 arg3 harg3 arg4 harg4 arg5 harg5 x0 x1 x2 = bodyOf (whhBlock x1) (xgBlock x0 x1) (woutBlock x2) (boutRow x2) := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  iterate 8 rw [readCov_filled]
  simp only [View.readAt_eq_ld, harg1.read_unread, harg2.read_unread, harg3.read_unread,
    View.ld_unit_zero (S := S32768x128) hz]
  unfold bodyOf c3Of h3Of xgBlock xgAll whhBlock woutBlock boutRow
  rfl

end Cert.ReferenceIdeal.LstmValue

end
-- ==== Proof.RefSums.lean ====
/-
  The reference body's three matrix products read at an index, at the ideal values: into a zero accumulator each is the
  plain sum of products over the contracted axis — the 64 hidden units for the state's projection and for the output
  layer, the 128 features for the inputs' projection — and the stored projection of all 32768 input rows is that sum plus
  the bias row.
-/
import proofs.«137923_g2000504385433502_pallaspilot1_15_32_alg».proof.Proof.RefSteps
import proofs.«137923_g2000504385433502_pallaspilot1_15_32_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LstmValue

open Cert.ReferenceIdeal Cert.ReferenceIdeal.Gen Idealize.ShloMosaic Idealize.ShloMosaic.ValueIdx

/-! ## The three products as sums -/

/-- The state's projection at row `b`, column `n`: the sum over the 64 hidden units. -/
theorem recurMat_apply (whh : FVec Ideal S64x256 .f32) (h : FVec Ideal S4096x64 .f32) (b : Fin 4096) (n : Fin 256) :
    matmul dot_S4096x64_S64x256_S4096x256_1_0_0_1_n_n none h whh (constant (F := Ideal) S4096x256 .f32 0x00000000#32) (ix2 b n)
      = ∑ j : Fin 64, h (ix2 b j) * whh (ix2 j n) := by
  refine (Ideal.matmul_constant_zero_apply _ _ _ _ _).trans ?_
  rw [← Equiv.sum_comp (contrEquiv1 dot_S4096x64_S64x256_S4096x256_1_0_0_1_n_n 64 rfl rfl).symm]
  refine Finset.sum_congr rfl fun k _ => ?_
  have el : dot_S4096x64_S64x256_S4096x256_1_0_0_1_n_n.lhsIdx (ix2 b n) ((contrEquiv1 dot_S4096x64_S64x256_S4096x256_1_0_0_1_n_n 64 rfl rfl).symm k) = ix2 b k := by
    funext a
    apply Fin.ext
    match a with
    | ⟨0, _⟩ => simp [DotDims.lhsIdx, dot_S4096x64_S64x256_S4096x256_1_0_0_1_n_n]; rfl
    | ⟨1, _⟩ =>
      exact (DotDims.lhsIdx_val_of_single (d := dot_S4096x64_S64x256_S4096x256_1_0_0_1_n_n) (cl := 1) rfl _ _).trans (contrEquiv1_symm_val _ 64 rfl rfl k)
  have er : dot_S4096x64_S64x256_S4096x256_1_0_0_1_n_n.rhsIdx (ix2 b n) ((contrEquiv1 dot_S4096x64_S64x256_S4096x256_1_0_0_1_n_n 64 rfl rfl).symm k) = ix2 k n := by
    funext a
    apply Fin.ext
    match a with
    | ⟨0, _⟩ =>
      exact (DotDims.rhsIdx_val_of_single (d := dot_S4096x64_S64x256_S4096x256_1_0_0_1_n_n) (cr := 0) rfl _ _).trans (contrEquiv1_symm_val _ 64 rfl rfl k)
    | ⟨1, _⟩ => simp [DotDims.rhsIdx, dot_S4096x64_S64x256_S4096x256_1_0_0_1_n_n]; rfl
  rw [el, er]

/-- The output layer's product at row `b`, output `a`. -/
theorem outMat_apply (w : FVec Ideal S64x3 .f32) (h : FVec Ideal S4096x64 .f32) (b : Fin 4096) (a : Fin 3) :
    matmul dot_S4096x64_S64x3_S4096x3_1_0_0_1_n_n none h w (constant (F := Ideal) S4096x3 .f32 0x00000000#32) (ix2 b a)
      = ∑ j : Fin 64, h (ix2 b j) * w (ix2 j a) := by
  refine (Ideal.matmul_constant_zero_apply _ _ _ _ _).trans ?_
  rw [← Equiv.sum_comp (contrEquiv1 dot_S4096x64_S64x3_S4096x3_1_0_0_1_n_n 64 rfl rfl).symm]
  refine Finset.sum_congr rfl fun k _ => ?_
  have el : dot_S4096x64_S64x3_S4096x3_1_0_0_1_n_n.lhsIdx (ix2 b a) ((contrEquiv1 dot_S4096x64_S64x3_S4096x3_1_0_0_1_n_n 64 rfl rfl).symm k) = ix2 b k := by
    funext a
    apply Fin.ext
    match a with
    | ⟨0, _⟩ => simp [DotDims.lhsIdx, dot_S4096x64_S64x3_S4096x3_1_0_0_1_n_n]; rfl
    | ⟨1, _⟩ =>
      exact (DotDims.lhsIdx_val_of_single (d := dot_S4096x64_S64x3_S4096x3_1_0_0_1_n_n) (cl := 1) rfl _ _).trans (contrEquiv1_symm_val _ 64 rfl rfl k)
  have er : dot_S4096x64_S64x3_S4096x3_1_0_0_1_n_n.rhsIdx (ix2 b a) ((contrEquiv1 dot_S4096x64_S64x3_S4096x3_1_0_0_1_n_n 64 rfl rfl).symm k) = ix2 k a := by
    funext a
    apply Fin.ext
    match a with
    | ⟨0, _⟩ =>
      exact (DotDims.rhsIdx_val_of_single (d := dot_S4096x64_S64x3_S4096x3_1_0_0_1_n_n) (cr := 0) rfl _ _).trans (contrEquiv1_symm_val _ 64 rfl rfl k)
    | ⟨1, _⟩ => simp [DotDims.rhsIdx, dot_S4096x64_S64x3_S4096x3_1_0_0_1_n_n]; rfl
  rw [el, er]

/-- The inputs' projection at row `r` of the 32768 (time by batch), column `n`: the sum over the 128 features. -/
theorem inMat_apply (w : FVec Ideal S128x256 .f32) (x : FVec Ideal S32768x128 .f32) (r : Fin 32768) (n : Fin 256) :
    matmul dot_S32768x128_S128x256_S32768x256_1_0_0_1_n_n none x w (constant (F := Ideal) S32768x256 .f32 0x00000000#32) (ix2 r n)
      = ∑ d : Fin 128, x (ix2 r d) * w (ix2 d n) := by
  refine (Ideal.matmul_constant_zero_apply _ _ _ _ _).trans ?_
  rw [← Equiv.sum_comp (contrEquiv1 dot_S32768x128_S128x256_S32768x256_1_0_0_1_n_n 128 rfl rfl).symm]
  refine Finset.sum_congr rfl fun k _ => ?_
  have el : dot_S32768x128_S128x256_S32768x256_1_0_0_1_n_n.lhsIdx (ix2 r n) ((contrEquiv1 dot_S32768x128_S128x256_S32768x256_1_0_0_1_n_n 128 rfl rfl).symm k) = ix2 r k := by
    funext a
    apply Fin.ext
    match a with
    | ⟨0, _⟩ => simp [DotDims.lhsIdx, dot_S32768x128_S128x256_S32768x256_1_0_0_1_n_n]; rfl
    | ⟨1, _⟩ =>
      exact (DotDims.lhsIdx_val_of_single (d := dot_S32768x128_S128x256_S32768x256_1_0_0_1_n_n) (cl := 1) rfl _ _).trans (contrEquiv1_symm_val _ 128 rfl rfl k)
  have er : dot_S32768x128_S128x256_S32768x256_1_0_0_1_n_n.rhsIdx (ix2 r n) ((contrEquiv1 dot_S32768x128_S128x256_S32768x256_1_0_0_1_n_n 128 rfl rfl).symm k) = ix2 k n := by
    funext a
    apply Fin.ext
    match a with
    | ⟨0, _⟩ =>
      exact (DotDims.rhsIdx_val_of_single (d := dot_S32768x128_S128x256_S32768x256_1_0_0_1_n_n) (cr := 0) rfl _ _).trans (contrEquiv1_symm_val _ 128 rfl rfl k)
    | ⟨1, _⟩ => simp [DotDims.rhsIdx, dot_S32768x128_S128x256_S32768x256_1_0_0_1_n_n]; rfl
  rw [el, er]

theorem recur_apply (whh : FVec Ideal S64x256 .f32) (h : FVec Ideal S4096x64 .f32) (b : Fin 4096) (n : Fin 256) :
    recur whh h (ix2 b n) = ∑ j : Fin 64, h (ix2 b j) * whh (ix2 j n) := recurMat_apply whh h b n

/-- The stored projection of all 32768 input rows: the product plus the bias row. -/
theorem pay1_apply (v0 : FVec Ideal S32768x128 .f32) (v2 : FVec Ideal S128x256 .f32) (v5 : FVec Ideal S1x256 .f32)
    (r : Fin 32768) (n : Fin 256) :
    k0_pay1 v0 v2 v5 (ix2 r n) = ∑ d : Fin 128, v0 (ix2 r d) * v2 (ix2 d n) + v5 (ix2 (0 : Fin 1) n) := by
  unfold k0_pay1
  simp only [shapeCast_self]
  refine (addf_apply _ _ _).trans ?_
  rw [inMat_apply, broadcastTo_1b_ab_apply]

end Cert.ReferenceIdeal.LstmValue

end
-- ==== Proof.RefGates.lean ====
/-
  The reference body's constant vectors and column cuts read at an index, at the ideal values: the mask of the cell gate's
  columns 128 … 191 (an iota along the columns compared with 128 and 192), the scale (1 there, 1/2 elsewhere) and the offset
  (0 there, 1/2 elsewhere) selected by it, the zero vector the recurrence starts from, and the four 64-column cuts of the
  256 gate columns.
-/
import proofs.«137923_g2000504385433502_pallaspilot1_15_32_alg».proof.Proof.RefSums
import proofs.«137923_g2000504385433502_pallaspilot1_15_32_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LstmValue

open Cert.ReferenceIdeal Cert.ReferenceIdeal.Gen Idealize.ShloMosaic Idealize.ShloMosaic.ValueIdx
/-! ## The column mask, the scale and the offset -/

/-- The offset a gate column carries: 0 on the cell gate's columns 128 … 191, 1/2 on the others. -/
def colOff (n : Fin 256) : EReal :=
  if 128 ≤ n.val ∧ n.val < 192 then Ideal.ofBits .f32 0x00000000#32 else Cert.Lstm.half

theorem mask_apply (b : Fin 4096) (n : Fin 256) :
    k0_pay3 (ix2 b n) = if 128 ≤ n.val ∧ n.val < 192 then 1#1 else 0#1 := by
  have key : ∀ l : Fin 256, IntOp.andi (IntOp.cmpi .sge (BitVec.ofNat 32 l.val) 128#32)
      (IntOp.cmpi .slt (BitVec.ofNat 32 l.val) 192#32) = if 128 ≤ l.val ∧ l.val < 192 then 1#1 else 0#1 := by
    decide +kernel
  unfold k0_pay3
  show IntOp.andi (IntOp.cmpi .sge (iota .tc S4096x256 32 [1] iota_S4096x256_d1_w32 (ix2 b n)) 128#32)
      (IntOp.cmpi .slt (iota .tc S4096x256 32 [1] iota_S4096x256_d1_w32 (ix2 b n)) 192#32) = _
  rw [iota_single_apply]
  exact key n

theorem scale_apply (b : Fin 4096) (n : Fin 256) : k0_pay4 (F := Ideal) (ix2 b n) = Cert.Lstm.colScale n := by
  unfold k0_pay4
  show Scalar.select (k0_pay3 (ix2 b n)) Cert.Lstm.one Cert.Lstm.half = _
  rw [mask_apply]
  unfold Cert.Lstm.colScale
  by_cases hc : 128 ≤ n.val ∧ n.val < 192
  · rw [if_pos hc, if_pos hc, select_one]
  · rw [if_neg hc, if_neg hc, select_zero]

theorem offset_apply (b : Fin 4096) (n : Fin 256) : k0_pay5 (F := Ideal) (ix2 b n) = colOff n := by
  unfold k0_pay5
  show Scalar.select (k0_pay3 (ix2 b n)) (Ideal.ofBits .f32 0x00000000#32) Cert.Lstm.half = _
  rw [mask_apply]
  unfold colOff
  by_cases hc : 128 ≤ n.val ∧ n.val < 192
  · rw [if_pos hc, if_pos hc, select_one]
  · rw [if_neg hc, if_neg hc, select_zero]

/-- The zero vector the recurrence starts from. -/
theorem zero_apply (b : Fin 4096) (j : Fin 64) : k0_pay6 (F := Ideal) (ix2 b j) = 0 := by
  unfold k0_pay6
  show Ideal.ofBits .f32 0x00000000#32 = 0
  exact Ideal.ofBits_zero_f32

/-! ## The gates' columns -/

theorem gI_apply (g : FVec Ideal S4096x256 .f32) (b : Fin 4096) (j : Fin 64) : gI g (ix2 b j) = g (ix2 b (Cert.Lstm.col 0 j)) :=
  slice2_axis1_apply 0 g _ b j _ (by show 64 * 0 + j.val = 0 + j.val; omega)
theorem gF_apply (g : FVec Ideal S4096x256 .f32) (b : Fin 4096) (j : Fin 64) : gF g (ix2 b j) = g (ix2 b (Cert.Lstm.col 1 j)) :=
  slice2_axis1_apply 64 g _ b j _ (by show 64 * 1 + j.val = 64 + j.val; omega)
theorem gG_apply (g : FVec Ideal S4096x256 .f32) (b : Fin 4096) (j : Fin 64) : gG g (ix2 b j) = g (ix2 b (Cert.Lstm.col 2 j)) :=
  slice2_axis1_apply 128 g _ b j _ (by show 64 * 2 + j.val = 128 + j.val; omega)
theorem gO_apply (g : FVec Ideal S4096x256 .f32) (b : Fin 4096) (j : Fin 64) : gO g (ix2 b j) = g (ix2 b (Cert.Lstm.col 3 j)) :=
  slice2_axis1_apply 192 g _ b j _ (by show 64 * 3 + j.val = 192 + j.val; omega)

end Cert.ReferenceIdeal.LstmValue

end
-- ==== Proof.RefRow.lean ====
/-
  The reference body against the specification, one row of the batch at a time, at the ideal values.

  The gates' values at a row are the specification's tangent of the pre-activation under the affine map of its column; on
  the cell gate's columns that map is the identity (a · 1 + 0) and elsewhere the sigmoid's a/2 + 1/2; so one step of the
  body's vectors, read at a row, is the specification's step; eight of them from the zero vector and the output layer give
  the specification's output.
-/
import proofs.«137923_g2000504385433502_pallaspilot1_15_32_alg».proof.Proof.RefGates
import proofs.«137923_g2000504385433502_pallaspilot1_15_32_alg».proof.Proof.RefBody
import proofs.«137923_g2000504385433502_pallaspilot1_15_32_alg».proof.Proof.LstmSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.LstmValue

open Cert.ReferenceIdeal Cert.ReferenceIdeal.Gen Idealize.ShloMosaic Idealize.ShloMosaic.ValueIdx

/-! ## One step at a row of the batch -/

section Row

variable (P : Cert.Lstm.Params)

/-- The gates' values at row `b`: the specification's tangent of the pre-activation, times the column's scale, plus
    its offset — when the row of `h` is the specification's hidden state, the row of `xg` the input's share with the
    bias, and `whh` the scaled recurrent weights. -/
theorem gate_apply (x : Fin 128 → EReal) (hσ : Fin 64 → EReal) (b : Fin 4096)
    (whh : FVec Ideal S64x256 .f32) (xg : FVec Ideal S4096x256 .f32) (h : FVec Ideal S4096x64 .f32)
    (hwhh : ∀ j n, whh (ix2 j n) = Cert.Lstm.whhS P j n)
    (hxg : ∀ n, xg (ix2 b n) = ∑ d, x d * Cert.Lstm.wihS P d n + Cert.Lstm.biasS P n)
    (hh : ∀ j, h (ix2 b j) = hσ j) (n : Fin 256) :
    (scaled k0_pay4 k0_pay5 (actV whh xg h)) (ix2 b n) = Cert.Lstm.act P x hσ n * Cert.Lstm.colScale n + colOff n := by
  unfold scaled
  refine (addf_apply _ _ _).trans ?_
  rw [offset_apply]
  refine congrArg (· + colOff n) ?_
  refine (mulf_apply _ _ _).trans ?_
  rw [scale_apply]
  refine congrArg (· * Cert.Lstm.colScale n) ?_
  show Ideal.tanh (xg (ix2 b n) + recur whh h (ix2 b n)) = _
  rw [recur_apply, hxg]
  simp only [hh, hwhh]
  rfl

/-- Off the cell gate's columns the affine map is a ↦ a/2 + 1/2: the sigmoid from the tangent. -/
theorem sig_gate (a : EReal) (n : Fin 256) (hn : ¬(128 ≤ n.val ∧ n.val < 192)) :
    a * Cert.Lstm.colScale n + colOff n = a * Cert.Lstm.half + Cert.Lstm.half := by
  unfold Cert.Lstm.colScale colOff
  rw [if_neg hn, if_neg hn]

/-- On the cell gate's columns it is the identity: a · 1 + 0. -/
theorem cell_gate (a : EReal) (n : Fin 256) (hn : 128 ≤ n.val ∧ n.val < 192) :
    a * Cert.Lstm.colScale n + colOff n = a := by
  unfold Cert.Lstm.colScale colOff
  rw [if_pos hn, if_pos hn, Cert.Lstm.one_eq, mul_one, Ideal.ofBits_zero_f32, add_zero]

/-- ONE STEP at row `b`: from vectors whose row `b` is the specification's state `σ`, the next cell and hidden vectors'
    row `b` is the specification's next state. -/
theorem step_row (x : Fin 128 → EReal) (σ : Cert.Lstm.State) (b : Fin 4096)
    (whh : FVec Ideal S64x256 .f32) (xg : FVec Ideal S4096x256 .f32) (h c : FVec Ideal S4096x64 .f32)
    (hwhh : ∀ j n, whh (ix2 j n) = Cert.Lstm.whhS P j n)
    (hxg : ∀ n, xg (ix2 b n) = ∑ d, x d * Cert.Lstm.wihS P d n + Cert.Lstm.biasS P n)
    (hh : ∀ j, h (ix2 b j) = σ.1 j) (hc : ∀ j, c (ix2 b j) = σ.2 j) :
    (∀ j, cellN (scaled k0_pay4 k0_pay5 (actV whh xg h)) c (ix2 b j) = (Cert.Lstm.step P x σ).2 j)
      ∧ ∀ j, hidN (scaled k0_pay4 k0_pay5 (actV whh xg h)) (cellN (scaled k0_pay4 k0_pay5 (actV whh xg h)) c) (ix2 b j) = (Cert.Lstm.step P x σ).1 j := by
  have hg := gate_apply P x σ.1 b whh xg h hwhh hxg hh
  have hcell : ∀ j, cellN (scaled k0_pay4 k0_pay5 (actV whh xg h)) c (ix2 b j) = Cert.Lstm.nextC (Cert.Lstm.act P x σ.1) σ.2 j := by
    intro j
    have hj := j.isLt
    unfold cellN
    refine (addf_apply _ _ _).trans ?_
    simp only [mulf_apply, gF_apply, gI_apply, gG_apply, hg, hc]
    rw [sig_gate _ (Cert.Lstm.col 1 j) (by show ¬(128 ≤ 64 * 1 + j.val ∧ 64 * 1 + j.val < 192); omega),
      sig_gate _ (Cert.Lstm.col 0 j) (by show ¬(128 ≤ 64 * 0 + j.val ∧ 64 * 0 + j.val < 192); omega),
      cell_gate _ (Cert.Lstm.col 2 j) (by show 128 ≤ 64 * 2 + j.val ∧ 64 * 2 + j.val < 192; omega)]
    rfl
  refine ⟨hcell, fun j => ?_⟩
  have hj := j.isLt
  unfold hidN
  refine (mulf_apply _ _ _).trans ?_
  rw [gO_apply, hg, sig_gate _ (Cert.Lstm.col 3 j) (by show ¬(128 ≤ 64 * 3 + j.val ∧ 64 * 3 + j.val < 192); omega)]
  show _ * Ideal.tanh (cellN (scaled k0_pay4 k0_pay5 (actV whh xg h)) c (ix2 b j)) = _
  rw [hcell]
  rfl

/-- The output layer at row `b`, output `a`. -/
theorem out_row (hfin : Fin 64 → EReal) (b : Fin 4096) (h : FVec Ideal S4096x64 .f32) (w : FVec Ideal S64x3 .f32)
    (bo : FVec Ideal S1x3 .f32) (hh : ∀ j, h (ix2 b j) = hfin j) (hw : ∀ j a, w (ix2 j a) = P.wout j a)
    (hb : ∀ a, bo (ix2 (0 : Fin 1) a) = P.bout a) (a : Fin 3) :
    outL h w bo (ix2 b a) = ∑ j, hfin j * P.wout j a + P.bout a := by
  unfold outL
  refine (addf_apply _ _ _).trans ?_
  rw [outMat_apply, broadcastTo_1b_ab_apply]
  simp only [shapeCast_self, hh, hw, hb]

/-! ## The eight steps and the output layer at a row -/

/-- THE BODY AT A ROW: when the recurrent block holds the scaled recurrent weights, row `b` of the stored block of step `t`
    holds the input's share of that step's pre-activations (with the bias), and the output block and row hold the output
    layer, row `b` of the body's result is the specification's output for the row's eight inputs. Step by step: each
    intermediate value of the body is a step function of earlier ones, and `step_row` carries the specification's state along. -/
theorem body_row (x : Fin 8 → Fin 128 → EReal) (b : Fin 4096) (v12 : FVec Ideal S64x256 .f32)
    (xg : Fin 8 → FVec Ideal S4096x256 .f32) (w : FVec Ideal S64x3 .f32) (bo : FVec Ideal S1x3 .f32)
    (hwhh : ∀ j n, v12 (ix2 j n) = Cert.Lstm.whhS P j n)
    (hxg : ∀ t n, xg t (ix2 b n) = ∑ d, x t d * Cert.Lstm.wihS P d n + Cert.Lstm.biasS P n)
    (hw : ∀ j a, w (ix2 j a) = P.wout j a) (hb : ∀ a, bo (ix2 (0 : Fin 1) a) = P.bout a) (a : Fin 3) :
    bodyOf v12 xg w bo (ix2 b a) = Cert.Lstm.out P x a := by
  have hW : ∀ j n, k0_pay2 (F := Ideal) v12 (ix2 j n) = Cert.Lstm.whhS P j n := fun j n => by
    unfold k0_pay2; rw [shapeCast_self]; exact hwhh j n
  -- step 1, from the zero state
  have s1 := step_row P (x 0) Cert.Lstm.zeroState b (k0_pay2 (F := Ideal) v12) (xg 0) (k0_pay6 (F := Ideal)) (k0_pay6 (F := Ideal)) hW (hxg 0) (zero_apply b) (zero_apply b)
  have e8 : (k0_pay8 (F := Ideal) (k0_pay4 (F := Ideal)) (k0_pay5 (F := Ideal)) (k0_pay7 (F := Ideal) v12 (xg 0))) = scaled (k0_pay4 (F := Ideal)) (k0_pay5 (F := Ideal)) (actV (k0_pay2 (F := Ideal) v12) (xg 0) (k0_pay6 (F := Ideal))) := by rw [pay8_eq, pay7_eq]
  have c1 : ∀ j, (k0_pay9 (F := Ideal) (k0_pay4 (F := Ideal)) (k0_pay5 (F := Ideal)) (k0_pay6 (F := Ideal)) (k0_pay7 (F := Ideal) v12 (xg 0))) (ix2 b j) = (Cert.Lstm.step P (x 0) Cert.Lstm.zeroState).2 j := fun j => by rw [pay9_eq, e8]; exact s1.1 j
  have h1 : ∀ j, hidN (k0_pay8 (F := Ideal) (k0_pay4 (F := Ideal)) (k0_pay5 (F := Ideal)) (k0_pay7 (F := Ideal) v12 (xg 0))) (k0_pay9 (F := Ideal) (k0_pay4 (F := Ideal)) (k0_pay5 (F := Ideal)) (k0_pay6 (F := Ideal)) (k0_pay7 (F := Ideal) v12 (xg 0))) (ix2 b j) = (Cert.Lstm.step P (x 0) Cert.Lstm.zeroState).1 j := fun j => by rw [pay9_eq, e8]; exact s1.2 j
  -- step 2
  have s2 := step_row P (x 1) (Cert.Lstm.step P (x 0) Cert.Lstm.zeroState) b (k0_pay2 (F := Ideal) v12) (xg 1) (hidN (k0_pay8 (F := Ideal) (k0_pay4 (F := Ideal)) (k0_pay5 (F := Ideal)) (k0_pay7 (F := Ideal) v12 (xg 0))) (k0_pay9 (F := Ideal) (k0_pay4 (F := Ideal)) (k0_pay5 (F := Ideal)) (k0_pay6 (F := Ideal)) (k0_pay7 (F := Ideal) v12 (xg 0)))) (k0_pay9 (F := Ideal) (k0_pay4 (F := Ideal)) (k0_pay5 (F := Ideal)) (k0_pay6 (F := Ideal)) (k0_pay7 (F := Ideal) v12 (xg 0))) hW (hxg 1) h1 c1
  have c2 : ∀ j, (k0_pay11 (F := Ideal) (k0_pay2 (F := Ideal) v12) (k0_pay4 (F := Ideal)) (k0_pay5 (F := Ideal)) (k0_pay6 (F := Ideal)) (k0_pay7 (F := Ideal) v12 (xg 0)) (xg 1)) (ix2 b j) = (Cert.Lstm.step P (x 1) (Cert.Lstm.step P (x 0) Cert.Lstm.zeroState)).2 j := fun j => by rw [pay11_eq, pay10_eq]; exact s2.1 j
  have h2 : ∀ j, hidN (k0_pay10 (F := Ideal) (k0_pay2 (F := Ideal) v12) (k0_pay4 (F := Ideal)) (k0_pay5 (F := Ideal)) (k0_pay6 (F := Ideal)) (k0_pay7 (F := Ideal) v12 (xg 0)) (xg 1)) (k0_pay11 (F := Ideal) (k0_pay2 (F := Ideal) v12) (k0_pay4 (F := Ideal)) (k0_pay5 (F := Ideal)) (k0_pay6 (F := Ideal)) (k0_pay7 (F := Ideal) v12 (xg 0)) (xg 1)) (ix2 b j) = (Cert.Lstm.step P (x 1) (Cert.Lstm.step P (x 0) Cert.Lstm.zeroState)).1 j := fun j => by rw [pay11_eq, pay10_eq]; exact s2.2 j
  -- step 3
  have s3 := step_row P (x 2) (Cert.Lstm.step P (x 1) (Cert.Lstm.step P (x 0) Cert.Lstm.zeroState)) b (k0_pay2 (F := Ideal) v12) (xg 2) (hidN (k0_pay10 (F := Ideal) (k0_pay2 (F := Ideal) v12) (k0_pay4 (F := Ideal)) (k0_pay5 (F := Ideal)) (k0_pay6 (F := Ideal)) (k0_pay7 (F := Ideal) v12 (xg 0)) (xg 1)) (k0_pay11 (F := Ideal) (k0_pay2 (F := Ideal) v12) (k0_pay4 (F := Ideal)) (k0_pay5 (F := Ideal)) (k0_pay6 (F := Ideal)) (k0_pay7 (F := Ideal) v12 (xg 0)) (xg 1))) (k0_pay11 (F := Ideal) (k0_pay2 (F := Ideal) v12) (k0_pay4 (F := Ideal)) (k0_pay5 (F := Ideal)) (k0_pay6 (F := Ideal)) (k0_pay7 (F := Ideal) v12 (xg 0)) (xg 1)) hW (hxg 2) h2 c2
  have c3 : ∀ j, (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (ix2 b j) = (Cert.Lstm.step P (x 2) (Cert.Lstm.step P (x 1) (Cert.Lstm.step P (x 0) Cert.Lstm.zeroState))).2 j := fun j => by rw [pay13_eq, pay12_eq]; exact s3.1 j
  have h3 : ∀ j, (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (ix2 b j) = (Cert.Lstm.step P (x 2) (Cert.Lstm.step P (x 1) (Cert.Lstm.step P (x 0) Cert.Lstm.zeroState))).1 j := fun j => by rw [pay14_eq, pay13_eq, pay12_eq]; exact s3.2 j
  -- step 4
  have s4 := step_row P (x 3) (Cert.Lstm.step P (x 2) (Cert.Lstm.step P (x 1) (Cert.Lstm.step P (x 0) Cert.Lstm.zeroState))) b (k0_pay2 (F := Ideal) v12) (xg 3) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) hW (hxg 3) h3 c3
  have c4 : ∀ j, (k0_pay16 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3)) (ix2 b j) = (Cert.Lstm.step P (x 3) (Cert.Lstm.step P (x 2) (Cert.Lstm.step P (x 1) (Cert.Lstm.step P (x 0) Cert.Lstm.zeroState)))).2 j := fun j => by rw [pay16_eq, pay15_eq]; exact s4.1 j
  have h4 : ∀ j, hidN (k0_pay15 (F := Ideal) (k0_pay2 (F := Ideal) v12) (k0_pay4 (F := Ideal)) (k0_pay5 (F := Ideal)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3)) (k0_pay16 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3)) (ix2 b j) = (Cert.Lstm.step P (x 3) (Cert.Lstm.step P (x 2) (Cert.Lstm.step P (x 1) (Cert.Lstm.step P (x 0) Cert.Lstm.zeroState)))).1 j := fun j => by rw [pay16_eq, pay15_eq]; exact s4.2 j
  -- step 5
  have s5 := step_row P (x 4) (Cert.Lstm.step P (x 3) (Cert.Lstm.step P (x 2) (Cert.Lstm.step P (x 1) (Cert.Lstm.step P (x 0) Cert.Lstm.zeroState)))) b (k0_pay2 (F := Ideal) v12) (xg 4) (hidN (k0_pay15 (F := Ideal) (k0_pay2 (F := Ideal) v12) (k0_pay4 (F := Ideal)) (k0_pay5 (F := Ideal)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3)) (k0_pay16 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3))) (k0_pay16 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3)) hW (hxg 4) h4 c4
  have c5 : ∀ j, (k0_pay18 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4)) (ix2 b j) = (Cert.Lstm.step P (x 4) (Cert.Lstm.step P (x 3) (Cert.Lstm.step P (x 2) (Cert.Lstm.step P (x 1) (Cert.Lstm.step P (x 0) Cert.Lstm.zeroState))))).2 j := fun j => by rw [pay18_eq, pay17_eq]; exact s5.1 j
  have h5 : ∀ j, hidN (k0_pay17 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4)) (k0_pay18 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4)) (ix2 b j) = (Cert.Lstm.step P (x 4) (Cert.Lstm.step P (x 3) (Cert.Lstm.step P (x 2) (Cert.Lstm.step P (x 1) (Cert.Lstm.step P (x 0) Cert.Lstm.zeroState))))).1 j := fun j => by rw [pay18_eq, pay17_eq]; exact s5.2 j
  -- step 6
  have s6 := step_row P (x 5) (Cert.Lstm.step P (x 4) (Cert.Lstm.step P (x 3) (Cert.Lstm.step P (x 2) (Cert.Lstm.step P (x 1) (Cert.Lstm.step P (x 0) Cert.Lstm.zeroState))))) b (k0_pay2 (F := Ideal) v12) (xg 5) (hidN (k0_pay17 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4)) (k0_pay18 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4))) (k0_pay18 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4)) hW (hxg 5) h5 c5
  have c6 : ∀ j, (k0_pay21 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (ix2 b j) = (Cert.Lstm.step P (x 5) (Cert.Lstm.step P (x 4) (Cert.Lstm.step P (x 3) (Cert.Lstm.step P (x 2) (Cert.Lstm.step P (x 1) (Cert.Lstm.step P (x 0) Cert.Lstm.zeroState)))))).2 j := fun j => by rw [pay21_eq, pay19_eq]; exact s6.1 j
  have e6 : mulf (k0_pay20 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (k0_pay22 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) = hidN (k0_pay19 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (k0_pay21 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) := by rw [pay20_eq, pay22_eq]; rfl
  have h6 : ∀ j, mulf (k0_pay20 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (k0_pay22 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (ix2 b j) = (Cert.Lstm.step P (x 5) (Cert.Lstm.step P (x 4) (Cert.Lstm.step P (x 3) (Cert.Lstm.step P (x 2) (Cert.Lstm.step P (x 1) (Cert.Lstm.step P (x 0) Cert.Lstm.zeroState)))))).1 j := fun j => by
    rw [e6, pay21_eq, pay19_eq]; exact s6.2 j
  -- steps 7 and 8, inside the last intermediate value
  have s7 := step_row P (x 6) (Cert.Lstm.step P (x 5) (Cert.Lstm.step P (x 4) (Cert.Lstm.step P (x 3) (Cert.Lstm.step P (x 2) (Cert.Lstm.step P (x 1) (Cert.Lstm.step P (x 0) Cert.Lstm.zeroState)))))) b (k0_pay2 (F := Ideal) v12) (xg 6) (mulf (k0_pay20 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) (k0_pay22 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5))) (k0_pay21 (F := Ideal) (k0_pay2 (F := Ideal) v12) (k0_pay4 (F := Ideal)) (k0_pay5 (F := Ideal)) (k0_pay13 (F := Ideal) (k0_pay2 (F := Ideal) v12) (k0_pay4 (F := Ideal)) (k0_pay5 (F := Ideal)) (k0_pay6 (F := Ideal)) (k0_pay7 (F := Ideal) v12 (xg 0)) (xg 1) (xg 2)) (k0_pay14 (F := Ideal) (k0_pay2 (F := Ideal) v12) (k0_pay4 (F := Ideal)) (k0_pay5 (F := Ideal)) (k0_pay6 (F := Ideal)) (k0_pay7 (F := Ideal) v12 (xg 0)) (xg 1) (xg 2)) (xg 3) (xg 4) (xg 5)) hW (hxg 6) h6 c6
  have s8 := step_row P (x 7) (Cert.Lstm.step P (x 6) (Cert.Lstm.step P (x 5) (Cert.Lstm.step P (x 4) (Cert.Lstm.step P (x 3) (Cert.Lstm.step P (x 2) (Cert.Lstm.step P (x 1) (Cert.Lstm.step P (x 0) Cert.Lstm.zeroState))))))) b (k0_pay2 (F := Ideal) v12) (xg 7) _ _ hW (hxg 7) s7.2 s7.1
  unfold bodyOf c3Of h3Of
  rw [pay23_eq]
  exact out_row P _ b _ w bo s8.2 hw hb a

end Row

end Cert.ReferenceIdeal.LstmValue

end
-- ==== Proof.RefBlocks.lean ====
/-
  The reference body's result from what its three input blocks hold, at the ideal values.

  A load through a rectangle of a matrix reads the matrix at the rectangle's offset plus the local coordinates; so the
  recurrent block is the slab's rows 128 … 191, row 4096·t + b of the stored projection is the sum over the 128 features of
  the time-major input row times the slab's rows 0 … 127, plus the slab's row 192, and step t's block of it is those rows
  for the 4096 rows of the batch.  When the three blocks hold the time-major inputs, the scaled weights and bias, and the
  output layer, row b of the body's result is the specification's output for row b of the batch.
-/
import proofs.«137923_g2000504385433502_pallaspilot1_15_32_alg».proof.Proof.RefLoads
import proofs.«137923_g2000504385433502_pallaspilot1_15_32_alg».proof.Proof.RefRow

noncomputable section

namespace Cert.ReferenceIdeal.LstmValue

open Cert.ReferenceIdeal Cert.ReferenceIdeal.Gen Idealize.ShloMosaic Idealize.ShloMosaic.ValueIdx

/-- A load through a unit-stride rectangle of a matrix, at local coordinates `(p, q)`, reads the matrix at
    `(o₀ + p, o₁ + q)`. -/
theorem ld_ix2 {n0 n1 m0 m1 : ℕ} (X : (⟨2, ![n0, n1]⟩ : Shape).Idx → EReal) (o0 o1 : ℕ)
    (inb : ∀ a, (![o0, o1] : Fin 2 → ℕ) a + (![m0, m1] : Fin 2 → ℕ) a ≤ (⟨2, ![n0, n1]⟩ : Shape).size a)
    (p : Fin m0) (q : Fin m1) (k0 : Fin n0) (k1 : Fin n1) (h0 : k0.val = o0 + p.val) (h1 : k1.val = o1 + q.val) :
    View.ld (Val := Elt Ideal) (e' := .f32) X (Rect.unit (s := ⟨2, ![n0, n1]⟩) ![o0, o1] ![m0, m1] inb) (ix2 p q)
      = X (ix2 k0 k1) := by
  show X _ = X _
  congr 1
  funext a
  apply Fin.ext
  match a with
  | ⟨0, _⟩ => show o0 + 1 * p.val = k0.val; omega
  | ⟨1, _⟩ => show o1 + 1 * q.val = k1.val; omega

theorem whhBlock_apply (x1 : Vec Ideal S200x256 .f32) (j : Fin 64) (n : Fin 256) :
    whhBlock x1 (ix2 j n) = x1 (ix2 ⟨128 + j.val, by omega⟩ n) := by
  unfold whhBlock
  exact ld_ix2 x1 128 0 _ j n _ _ rfl (Nat.zero_add _).symm

theorem woutBlock_apply (x2 : Vec Ideal S72x3 .f32) (j : Fin 64) (a : Fin 3) :
    woutBlock x2 (ix2 j a) = x2 (ix2 ⟨j.val, by omega⟩ a) := by
  unfold woutBlock
  exact ld_ix2 x2 0 0 _ j a _ _ (Nat.zero_add _).symm (Nat.zero_add _).symm

theorem boutRow_apply (x2 : Vec Ideal S72x3 .f32) (a : Fin 3) :
    boutRow x2 (ix2 (0 : Fin 1) a) = x2 (ix2 ⟨64, by omega⟩ a) := by
  unfold boutRow
  exact ld_ix2 x2 64 0 _ (0 : Fin 1) a _ _ rfl (Nat.zero_add _).symm

/-- Row `r` of the stored projection. -/
theorem xgAll_apply (x0 : Vec Ideal S32768x128 .f32) (x1 : Vec Ideal S200x256 .f32) (r : Fin 32768) (n : Fin 256) :
    xgAll x0 x1 (ix2 r n)
      = ∑ d : Fin 128, x0 (ix2 r d) * x1 (ix2 ⟨d.val, by omega⟩ n) + x1 (ix2 ⟨192, by omega⟩ n) := by
  unfold xgAll
  rw [pay1_apply]
  refine congrArg₂ (· + ·) (Finset.sum_congr rfl fun d _ => congrArg (x0 (ix2 r d) * ·) ?_) ?_
  · exact ld_ix2 x1 0 0 _ d n _ _ (Nat.zero_add _).symm (Nat.zero_add _).symm
  · exact ld_ix2 x1 192 0 _ (0 : Fin 1) n _ _ rfl (Nat.zero_add _).symm

/-- Step `t`'s block of it, at row `b` of the batch. -/
theorem xgBlock_apply (x0 : Vec Ideal S32768x128 .f32) (x1 : Vec Ideal S200x256 .f32) (t : Fin 8) (b : Fin 4096)
    (n : Fin 256) : xgBlock x0 x1 t (ix2 b n) = xgAll x0 x1 (ix2 ⟨4096 * t.val + b.val, by omega⟩ n) := by
  unfold xgBlock
  exact ld_ix2 (xgAll x0 x1) (4096 * t.val) 0 _ b n _ _ rfl (Nat.zero_add _).symm

/-- THE BODY'S RESULT from the blocks' contents: row `b`, output `a` is the specification's output on row `b` of the
    batch. -/
theorem body_eq_out (P : Cert.Lstm.Params) (xarr : (⟨3, ![4096, 8, 128]⟩ : Shape).Idx → EReal)
    (x0 : Vec Ideal S32768x128 .f32) (x1 : Vec Ideal S200x256 .f32) (x2 : Vec Ideal S72x3 .f32)
    (hx0 : ∀ (t : Fin 8) (r : Fin 4096) (d : Fin 128), x0 (ix2 ⟨4096 * t.val + r.val, by omega⟩ d) = xarr (ix3 r t d))
    (hwih : ∀ (d : Fin 128) (n : Fin 256), x1 (ix2 ⟨d.val, by omega⟩ n) = Cert.Lstm.wihS P d n)
    (hwhh : ∀ (j : Fin 64) (n : Fin 256), x1 (ix2 ⟨128 + j.val, by omega⟩ n) = Cert.Lstm.whhS P j n)
    (hbias : ∀ n : Fin 256, x1 (ix2 ⟨192, by omega⟩ n) = Cert.Lstm.biasS P n)
    (hwo : ∀ (j : Fin 64) (a : Fin 3), x2 (ix2 ⟨j.val, by omega⟩ a) = P.wout j a)
    (hbo : ∀ a : Fin 3, x2 (ix2 ⟨64, by omega⟩ a) = P.bout a) (b : Fin 4096) (a : Fin 3) :
    bodyOf (whhBlock x1) (xgBlock x0 x1) (woutBlock x2) (boutRow x2) (ix2 b a)
      = Cert.Lstm.out P (Cert.Lstm.rowOf xarr b) a := by
  refine body_row P (Cert.Lstm.rowOf xarr b) b _ _ _ _ (fun j n => ?_) (fun t n => ?_) (fun j a => ?_) (fun a => ?_) a
  · rw [whhBlock_apply]; exact hwhh j n
  · rw [xgBlock_apply, xgAll_apply]
    simp only [hx0, hwih, hbias]
    rfl
  · rw [woutBlock_apply]; exact hwo j a
  · rw [boutRow_apply]; exact hbo a

end Cert.ReferenceIdeal.LstmValue

end
-- ==== Proof.LibScatterUpdate.lean ====
/-
  A host `scatter` (jax's `x.at[…].set(v)` and its relatives) is a left fold over the update's indices, each step
  rewriting at most one operand element.  Read at an operand index: if exactly one update index lands there, the result is
  the body applied to the operand's element and that update element; if none does, the operand's element is kept.
-/
import Idealize.ShloMosaic.PureOps.ShapeOps
import Idealize.ShloMosaic.Lib.ValueIdx

namespace Cert.ScatterUpdate

open Idealize.ShloMosaic

/-- A fold of steps, each rewriting at most the one index `g n` names, leaves an index no step names as it was. -/
theorem foldl_keep {ι α β : Type} (g : β → Option ι) (step : (ι → α) → β → (ι → α))
    (hoff : ∀ r n i, g n = some i → ∀ j, j ≠ i → step r n j = r j) (hnone : ∀ r n, g n = none → step r n = r)
    (l : List β) (x : ι → α) (i' : ι) (h : ∀ n ∈ l, g n ≠ some i') :
    (l.foldl step x) i' = x i' := by
  induction l generalizing x with
  | nil => rfl
  | cons a l ih =>
    rw [List.foldl_cons, ih _ (fun n hn => h n (List.mem_cons_of_mem _ hn))]
    have ha := h a List.mem_cons_self
    cases hga : g a with
    | none => rw [hnone _ _ hga]
    | some i => exact hoff _ _ _ hga _ (fun e => ha (by rw [hga, e]))

/-- The same fold over a list without repetition, at an index exactly one step names: that step's value on what was
    there at the start. -/
theorem foldl_hit {ι α β : Type} (g : β → Option ι) (v : β → α) (f : α → α → α) (step : (ι → α) → β → (ι → α))
    (hon : ∀ r n i, g n = some i → step r n i = f (r i) (v n))
    (hoff : ∀ r n i, g n = some i → ∀ j, j ≠ i → step r n j = r j) (hnone : ∀ r n, g n = none → step r n = r)
    (l : List β) (x : ι → α) (i' : ι) (n0 : β) (hn0 : n0 ∈ l) (hg : g n0 = some i')
    (huniq : ∀ n ∈ l, g n = some i' → n = n0) (hnd : l.Nodup) :
    (l.foldl step x) i' = f (x i') (v n0) := by
  induction l generalizing x with
  | nil => cases hn0
  | cons a l ih =>
    rw [List.foldl_cons]
    rw [List.nodup_cons] at hnd
    by_cases ha : a = n0
    · subst ha
      rw [foldl_keep g step hoff hnone l _ i'
        (fun n hn e => hnd.1 (by rw [← huniq n (List.mem_cons_of_mem _ hn) e]; exact hn))]
      exact hon _ _ _ hg
    · have hmem : n0 ∈ l := by
        rcases List.mem_cons.1 hn0 with e | e
        · exact absurd e.symm ha
        · exact e
      rw [ih _ hmem (fun n hn e => huniq n (List.mem_cons_of_mem _ hn) e) hnd.2]
      have hga : g a ≠ some i' := fun e => ha (huniq a List.mem_cons_self e)
      cases hga' : g a with
      | none => rw [hnone _ _ hga']
      | some i => rw [hoff _ _ _ hga' _ (fun e => hga (by rw [hga', e]))]

variable {s si u : Shape} {w : Nat} {α : Type}

/-- The scatter read where exactly one update index lands. -/
theorem scatter_hit (d : ScatterDims s si u) (f : α → α → α) (x : s.Idx → α) (idx : IVec si w) (upd : u.Idx → α)
    (i' : s.Idx) (j0 : u.Idx) (h0 : d.resultIdx? j0 idx = some i')
    (huniq : ∀ j, d.resultIdx? j idx = some i' → j = j0) :
    Host.scatter d f x idx upd i' = f (x i') (upd j0) := by
  unfold Host.scatter
  have e : upd j0 = (fun n : Fin u.numel => upd (u.rowMajor.symm n)) (u.rowMajor j0) := by
    simp only [Equiv.symm_apply_apply]
  rw [e]
  refine foldl_hit (fun n : Fin u.numel => d.resultIdx? (u.rowMajor.symm n) idx) (fun n => upd (u.rowMajor.symm n)) f _
    ?_ ?_ ?_ (List.finRange u.numel) x i' (u.rowMajor j0) (List.mem_finRange _) ?_ ?_ (List.nodup_finRange _)
  · intro r n i h; simp only [h, if_true]
  · intro r n i h j hj; simp only [h, if_neg hj]
  · intro r n h; simp only [h]
  · simp only [Equiv.symm_apply_apply]; exact h0
  · intro n _ e; rw [← huniq _ e, Equiv.apply_symm_apply]

/-- The scatter read where no update index lands. -/
theorem scatter_keep (d : ScatterDims s si u) (f : α → α → α) (x : s.Idx → α) (idx : IVec si w) (upd : u.Idx → α)
    (i' : s.Idx) (h : ∀ j, d.resultIdx? j idx ≠ some i') :
    Host.scatter d f x idx upd i' = x i' := by
  unfold Host.scatter
  refine foldl_keep (fun n : Fin u.numel => d.resultIdx? (u.rowMajor.symm n) idx) _ ?_ ?_ (List.finRange u.numel) x i'
    (fun n _ => h _)
  · intro r n i h j hj; simp only [h, if_neg hj]
  · intro r n h; simp only [h]

/-- When every update index `j` lands at `φ j` and `φ` is injective: the read at `φ j0`. -/
theorem scatter_at_image (d : ScatterDims s si u) (f : α → α → α) (x : s.Idx → α) (idx : IVec si w) (upd : u.Idx → α)
    (φ : u.Idx → s.Idx) (hφ : ∀ j, d.resultIdx? j idx = some (φ j)) (hinj : Function.Injective φ) (j0 : u.Idx) :
    Host.scatter d f x idx upd (φ j0) = f (x (φ j0)) (upd j0) :=
  scatter_hit d f x idx upd (φ j0) j0 (hφ j0) fun j e => hinj (Option.some.inj ((hφ j).symm.trans e))

/-- The same at any index known to be `φ j0`. -/
theorem scatter_at (d : ScatterDims s si u) (f : α → α → α) (x : s.Idx → α) (idx : IVec si w) (upd : u.Idx → α)
    (φ : u.Idx → s.Idx) (hφ : ∀ j, d.resultIdx? j idx = some (φ j)) (hinj : Function.Injective φ) (i' : s.Idx)
    (j0 : u.Idx) (hi : φ j0 = i') :
    Host.scatter d f x idx upd i' = f (x i') (upd j0) := by
  subst hi
  exact scatter_at_image d f x idx upd φ hφ hinj j0

/-- … and the read off the image. -/
theorem scatter_off_image (d : ScatterDims s si u) (f : α → α → α) (x : s.Idx → α) (idx : IVec si w) (upd : u.Idx → α)
    (φ : u.Idx → s.Idx) (hφ : ∀ j, d.resultIdx? j idx = some (φ j)) (i' : s.Idx) (h : ∀ j, φ j ≠ i') :
    Host.scatter d f x idx upd i' = x i' :=
  scatter_keep d f x idx upd i' fun j e => h j (Option.some.inj ((hφ j).symm.trans e))

end Cert.ScatterUpdate
-- ==== Proof.RefHost.lean ====
/-
  What the reference's three input arrays hold when its kernel region is entered, read at an index in terms of the
  argument arrays: the time-major matrix of inputs (row 4096·t + r is row r of the batch at time t), the packed slab
  (rows 0 … 127 the input weights, rows 128 … 191 the recurrent weights, row 192 the summed bias, every column carrying
  its gate's factor) and the packed output layer (rows 0 … 63 the weights, row 64 the bias).

  The slabs are built by writing blocks into a matrix of zeros at literal row offsets; each such write is a scatter whose
  update index (p, q) lands at (offset + p, q) — injectively — so a row inside a block reads that block and every other
  row reads what was there before.
-/
import proofs.«137923_g2000504385433502_pallaspilot1_15_32_alg».proof.Proof.Gen.ReferenceIdeal.Frame
import proofs.«137923_g2000504385433502_pallaspilot1_15_32_alg».proof.Proof.LstmSpec
import proofs.«137923_g2000504385433502_pallaspilot1_15_32_alg».proof.Proof.LibScatterUpdate
import Idealize.ShloMosaic.Lib.StableHlo.Run
import Idealize.ShloMosaic.Lib.ValueIdx
import Idealize.ShloMosaic.Lib.ValueLayout
import Idealize.ShloMosaic.Lib.Pipeline.Value

noncomputable section

namespace Cert.ReferenceIdeal.Host

open Cert.ReferenceIdeal Cert.ReferenceIdeal.Gen Idealize.ShloMosaic Idealize.ShloMosaic.TcCoe Idealize.SL.Sem
open Idealize.ShloMosaic.ValueIdx Idealize.ShloMosaic.StableHlo Cert.ScatterUpdate

variable (m : (ℓ : Loc nD τ sig) → Buf (Elt Ideal) ℓ)

/-- The network's parameters as core `c`'s argument arrays hold them. -/
def params (c : Dev nD) : Cert.Lstm.Params :=
  Cert.Lstm.paramsOf (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-! ## The column factors -/

/-- The vector of column factors as the host computes it: 1 where 128 ≤ column < 192, else 1/2. -/
def scaleVec : S256.Idx → EReal :=
  select (andi (cmpi .sge (iotaInDim S256 32 0) (broadcastInDim S256 ![] bcast_S_S256 (constantI S_ 32 128#32)))
      (cmpi .slt (iotaInDim S256 32 0) (broadcastInDim S256 ![] bcast_S_S256 (constantI S_ 32 192#32))))
    (broadcastInDim S256 ![] bcast_S_S256 (constant (F := Ideal) S_ .f32 0x3F800000#32))
    (broadcastInDim S256 ![] bcast_S_S256 (constant (F := Ideal) S_ .f32 0x3F000000#32))

/-- The two comparisons of a column number below 256 against 128 and 192, as words. -/
theorem scale_bits : ∀ n : Fin 256,
    IntOp.andi (IntOp.cmpi .sge (BitVec.ofNat 32 n.val) 128#32) (IntOp.cmpi .slt (BitVec.ofNat 32 n.val) 192#32)
      = if 128 ≤ n.val ∧ n.val < 192 then 1#1 else 0#1 := by
  decide +kernel

theorem scaleVec_apply (n : Fin 256) : scaleVec (ix1 n) = Cert.Lstm.colScale n := by
  show Scalar.select (IntOp.andi (IntOp.cmpi .sge (BitVec.ofNat 32 n.val) 128#32) (IntOp.cmpi .slt (BitVec.ofNat 32 n.val) 192#32))
    (Ideal.ofBits .f32 0x3F800000#32) (Ideal.ofBits .f32 0x3F000000#32) = _
  rw [scale_bits n, Cert.Lstm.colScale]
  by_cases h : 128 ≤ n.val ∧ n.val < 192
  · rw [if_pos h, if_pos h, select_one]
  · rw [if_neg h, if_neg h, select_zero]

/-! ## Writing a block into a matrix at a literal row -/

/-- The one-entry vector holding a literal row number. -/
abbrev rowAt (R : BitVec 32) : IVec S1 32 := broadcastInDim S1 ![] bcast_S_S1 (constantI S_ 32 R)

/-- Where update index `(p, q)` of a 128-row block lands in the 200-row matrix when written at row `r`: `(r + p, q)`. -/
theorem lands_wih (R : BitVec 32) (r : ℕ) (hR : R.toInt = (r : ℤ)) (hr : r + 128 ≤ 200) (j : S128x256.Idx) :
    scatter_S200x256_S1_S128x256_01_n_0_0.resultIdx? j (rowAt R)
      = some (ix2 ⟨r + (j 0).val, by have : (j 0).val < 128 := (j 0).isLt; omega⟩ ⟨(j 1).val, (j 1).isLt⟩ : S200x256.Idx) := by
  have h0 : (j 0).val < 128 := (j 0).isLt
  have h1 : (j 1).val < 256 := (j 1).isLt
  have s0 : scatter_S200x256_S1_S128x256_01_n_0_0.start j (rowAt R) 0 = R.toInt := rfl
  have s1 : scatter_S200x256_S1_S128x256_01_n_0_0.start j (rowAt R) 1 = 0 := rfl
  have w0 : scatter_S200x256_S1_S128x256_01_n_0_0.window j 0 = (j 0).val := rfl
  have w1 : scatter_S200x256_S1_S128x256_01_n_0_0.window j 1 = (j 1).val := rfl
  have hc : ∀ a : Fin 2, 0 ≤ scatter_S200x256_S1_S128x256_01_n_0_0.start j (rowAt R) a + scatter_S200x256_S1_S128x256_01_n_0_0.window j a
      ∧ scatter_S200x256_S1_S128x256_01_n_0_0.start j (rowAt R) a + scatter_S200x256_S1_S128x256_01_n_0_0.window j a < S200x256.size a := by
    refine Fin.forall_fin_two.2 ⟨?_, ?_⟩
    · rw [s0, w0, hR]; show _ ∧ _ < ((200 : ℕ) : ℤ); omega
    · rw [s1, w1]; show _ ∧ _ < ((256 : ℕ) : ℤ); omega
  unfold ScatterDims.resultIdx?
  rw [dif_pos hc]
  congr 1
  funext a
  revert a
  refine Fin.forall_fin_two.2 ⟨?_, ?_⟩
  · apply Fin.ext
    show (scatter_S200x256_S1_S128x256_01_n_0_0.start j (rowAt R) 0 + scatter_S200x256_S1_S128x256_01_n_0_0.window j 0).toNat = r + (j 0).val
    rw [s0, w0, hR]; omega
  · apply Fin.ext
    show (scatter_S200x256_S1_S128x256_01_n_0_0.start j (rowAt R) 1 + scatter_S200x256_S1_S128x256_01_n_0_0.window j 1).toNat = (j 1).val
    rw [s1, w1]; omega

/-- Where update index `(p, q)` of a 64-row block lands in the 200-row matrix when written at row `r`: `(r + p, q)`. -/
theorem lands_whh (R : BitVec 32) (r : ℕ) (hR : R.toInt = (r : ℤ)) (hr : r + 64 ≤ 200) (j : S64x256.Idx) :
    scatter_S200x256_S1_S64x256_01_n_0_0.resultIdx? j (rowAt R)
      = some (ix2 ⟨r + (j 0).val, by have : (j 0).val < 64 := (j 0).isLt; omega⟩ ⟨(j 1).val, (j 1).isLt⟩ : S200x256.Idx) := by
  have h0 : (j 0).val < 64 := (j 0).isLt
  have h1 : (j 1).val < 256 := (j 1).isLt
  have s0 : scatter_S200x256_S1_S64x256_01_n_0_0.start j (rowAt R) 0 = R.toInt := rfl
  have s1 : scatter_S200x256_S1_S64x256_01_n_0_0.start j (rowAt R) 1 = 0 := rfl
  have w0 : scatter_S200x256_S1_S64x256_01_n_0_0.window j 0 = (j 0).val := rfl
  have w1 : scatter_S200x256_S1_S64x256_01_n_0_0.window j 1 = (j 1).val := rfl
  have hc : ∀ a : Fin 2, 0 ≤ scatter_S200x256_S1_S64x256_01_n_0_0.start j (rowAt R) a + scatter_S200x256_S1_S64x256_01_n_0_0.window j a
      ∧ scatter_S200x256_S1_S64x256_01_n_0_0.start j (rowAt R) a + scatter_S200x256_S1_S64x256_01_n_0_0.window j a < S200x256.size a := by
    refine Fin.forall_fin_two.2 ⟨?_, ?_⟩
    · rw [s0, w0, hR]; show _ ∧ _ < ((200 : ℕ) : ℤ); omega
    · rw [s1, w1]; show _ ∧ _ < ((256 : ℕ) : ℤ); omega
  unfold ScatterDims.resultIdx?
  rw [dif_pos hc]
  congr 1
  funext a
  revert a
  refine Fin.forall_fin_two.2 ⟨?_, ?_⟩
  · apply Fin.ext
    show (scatter_S200x256_S1_S64x256_01_n_0_0.start j (rowAt R) 0 + scatter_S200x256_S1_S64x256_01_n_0_0.window j 0).toNat = r + (j 0).val
    rw [s0, w0, hR]; omega
  · apply Fin.ext
    show (scatter_S200x256_S1_S64x256_01_n_0_0.start j (rowAt R) 1 + scatter_S200x256_S1_S64x256_01_n_0_0.window j 1).toNat = (j 1).val
    rw [s1, w1]; omega

/-- Where update index `q` of a row of 256 lands in the 200-row matrix when written as row `r`: `(r, q)`. -/
theorem lands_bias (R : BitVec 32) (r : ℕ) (hR : R.toInt = (r : ℤ)) (hr : r < 200) (j : S256.Idx) :
    scatter_S200x256_S1_S256_0_0_0_0.resultIdx? j (rowAt R)
      = some (ix2 ⟨r, hr⟩ ⟨(j 0).val, (j 0).isLt⟩ : S200x256.Idx) := by
  have h0 : (j 0).val < 256 := (j 0).isLt
  have s0 : scatter_S200x256_S1_S256_0_0_0_0.start j (rowAt R) 0 = R.toInt := rfl
  have s1 : scatter_S200x256_S1_S256_0_0_0_0.start j (rowAt R) 1 = 0 := rfl
  have w0 : scatter_S200x256_S1_S256_0_0_0_0.window j 0 = 0 := rfl
  have w1 : scatter_S200x256_S1_S256_0_0_0_0.window j 1 = (j 0).val := rfl
  have hc : ∀ a : Fin 2, 0 ≤ scatter_S200x256_S1_S256_0_0_0_0.start j (rowAt R) a + scatter_S200x256_S1_S256_0_0_0_0.window j a
      ∧ scatter_S200x256_S1_S256_0_0_0_0.start j (rowAt R) a + scatter_S200x256_S1_S256_0_0_0_0.window j a < S200x256.size a := by
    refine Fin.forall_fin_two.2 ⟨?_, ?_⟩
    · rw [s0, w0, hR]; show _ ∧ _ < ((200 : ℕ) : ℤ); omega
    · rw [s1, w1]; show _ ∧ _ < ((256 : ℕ) : ℤ); omega
  unfold ScatterDims.resultIdx?
  rw [dif_pos hc]
  congr 1
  funext a
  revert a
  refine Fin.forall_fin_two.2 ⟨?_, ?_⟩
  · apply Fin.ext
    show (scatter_S200x256_S1_S256_0_0_0_0.start j (rowAt R) 0 + scatter_S200x256_S1_S256_0_0_0_0.window j 0).toNat = r
    rw [s0, w0, hR]; omega
  · apply Fin.ext
    show (scatter_S200x256_S1_S256_0_0_0_0.start j (rowAt R) 1 + scatter_S200x256_S1_S256_0_0_0_0.window j 1).toNat = (j 0).val
    rw [s1, w1]; omega

/-- Where update index `(p, q)` of a 64-row block lands in the 72-row matrix when written at row `r`: `(r + p, q)`. -/
theorem lands_wout (R : BitVec 32) (r : ℕ) (hR : R.toInt = (r : ℤ)) (hr : r + 64 ≤ 72) (j : S64x3.Idx) :
    scatter_S72x3_S1_S64x3_01_n_0_0.resultIdx? j (rowAt R)
      = some (ix2 ⟨r + (j 0).val, by have : (j 0).val < 64 := (j 0).isLt; omega⟩ ⟨(j 1).val, (j 1).isLt⟩ : S72x3.Idx) := by
  have h0 : (j 0).val < 64 := (j 0).isLt
  have h1 : (j 1).val < 3 := (j 1).isLt
  have s0 : scatter_S72x3_S1_S64x3_01_n_0_0.start j (rowAt R) 0 = R.toInt := rfl
  have s1 : scatter_S72x3_S1_S64x3_01_n_0_0.start j (rowAt R) 1 = 0 := rfl
  have w0 : scatter_S72x3_S1_S64x3_01_n_0_0.window j 0 = (j 0).val := rfl
  have w1 : scatter_S72x3_S1_S64x3_01_n_0_0.window j 1 = (j 1).val := rfl
  have hc : ∀ a : Fin 2, 0 ≤ scatter_S72x3_S1_S64x3_01_n_0_0.start j (rowAt R) a + scatter_S72x3_S1_S64x3_01_n_0_0.window j a
      ∧ scatter_S72x3_S1_S64x3_01_n_0_0.start j (rowAt R) a + scatter_S72x3_S1_S64x3_01_n_0_0.window j a < S72x3.size a := by
    refine Fin.forall_fin_two.2 ⟨?_, ?_⟩
    · rw [s0, w0, hR]; show _ ∧ _ < ((72 : ℕ) : ℤ); omega
    · rw [s1, w1]; show _ ∧ _ < ((3 : ℕ) : ℤ); omega
  unfold ScatterDims.resultIdx?
  rw [dif_pos hc]
  congr 1
  funext a
  revert a
  refine Fin.forall_fin_two.2 ⟨?_, ?_⟩
  · apply Fin.ext
    show (scatter_S72x3_S1_S64x3_01_n_0_0.start j (rowAt R) 0 + scatter_S72x3_S1_S64x3_01_n_0_0.window j 0).toNat = r + (j 0).val
    rw [s0, w0, hR]; omega
  · apply Fin.ext
    show (scatter_S72x3_S1_S64x3_01_n_0_0.start j (rowAt R) 1 + scatter_S72x3_S1_S64x3_01_n_0_0.window j 1).toNat = (j 1).val
    rw [s1, w1]; omega

/-- Where update index `q` of a row of 3 lands in the 72-row matrix when written as row `r`: `(r, q)`. -/
theorem lands_bout (R : BitVec 32) (r : ℕ) (hR : R.toInt = (r : ℤ)) (hr : r < 72) (j : S3.Idx) :
    scatter_S72x3_S1_S3_0_0_0_0.resultIdx? j (rowAt R)
      = some (ix2 ⟨r, hr⟩ ⟨(j 0).val, (j 0).isLt⟩ : S72x3.Idx) := by
  have h0 : (j 0).val < 3 := (j 0).isLt
  have s0 : scatter_S72x3_S1_S3_0_0_0_0.start j (rowAt R) 0 = R.toInt := rfl
  have s1 : scatter_S72x3_S1_S3_0_0_0_0.start j (rowAt R) 1 = 0 := rfl
  have w0 : scatter_S72x3_S1_S3_0_0_0_0.window j 0 = 0 := rfl
  have w1 : scatter_S72x3_S1_S3_0_0_0_0.window j 1 = (j 0).val := rfl
  have hc : ∀ a : Fin 2, 0 ≤ scatter_S72x3_S1_S3_0_0_0_0.start j (rowAt R) a + scatter_S72x3_S1_S3_0_0_0_0.window j a
      ∧ scatter_S72x3_S1_S3_0_0_0_0.start j (rowAt R) a + scatter_S72x3_S1_S3_0_0_0_0.window j a < S72x3.size a := by
    refine Fin.forall_fin_two.2 ⟨?_, ?_⟩
    · rw [s0, w0, hR]; show _ ∧ _ < ((72 : ℕ) : ℤ); omega
    · rw [s1, w1]; show _ ∧ _ < ((3 : ℕ) : ℤ); omega
  unfold ScatterDims.resultIdx?
  rw [dif_pos hc]
  congr 1
  funext a
  revert a
  refine Fin.forall_fin_two.2 ⟨?_, ?_⟩
  · apply Fin.ext
    show (scatter_S72x3_S1_S3_0_0_0_0.start j (rowAt R) 0 + scatter_S72x3_S1_S3_0_0_0_0.window j 0).toNat = r
    rw [s0, w0, hR]; omega
  · apply Fin.ext
    show (scatter_S72x3_S1_S3_0_0_0_0.start j (rowAt R) 1 + scatter_S72x3_S1_S3_0_0_0_0.window j 1).toNat = (j 0).val
    rw [s1, w1]; omega

/-! ## The landing maps are injective -/

theorem inj_block {A B C : ℕ} (r : ℕ) (h : ∀ j : (⟨2, ![A, B]⟩ : Shape).Idx, r + (j 0).val < C) :
    Function.Injective (fun j : (⟨2, ![A, B]⟩ : Shape).Idx =>
      (ix2 ⟨r + (j 0).val, h j⟩ ⟨(j 1).val, (j 1).isLt⟩ : (⟨2, ![C, B]⟩ : Shape).Idx)) := by
  intro j j' e
  have e0 := congrArg Fin.val (congrFun e 0)
  have e1 := congrArg Fin.val (congrFun e 1)
  change r + (j 0).val = r + (j' 0).val at e0
  change (j 1).val = (j' 1).val at e1
  funext a
  revert a
  exact Fin.forall_fin_two.2 ⟨Fin.ext (by omega), Fin.ext e1⟩

theorem inj_row {B C : ℕ} (r : ℕ) (h : r < C) :
    Function.Injective (fun j : (⟨1, ![B]⟩ : Shape).Idx =>
      (ix2 ⟨r, h⟩ ⟨(j 0).val, (j 0).isLt⟩ : (⟨2, ![C, B]⟩ : Shape).Idx)) := by
  intro j j' e
  have e1 := congrArg Fin.val (congrFun e 1)
  change (j 0).val = (j' 0).val at e1
  funext a
  match a with
  | ⟨0, _⟩ => exact Fin.ext e1

/-! ## The broadcast of the column factors over the rows -/

theorem scale_rows {R : ℕ} (h1 : S256.BroadcastsInDim S1x256 ![1]) (h2 : S1x256.BroadcastsInDim ⟨2, ![R, 256]⟩ ![0, 1])
    (v : S256.Idx → EReal) (p : Fin R) (n : Fin 256) :
    broadcastInDim ⟨2, ![R, 256]⟩ ![0, 1] h2 (broadcastInDim S1x256 ![1] h1 v) (ix2 p n) = v (ix1 n) := by
  rw [broadcastInDim_apply _ _ _ _ (ix2 (0 : Fin 1) n) (Fin.forall_fin_two.2 ⟨rfl, rfl⟩)]
  exact broadcastInDim_apply _ _ _ _ (ix1 n) (fun a => by match a with | ⟨0, _⟩ => rfl)

/-! ## The three arrays as terms -/

/-- The packed slab as the host builds it from the four parameter arrays. -/
def slab (wih : S128x256.Idx → EReal) (whh : S64x256.Idx → EReal) (bih bhh : S256.Idx → EReal) : S200x256.Idx → EReal :=
  Host.scatter scatter_S200x256_S1_S256_0_0_0_0 (fun _ b => b)
    (Host.scatter scatter_S200x256_S1_S64x256_01_n_0_0 (fun _ b => b)
      (Host.scatter scatter_S200x256_S1_S128x256_01_n_0_0 (fun _ b => b)
        (broadcastInDim S200x256 ![] bcast_S_S200x256 (constant (F := Ideal) S_ .f32 0#32))
        (rowAt 0#32)
        (mulf (F := Ideal) (φ := .f32) wih (broadcastInDim S128x256 ![0, 1] bcast_S1x256_S128x256_0_1 (broadcastInDim S1x256 ![1] bcast_S256_S1x256_1 scaleVec))))
      (rowAt 128#32)
      (mulf (F := Ideal) (φ := .f32) whh (broadcastInDim S64x256 ![0, 1] bcast_S1x256_S64x256_0_1 (broadcastInDim S1x256 ![1] bcast_S256_S1x256_1 scaleVec))))
    (rowAt 192#32)
    (mulf (F := Ideal) (φ := .f32) (addf (F := Ideal) (φ := .f32) bih bhh) scaleVec)

/-- The packed output layer as the host builds it. -/
def outSlab (wout : S64x3.Idx → EReal) (bout : S3.Idx → EReal) : S72x3.Idx → EReal :=
  Host.scatter scatter_S72x3_S1_S3_0_0_0_0 (fun _ b => b)
    (Host.scatter scatter_S72x3_S1_S64x3_01_n_0_0 (fun _ b => b)
      (broadcastInDim S72x3 ![] bcast_S_S72x3 (constant (F := Ideal) S_ .f32 0#32))
      (rowAt 0#32) wout)
    (rowAt 64#32) bout

set_option maxHeartbeats 4000000 in
theorem v24_eq (c : Dev nD) : (V m c main_v24 : S200x256.Idx → EReal)
    = slab (m ((c : Thread nD τ).loc main_arg1)) (m ((c : Thread nD τ).loc main_arg2))
        (m ((c : Thread nD τ).loc main_arg3)) (m ((c : Thread nD τ).loc main_arg4)) := by
  dsimp only [Gen.V]
  simp only [Gen.hostOps0, Gen.hostOps0_1, Gen.hostOps0_2, List.flatten_cons, List.flatten_nil, List.append_nil, List.cons_append, List.nil_append]
  after_results_simp
  rfl

set_option maxHeartbeats 4000000 in
theorem v29_eq (c : Dev nD) : (V m c main_v29 : S72x3.Idx → EReal)
    = outSlab (m ((c : Thread nD τ).loc main_arg5)) (m ((c : Thread nD τ).loc main_arg6)) := by
  dsimp only [Gen.V]
  simp only [Gen.hostOps0, Gen.hostOps0_1, Gen.hostOps0_2, List.flatten_cons, List.flatten_nil, List.append_nil, List.cons_append, List.nil_append]
  after_results_simp
  rfl

set_option maxHeartbeats 4000000 in
theorem v1_eq (c : Dev nD) : (V m c main_v1 : S32768x128.Idx → EReal)
    = shapeCast S32768x128 (transpose S8x4096x128 [1, 0, 2] (m ((c : Thread nD τ).loc main_arg0)) transposes_S4096x8x128_S8x4096x128_1_0_2)
        shapeCasts_S8x4096x128_S32768x128 := by
  dsimp only [Gen.V]
  simp only [Gen.hostOps0, Gen.hostOps0_1, Gen.hostOps0_2, List.flatten_cons, List.flatten_nil, List.append_nil, List.cons_append, List.nil_append]
  after_results_simp
  rfl

/-! ## The arrays read at an index -/

/-- The time-major input matrix: row `4096·t + r` is the batch's row `r` at time `t`. -/
theorem x2d (c : Dev nD) (t : Fin 8) (r : Fin 4096) (d : Fin 128) :
    (V m c main_v1 : S32768x128.Idx → EReal) (ix2 ⟨4096 * t.val + r.val, by omega⟩ d)
      = m ((c : Thread nD τ).loc main_arg0) (ix3 r t d) := by
  rw [v1_eq]
  rw [shapeCast_apply _ _ _ (ix3 t r d : S8x4096x128.Idx) (by
    rw [Shape.rowMajor_val_three, Shape.rowMajor_val_two]
    show (t.val * 4096 + r.val) * 128 + d.val = (4096 * t.val + r.val) * 128 + d.val
    omega)]
  exact transpose_apply _ _ _ _ (ix3 r t d : S4096x8x128.Idx) (fun b => by
    match b with
    | ⟨0, _⟩ => rfl
    | ⟨1, _⟩ => rfl
    | ⟨2, _⟩ => rfl)

/-- Rows 0 … 127 of the slab: the scaled input weights. -/
theorem wpk_wih (c : Dev nD) (d : Fin 128) (n : Fin 256) :
    (V m c main_v24 : S200x256.Idx → EReal) (ix2 ⟨d.val, by omega⟩ n) = Cert.Lstm.wihS (params m c) d n := by
  rw [v24_eq]; unfold slab
  rw [scatter_off_image _ _ _ _ _ _ (lands_bias 192#32 192 (by decide) (by omega)) _ (fun j h => by
    have := congrArg Fin.val (congrFun h 0); change 192 = d.val at this; omega)]
  rw [scatter_off_image _ _ _ _ _ _ (lands_whh 128#32 128 (by decide) (by omega)) _ (fun j h => by
    have := congrArg Fin.val (congrFun h 0); change 128 + (j 0).val = d.val at this; omega)]
  rw [scatter_at _ _ _ _ _ _ (lands_wih 0#32 0 (by decide) (by omega)) (inj_block 0 _) _ (ix2 d n : S128x256.Idx)
    (by funext a; revert a; exact Fin.forall_fin_two.2 ⟨Fin.ext (by show 0 + d.val = d.val; omega), Fin.ext rfl⟩)]
  rw [mulf_apply, scale_rows, scaleVec_apply]
  rfl

/-- Rows 128 … 191 of the slab: the scaled recurrent weights. -/
theorem wpk_whh (c : Dev nD) (j : Fin 64) (n : Fin 256) :
    (V m c main_v24 : S200x256.Idx → EReal) (ix2 ⟨128 + j.val, by omega⟩ n) = Cert.Lstm.whhS (params m c) j n := by
  rw [v24_eq]; unfold slab
  rw [scatter_off_image _ _ _ _ _ _ (lands_bias 192#32 192 (by decide) (by omega)) _ (fun j' h => by
    have := congrArg Fin.val (congrFun h 0); change 192 = 128 + j.val at this; omega)]
  rw [scatter_at _ _ _ _ _ _ (lands_whh 128#32 128 (by decide) (by omega)) (inj_block 128 _) _ (ix2 j n : S64x256.Idx)
    (by funext a; revert a; exact Fin.forall_fin_two.2 ⟨Fin.ext rfl, Fin.ext rfl⟩)]
  rw [mulf_apply, scale_rows, scaleVec_apply]
  rfl

/-- Row 192 of the slab: the scaled sum of the biases. -/
theorem wpk_bias (c : Dev nD) (n : Fin 256) :
    (V m c main_v24 : S200x256.Idx → EReal) (ix2 ⟨192, by omega⟩ n) = Cert.Lstm.biasS (params m c) n := by
  rw [v24_eq]; unfold slab
  rw [scatter_at _ _ _ _ _ _ (lands_bias 192#32 192 (by decide) (by omega)) (inj_row 192 _) _ (ix1 n : S256.Idx)
    (by funext a; revert a; exact Fin.forall_fin_two.2 ⟨Fin.ext rfl, Fin.ext rfl⟩)]
  rw [mulf_apply, addf_apply, scaleVec_apply]
  rfl

/-- Rows 0 … 63 of the packed output layer: its weights. -/
theorem wout_w (c : Dev nD) (j : Fin 64) (a : Fin 3) :
    (V m c main_v29 : S72x3.Idx → EReal) (ix2 ⟨j.val, by omega⟩ a) = (params m c).wout j a := by
  rw [v29_eq]; unfold outSlab
  rw [scatter_off_image _ _ _ _ _ _ (lands_bout 64#32 64 (by decide) (by omega)) _ (fun j' h => by
    have := congrArg Fin.val (congrFun h 0); change 64 = j.val at this; omega)]
  rw [scatter_at _ _ _ _ _ _ (lands_wout 0#32 0 (by decide) (by omega)) (inj_block 0 _) _ (ix2 j a : S64x3.Idx)
    (by funext b; revert b; exact Fin.forall_fin_two.2 ⟨Fin.ext (by show 0 + j.val = j.val; omega), Fin.ext rfl⟩)]
  rfl

/-- Row 64 of the packed output layer: its bias. -/
theorem wout_b (c : Dev nD) (a : Fin 3) :
    (V m c main_v29 : S72x3.Idx → EReal) (ix2 ⟨64, by omega⟩ a) = (params m c).bout a := by
  rw [v29_eq]; unfold outSlab
  rw [scatter_at _ _ _ _ _ _ (lands_bout 64#32 64 (by decide) (by omega)) (inj_row 64 _) _ (ix1 a : S3.Idx)
    (by funext b; revert b; exact Fin.forall_fin_two.2 ⟨Fin.ext rfl, Fin.ext rfl⟩)]
  rfl

end Cert.ReferenceIdeal.Host

end
-- ==== Proof.RefRun.lean ====
/-
  The reference's run, read: after it the result array holds the specification's result of the argument arrays, and the
  arguments are unchanged.

  The grid has one point, so each window's block is its whole array; what the point writes back is the body's result of the
  three input arrays as the region finds them, which the host operations before the region built from the arguments (the
  time-major inputs, the packed slab, the packed output layer); row by row that is the specification's output, and the one
  block covers the result array.
-/
import proofs.«137923_g2000504385433502_pallaspilot1_15_32_alg».proof.Proof.Gen.ReferenceIdeal.Value
import proofs.«137923_g2000504385433502_pallaspilot1_15_32_alg».proof.Proof.RefPiece
import proofs.«137923_g2000504385433502_pallaspilot1_15_32_alg».proof.Proof.RefBlocks
import proofs.«137923_g2000504385433502_pallaspilot1_15_32_alg».proof.Proof.RefHost

noncomputable section

open Idealize.ShloMosaic Idealize.ShloMosaic.TcCoe Idealize.SL.Sem
open Idealize.ShloMosaic.Pipeline (Dat)

namespace Cert.ReferenceIdeal.LstmValue

open Cert.ReferenceIdeal Cert.ReferenceIdeal.Gen Idealize.ShloMosaic.ValueIdx

variable (m : (ℓ : Loc nD τ sig) → Buf (Elt Ideal) ℓ) (ρ : Dev nD → PrngReg)

/-! ## The one point's blocks are the whole arrays -/

/-- At the one grid point, window 0's block is its whole array as the region finds it. -/
theorem iblk0_eq (c : Dev nD) : (iblk m c 0 t0_0 : Vec Ideal S32768x128 .f32) = V m c main_v1 := by
  unfold iblk
  have hz' : (fun a => win0_0.index t0_0 a * main_v1.ty.shape.size a) = fun _ => 0 :=
    funext fun a => by fin_cases a <;> decide
  exact Memref.read_access_unit_zero (Elt Ideal) main_v1 hz' (fun a => by rw [congrFun hz' a]; simp) (V m c main_v1)

/-- At the one grid point, window 1's block is its whole array as the region finds it. -/
theorem iblk1_eq (c : Dev nD) : (iblk m c 1 t0_0 : Vec Ideal S200x256 .f32) = V m c main_v24 := by
  unfold iblk
  have hz' : (fun a => win0_1.index t0_0 a * main_v24.ty.shape.size a) = fun _ => 0 :=
    funext fun a => by fin_cases a <;> decide
  exact Memref.read_access_unit_zero (Elt Ideal) main_v24 hz' (fun a => by rw [congrFun hz' a]; simp) (V m c main_v24)

/-- At the one grid point, window 2's block is its whole array as the region finds it. -/
theorem iblk2_eq (c : Dev nD) : (iblk m c 2 t0_0 : Vec Ideal S72x3 .f32) = V m c main_v29 := by
  unfold iblk
  have hz' : (fun a => win0_2.index t0_0 a * main_v29.ty.shape.size a) = fun _ => 0 :=
    funext fun a => by fin_cases a <;> decide
  exact Memref.read_access_unit_zero (Elt Ideal) main_v29 hz' (fun a => by rw [congrFun hz' a]; simp) (V m c main_v29)

/-! ## What the point writes back -/

/-- The specification's result of core `c`'s argument arrays. -/
abbrev resultOf (c : Dev nD) : Buf (Elt Ideal) ((c : Thread nD τ).loc main_v30) :=
  Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The body's result of the three input arrays as the region finds them is the specification's result. -/
theorem body_eq_result (c : Dev nD) :
    bodyOf (whhBlock (iblk m c 1 t0_0)) (xgBlock (iblk m c 0 t0_0) (iblk m c 1 t0_0)) (woutBlock (iblk m c 2 t0_0))
        (boutRow (iblk m c 2 t0_0)) = resultOf m c := by
  funext i
  obtain ⟨b, a, rfl⟩ : ∃ (b : Fin 4096) (a : Fin 3), i = ix2 b a := ⟨i 0, i 1, eq_ix2 i⟩
  exact body_eq_out (Host.params m c) (m ((c : Thread nD τ).loc main_arg0)) (iblk m c 0 t0_0) (iblk m c 1 t0_0) (iblk m c 2 t0_0)
    (fun t r d => (congrFun (iblk0_eq m c) _).trans (Host.x2d m c t r d))
    (fun d n => (congrFun (iblk1_eq m c) _).trans (Host.wpk_wih m c d n))
    (fun j n => (congrFun (iblk1_eq m c) _).trans (Host.wpk_whh m c j n))
    (fun n => (congrFun (iblk1_eq m c) _).trans (Host.wpk_bias m c n))
    (fun j a => (congrFun (iblk2_eq m c) _).trans (Host.wout_w m c j a))
    (fun a => (congrFun (iblk2_eq m c) _).trans (Host.wout_b m c a)) b a

/-- WHAT THE POINT WRITES BACK is the block (the whole) of the specification's result. -/
theorem flushed_eq (c : Dev nD) (t : Fin cfg0.N) :
    (dats m 0 c).flushed 3 t = ((cfg0.win 3).blk t).view.read (Elt Ideal) (resultOf m c) := by
  obtain rfl : t = t0_0 := fin_N0 t
  rw [Value.flushed3_A,
    out_eq (F := Ideal) c (grid0.coords t0_0) (ms0_0 t0_0) (hs0_0 t0_0) (ms0_1 t0_0) (hs0_1 t0_0) (ms0_2 t0_0) (hs0_2 t0_0) (ms0_3 t0_0) (hs0_3 t0_0) scM0_0 (Memref.isWhole_whole _) (iblk m c 0 t0_0) (iblk m c 1 t0_0) (iblk m c 2 t0_0),
    body_eq_result]
  have hz' : (fun a => win0_3.index t0_0 a * main_v30.ty.shape.size a) = fun _ => 0 :=
    funext fun a => by fin_cases a <;> decide
  exact (Memref.read_access_unit_zero (Elt Ideal) main_v30 hz' (fun a => by rw [congrFun hz' a]; simp) (resultOf m c)).symm

/-! ## The array after the run -/

/-- The one block covers the result array, so the array ends holding the specification's result. -/
theorem final (c : Dev nD) : (dats m 0 c).arrAt 3 cfg0.N = resultOf m c :=
  (dats m 0 c).arrAt_eq_of_cover 3 (resultOf m c) (fun t _ => flushed_eq m c t) fun i =>
    ⟨t0_0, flush0_3 t0_0, by
      show i ∈ ((View.whole main_v30).slice (win0_3.rect t0_0)).set
      rw [View.set_slice_whole, Rect.mem_set_unit]
      intro a
      have h0 : (i 0 : Nat) < 4096 := (i 0).isLt
      have h1 : (i 1 : Nat) < 3 := (i 1).isLt
      match a with
      | ⟨0, _⟩ =>
        show win0_3.index t0_0 0 * win0_3.size 0 ≤ (i 0 : Nat)
          ∧ (i 0 : Nat) < win0_3.index t0_0 0 * win0_3.size 0 + win0_3.xsize (grid0.coords t0_0) 0
        rw [show win0_3.index t0_0 0 * win0_3.size 0 = 0 from by decide +kernel,
          show win0_3.xsize (grid0.coords t0_0) 0 = 4096 from by decide +kernel]
        omega
      | ⟨1, _⟩ =>
        show win0_3.index t0_0 1 * win0_3.size 1 ≤ (i 1 : Nat)
          ∧ (i 1 : Nat) < win0_3.index t0_0 1 * win0_3.size 1 + win0_3.xsize (grid0.coords t0_0) 1
        rw [show win0_3.index t0_0 1 * win0_3.size 1 = 0 from by decide +kernel,
          show win0_3.xsize (grid0.coords t0_0) 1 = 3 from by decide +kernel]
        omega⟩

/-! ## The run, read -/

/-- Every weakly fair execution of the reference terminates with the result array at the specification's result of the
    argument arrays and the arguments unchanged. -/
theorem run : θ_run defs (onTc (τ := τ) (main (F := Ideal))) ⟨m, fun _ => 0, ρ⟩ fun r => ∀ c : Dev nD,
      r.2.mem ((c : Thread nD τ).loc main_v30) = Cert.Lstm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.ReferenceIdeal.LstmValue

end
-- ==== Proof.lean ====
/-
  The kernel and its reference compute one function: a long short-term memory network run for eight time steps on each of
  the 4096 rows of the batch from the zero state, followed by a linear output layer on the last hidden state
  (`Cert.Lstm.result`, Proof/LstmSpec.lean).

  The two programs arrange the same arithmetic differently.  The kernel tiles the batch by 1024 rows over four grid points
  and, per step, forms every gate pre-activation by ONE contraction over 200 places: the row [x_t | h | eight eighths]
  against the stacked matrix [W_ih ; W_hh ; the bias eight times], each column carrying its gate's factor (1/2 for the
  three sigmoid gates, computed as tanh(z/2)/2 + 1/2; 1 for the cell gate).  The reference projects all eight time steps'
  inputs at once into a scratch matrix (adding the bias there), and per step adds the state's projection; its weights
  come packed in one slab that host code builds.  At the ideal values the two pre-activations differ only by the grouping
  of a finite sum and by eight eighths of the bias summing to the bias — true of every extended real, so the finiteness
  of the inputs is never used.  The gates agree because x · 1 + 0 = x on the extended reals.

  Proved by hand: the specification and the two sum laws; that the kernel's payloads, row by row, step by step, are the
  specification's step, and that its four blocks tile the result (Proof/Kernel*.lean); that the reference's three input
  arrays hold the time-major inputs and the packed weights (Proof/RefHost.lean over Proof/LibScatterUpdate.lean), that its
  payloads are the specification's step and that its one block is the result (Proof/Ref*.lean).  The three frames are
  the generated ones; no rewrite was applied by the idealization, so that conjunct is trivial.
-/
import proofs.«137923_g2000504385433502_pallaspilot1_15_32_alg».proof.Defs
import proofs.«137923_g2000504385433502_pallaspilot1_15_32_alg».proof.Proof.Gen.Kernel
import proofs.«137923_g2000504385433502_pallaspilot1_15_32_alg».proof.Proof.Gen.Kernel.Skeleton
import proofs.«137923_g2000504385433502_pallaspilot1_15_32_alg».proof.Proof.Gen.Kernel.Launch
import proofs.«137923_g2000504385433502_pallaspilot1_15_32_alg».proof.Proof.Gen.Kernel.Points
import proofs.«137923_g2000504385433502_pallaspilot1_15_32_alg».proof.Proof.Gen.Kernel.Frame
import proofs.«137923_g2000504385433502_pallaspilot1_15_32_alg».proof.Proof.Gen.KernelIdeal
import proofs.«137923_g2000504385433502_pallaspilot1_15_32_alg».proof.Proof.Gen.KernelIdeal.Skeleton
import proofs.«137923_g2000504385433502_pallaspilot1_15_32_alg».proof.Proof.Gen.KernelIdeal.Launch
import proofs.«137923_g2000504385433502_pallaspilot1_15_32_alg».proof.Proof.Gen.KernelIdeal.Points
import proofs.«137923_g2000504385433502_pallaspilot1_15_32_alg».proof.Proof.Gen.KernelIdeal.Frame
import proofs.«137923_g2000504385433502_pallaspilot1_15_32_alg».proof.Proof.Gen.ReferenceIdeal
import proofs.«137923_g2000504385433502_pallaspilot1_15_32_alg».proof.Proof.Gen.ReferenceIdeal.Skeleton
import proofs.«137923_g2000504385433502_pallaspilot1_15_32_alg».proof.Proof.Gen.ReferenceIdeal.Launch
import proofs.«137923_g2000504385433502_pallaspilot1_15_32_alg».proof.Proof.Gen.ReferenceIdeal.Points
import proofs.«137923_g2000504385433502_pallaspilot1_15_32_alg».proof.Proof.Gen.ReferenceIdeal.Frame
import proofs.«137923_g2000504385433502_pallaspilot1_15_32_alg».proof.Proof.Gen.Pre_finite_inputs
import proofs.«137923_g2000504385433502_pallaspilot1_15_32_alg».proof.Proof.Gen.KernelIdeal.Value
import proofs.«137923_g2000504385433502_pallaspilot1_15_32_alg».proof.Proof.Gen.ReferenceIdeal.Value
import proofs.«137923_g2000504385433502_pallaspilot1_15_32_alg».proof.Proof.KernelBlocks
import proofs.«137923_g2000504385433502_pallaspilot1_15_32_alg».proof.Proof.RefRun
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

theorem frame_referenceIdeal [Cert.ReferenceIdeal.Facts] [Cert.Pre_finite_inputs.Facts] : Cert.frame_ReferenceIdeal :=
  fun m ρ _ => Cert.ReferenceIdeal.Gen.frame m ρ

/-- Both programs, run from memories that agree on the arguments, end with the specification's result of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.LstmValue.run m ρ, ?_⟩
  refine (θ_run Cert.ReferenceIdeal.defs _ _).mono (fun r h c => ⟨(h c).1.trans ?_, (h c).2⟩)
    (Cert.ReferenceIdeal.LstmValue.run m' ρ')
  rw [(hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
